-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608 : Shape := ⟨1, ![8388608]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel

variable [Facts]

def fn {F : FTy → Type} [FloatOps F] (main_arg0 : FVec F S8388608 .f32) (main_arg1 : IVec S8388608 32) (main_arg2 : IVec S8388608 32) : IVec S_ 1 :=
  let main_v0 : FVec F S8388608 .f32 := Host.absf main_arg0
  let main_cst : FVec F S_ .f32 := constant S_ .f32 0x7F800000#32
  let main_v1 : FVec F S8388608 .f32 := broadcastInDim S8388608 ![] bcast_S_S8388608 main_cst
  let main_v2 : IVec S8388608 1 := cmpf .olt main_v0 main_v1
  let main_c : IVec S_ 1 := constantI S_ 1 1#1
  let main_v3 : IVec S_ 1 := (fun x v => Host.reduce IntOp.andi x v reducesTo_S8388608_S_d0 h_S_) main_v2 main_c
  let main_c_0 : IVec S_ 32 := constantI S_ 32 0#32
  let main_v4 : IVec S8388608 32 := broadcastInDim S8388608 ![] bcast_S_S8388608 main_c_0
  let main_v5 : IVec S8388608 1 := cmpi .eq main_arg1 main_v4
  let main_c_1 : IVec S_ 32 := constantI S_ 32 1#32
  let main_v6 : IVec S8388608 32 := broadcastInDim S8388608 ![] bcast_S_S8388608 main_c_1
  let main_v7 : IVec S8388608 1 := cmpi .eq main_arg1 main_v6
  let main_v8 : IVec S8388608 1 := ori main_v5 main_v7
  let main_c_2 : IVec S_ 1 := constantI S_ 1 1#1
  let main_v9 : IVec S_ 1 := (fun x v => Host.reduce IntOp.andi x v reducesTo_S8388608_S_d0 h_S_) main_v8 main_c_2
  let main_v10 : IVec S_ 1 := andi main_v3 main_v9
  main_v10
-- ==== Kernel.lean ====
abbrev S8388608 : Shape := ⟨1, ![8388608]⟩
abbrev S2x32768x128 : Shape := ⟨3, ![2, 32768, 128]⟩
abbrev S2x1x1 : Shape := ⟨3, ![2, 1, 1]⟩
abbrev S1x4096x128 : Shape := ⟨3, ![1, 4096, 128]⟩
abbrev S1x1x1 : Shape := ⟨3, ![1, 1, 1]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S_ : Shape := ⟨0, ![]⟩
abbrev S65536 : Shape := ⟨1, ![65536]⟩
abbrev S8388608x1 : Shape := ⟨2, ![8388608, 1]⟩

abbrev nBuf : Space → Nat
  | .hbm => 78
  | .vmem => 9
  | .smem => 0
  | _ => 0

abbrev bufTy : (tb : Table) → Fin (tcTables nBuf tb) → BufTy
  | .hbm, ⟨0, _⟩ => ⟨S8388608, .f32⟩
  | .hbm, ⟨1, _⟩ => ⟨S8388608, .i32⟩
  | .hbm, ⟨2, _⟩ => ⟨S8388608, .i32⟩
  | .hbm, ⟨3, _⟩ => ⟨S2x32768x128, .f32⟩
  | .hbm, ⟨4, _⟩ => ⟨S2x32768x128, .i32⟩
  | .hbm, ⟨5, _⟩ => ⟨S2x32768x128, .f32⟩
  | .hbm, ⟨6, _⟩ => ⟨S2x1x1, .f32⟩
  | .hbm, ⟨7, _⟩ => ⟨S8388608, .f32⟩
  | .hbm, ⟨8, _⟩ => ⟨S_, .f32⟩
  | .hbm, ⟨9, _⟩ => ⟨S_, .f32⟩
  | .hbm, ⟨10, _⟩ => ⟨S8388608, .f32⟩
  | .hbm, ⟨11, _⟩ => ⟨S_, .f32⟩
  | .hbm, ⟨12, _⟩ => ⟨S65536, .f32⟩
  | .hbm, ⟨13, _⟩ => ⟨S8388608x1, .i32⟩
  | .hbm, ⟨14, _⟩ => ⟨S65536, .f32⟩
  | .hbm, ⟨15, _⟩ => ⟨S_, .f32⟩
  | .hbm, ⟨16, _⟩ => ⟨S8388608, .f32⟩
  | .hbm, ⟨17, _⟩ => ⟨S8388608, .f32⟩
  | .hbm, ⟨18, _⟩ => ⟨S_, .f32⟩
  | .hbm, ⟨19, _⟩ => ⟨S65536, .f32⟩
  | .hbm, ⟨20, _⟩ => ⟨S8388608x1, .i32⟩
  | .hbm, ⟨21, _⟩ => ⟨S65536, .f32⟩
  | .hbm, ⟨22, _⟩ => ⟨S_, .f32⟩
  | .hbm, ⟨23, _⟩ => ⟨S65536, .f32⟩
  | .hbm, ⟨24, _⟩ => ⟨S8388608x1, .i32⟩
  | .hbm, ⟨25, _⟩ => ⟨S65536, .f32⟩
  | .hbm, ⟨26, _⟩ => ⟨S_, .f32⟩
  | .hbm, ⟨27, _⟩ => ⟨S65536, .f32⟩
  | .hbm, ⟨28, _⟩ => ⟨S65536, .i1⟩
  | .hbm, ⟨29, _⟩ => ⟨S65536, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S65536, .f32⟩
  | .hbm, ⟨45, _⟩ => ⟨S65536, .i1⟩
  | .hbm, ⟨46, _⟩ => ⟨S65536, .f32⟩
  | .hbm, ⟨47, _⟩ => ⟨S_, .f32⟩
  | .hbm, ⟨48, _⟩ => ⟨S_, .f32⟩
  | .hbm, ⟨49, _⟩ => ⟨S65536, .f32⟩
  | .hbm, ⟨50, _⟩ => ⟨S_, .f32⟩
  | .hbm, ⟨51, _⟩ => ⟨S65536, .f32⟩
  | .hbm, ⟨52, _⟩ => ⟨S65536, .f32⟩
  | .hbm, ⟨53, _⟩ => ⟨S_, .f32⟩
  | .hbm, ⟨54, _⟩ => ⟨S65536, .f32⟩
  | .hbm, ⟨55, _⟩ => ⟨S65536, .f32⟩
  | .hbm, ⟨56, _⟩ => ⟨S_, .f32⟩
  | .hbm, ⟨57, _⟩ => ⟨S65536, .f32⟩
  | .hbm, ⟨58, _⟩ => ⟨S65536, .f32⟩
  | .hbm, ⟨59, _⟩ => ⟨S65536, .f32⟩
  | .hbm, ⟨60, _⟩ => ⟨S_, .f32⟩
  | .hbm, ⟨61, _⟩ => ⟨S_, .f32⟩
  | .hbm, ⟨62, _⟩ => ⟨S65536, .f32⟩
  | .hbm, ⟨63, _⟩ => ⟨S65536, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .i32⟩
  | .local _ .vmem, ⟨3, _⟩ => ⟨S1x4096x128, .i32⟩
  | .local _ .vmem, ⟨4, _⟩ => ⟨S1x4096x128, .f32⟩
  | .local _ .vmem, ⟨5, _⟩ => ⟨S1x4096x128, .f32⟩
  | .local _ .vmem, ⟨6, _⟩ => ⟨S1x1x1, .f32⟩
  | .local _ .vmem, ⟨7, _⟩ => ⟨S1x1x1, .f32⟩
  | .local _ .vmem, ⟨8, _⟩ => ⟨S1x1, .f32⟩
  | _, _ => ⟨S8388608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_cst_9 : Ref sig .tc := ⟨.hbm, 40, rfl⟩
abbrev main_call0_v0 : Ref sig .tc := ⟨.hbm, 41, rfl⟩
abbrev main_v26 : Ref sig .tc := ⟨.hbm, 42, rfl⟩
abbrev main_cst_10 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_11 : Ref sig .tc := ⟨.hbm, 47, rfl⟩
abbrev main_v30 : Ref sig .tc := ⟨.hbm, 48, rfl⟩
abbrev main_v31 : Ref sig .tc := ⟨.hbm, 49, rfl⟩
abbrev main_cst_12 : Ref sig .tc := ⟨.hbm, 50, rfl⟩
abbrev main_v32 : Ref sig .tc := ⟨.hbm, 51, rfl⟩
abbrev main_v33 : Ref sig .tc := ⟨.hbm, 52, rfl⟩
abbrev main_cst_13 : Ref sig .tc := ⟨.hbm, 53, rfl⟩
abbrev main_v34 : Ref sig .tc := ⟨.hbm, 54, rfl⟩
abbrev main_v35 : Ref sig .tc := ⟨.hbm, 55, rfl⟩
abbrev main_cst_14 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_15 : Ref sig .tc := ⟨.hbm, 60, rfl⟩
abbrev main_call1_v0 : Ref sig .tc := ⟨.hbm, 61, rfl⟩
abbrev main_call1_v1 : Ref sig .tc := ⟨.hbm, 62, rfl⟩
abbrev main_v39 : Ref sig .tc := ⟨.hbm, 63, rfl⟩
abbrev main_cst_16 : Ref sig .tc := ⟨.hbm, 64, rfl⟩
abbrev main_v40 : Ref sig .tc := ⟨.hbm, 65, rfl⟩
abbrev main_cst_17 : Ref sig .tc := ⟨.hbm, 66, rfl⟩
abbrev main_v41 : Ref sig .tc := ⟨.hbm, 67, rfl⟩
abbrev main_cst_18 : Ref sig .tc := ⟨.hbm, 68, rfl⟩
abbrev main_v42 : Ref sig .tc := ⟨.hbm, 69, rfl⟩
abbrev main_v43 : Ref sig .tc := ⟨.hbm, 70, rfl⟩
abbrev main_cst_19 : Ref sig .tc := ⟨.hbm, 71, rfl⟩
abbrev main_v44 : Ref sig .tc := ⟨.hbm, 72, rfl⟩
abbrev main_v45 : Ref sig .tc := ⟨.hbm, 73, rfl⟩
abbrev main_cst_20 : Ref sig .tc := ⟨.hbm, 74, rfl⟩
abbrev main_call2_v0 : Ref sig .tc := ⟨.hbm, 75, rfl⟩
abbrev main_v46 : Ref sig .tc := ⟨.hbm, 76, rfl⟩
abbrev main_v47 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v34 : BitVec 1 := Scalar.cmpi .eq arg1 c7_i32
  let v35 : BitVec 32 := Scalar.extui v34
  let c0_i32_17 : BitVec 32 := 0#32
  let v36 : BitVec 1 := Scalar.cmpi .ne v35 c0_i32_17
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8388608_S2x32768x128 : S8388608.ShapeCasts S2x32768x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  natLt_1_32 : 1 < 32
  shapeCasts_S4096x128_S1x4096x128 : S4096x128.ShapeCasts S1x4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  shapeCasts_S2x32768x128_S8388608 : S2x32768x128.ShapeCasts S8388608
  reducesTo_S2x1x1_S_d0_1_2 : S2x1x1.ReducesTo [0, 1, 2] S_
  h_S_ : 0 < S_.numel
  bcast_S_S65536 : S_.BroadcastsInDim S65536 (![] : Fin 0 → Fin S65536.rank)
  bcast_S8388608_S8388608x1_0 : S8388608.BroadcastsInDim S8388608x1 (![0] : Fin 1 → Fin S8388608x1.rank)
  bcast_S_S8388608 : S_.BroadcastsInDim S8388608 (![] : Fin 0 → Fin S8388608.rank)
  reducesTo_S65536_S_d0 : S65536.ReducesTo [0] S_
  scatter_S65536_S8388608x1_S8388608_n_0_0_1_wf : ScatterDims.WF S65536 S8388608x1 S8388608 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S2x32768x128.size a
  hwx0_0 : ∀ i : grid0.Coords, EltTy.bits .f32 = 32 ∨ (Rect.block (s := S2x32768x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S2x32768x128.size a
  hwx0_1 : ∀ i : grid0.Coords, EltTy.bits .i32 = 32 ∨ (Rect.block (s := S2x32768x128) S1x4096x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x128.size a ≤ S2x32768x128.size a
  hwx0_2 : ∀ i : grid0.Coords, EltTy.bits .f32 = 32 ∨ (Rect.block (s := S2x32768x128) S1x4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def scatter_S65536_S8388608x1_S8388608_n_0_0_1 : ScatterDims S65536 S8388608x1 S8388608 where
  updateWindowDims := []
  insertedWindowDims := [0]
  scatterDimsToOperandDims := [0]
  indexVectorDim := 1
  wf := scatter_S65536_S8388608x1_S8388608_n_0_0_1_wf

abbrev win0_0 : Pipeline.Window sig grid0 :=
  Pipeline.Window.ofSpec (Memref.whole main_v0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x4096x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8388608 : Shape := ⟨1, ![8388608]⟩
abbrev S_ : Shape := ⟨0, ![]⟩
abbrev S65536 : Shape := ⟨1, ![65536]⟩
abbrev S8388608x1 : Shape := ⟨2, ![8388608, 1]⟩

abbrev nBuf : Space → Nat
  | .hbm => 86
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S8388608, .i32⟩
  | .hbm, ⟨2, _⟩ => ⟨S8388608, .i32⟩
  | .hbm, ⟨3, _⟩ => ⟨S_, .f32⟩
  | .hbm, ⟨4, _⟩ => ⟨S8388608, .f32⟩
  | .hbm, ⟨5, _⟩ => ⟨S8388608, .f32⟩
  | .hbm, ⟨6, _⟩ => ⟨S_, .f32⟩
  | .hbm, ⟨7, _⟩ => ⟨S8388608, .f32⟩
  | .hbm, ⟨8, _⟩ => ⟨S8388608, .f32⟩
  | .hbm, ⟨9, _⟩ => ⟨S8388608, .f32⟩
  | .hbm, ⟨10, _⟩ => ⟨S_, .i32⟩
  | .hbm, ⟨11, _⟩ => ⟨S8388608, .i32⟩
  | .hbm, ⟨12, _⟩ => ⟨S8388608, .i1⟩
  | .hbm, ⟨13, _⟩ => ⟨S_, .i32⟩
  | .hbm, ⟨14, _⟩ => ⟨S8388608, .i32⟩
  | .hbm, ⟨15, _⟩ => ⟨S8388608, .i1⟩
  | .hbm, ⟨16, _⟩ => ⟨S8388608, .f32⟩
  | .hbm, ⟨17, _⟩ => ⟨S8388608, .f32⟩
  | .hbm, ⟨18, _⟩ => ⟨S_, .f32⟩
  | .hbm, ⟨19, _⟩ => ⟨S65536, .f32⟩
  | .hbm, ⟨20, _⟩ => ⟨S8388608x1, .i32⟩
  | .hbm, ⟨21, _⟩ => ⟨S65536, .f32⟩
  | .hbm, ⟨22, _⟩ => ⟨S_, .f32⟩
  | .hbm, ⟨23, _⟩ => ⟨S65536, .f32⟩
  | .hbm, ⟨24, _⟩ => ⟨S65536, .i1⟩
  | .hbm, ⟨25, _⟩ => ⟨S65536, .f32⟩
  | .hbm, ⟨26, _⟩ => ⟨S_, .f32⟩
  | .hbm, ⟨27, _⟩ => ⟨S_, .f32⟩
  | .hbm, ⟨28, _⟩ => ⟨S8388608, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S65536, .f32⟩
  | .hbm, ⟨44, _⟩ => ⟨S8388608x1, .i32⟩
  | .hbm, ⟨45, _⟩ => ⟨S65536, .f32⟩
  | .hbm, ⟨46, _⟩ => ⟨S_, .f32⟩
  | .hbm, ⟨47, _⟩ => ⟨S65536, .f32⟩
  | .hbm, ⟨48, _⟩ => ⟨S65536, .i1⟩
  | .hbm, ⟨49, _⟩ => ⟨S65536, .f32⟩
  | .hbm, ⟨50, _⟩ => ⟨S_, .f32⟩
  | .hbm, ⟨51, _⟩ => ⟨S_, .f32⟩
  | .hbm, ⟨52, _⟩ => ⟨S8388608, .f32⟩
  | .hbm, ⟨53, _⟩ => ⟨S_, .f32⟩
  | .hbm, ⟨54, _⟩ => ⟨S65536, .f32⟩
  | .hbm, ⟨55, _⟩ => ⟨S8388608x1, .i32⟩
  | .hbm, ⟨56, _⟩ => ⟨S65536, .f32⟩
  | .hbm, ⟨57, _⟩ => ⟨S65536, .f32⟩
  | .hbm, ⟨58, _⟩ => ⟨S_, .f32⟩
  | .hbm, ⟨59, _⟩ => ⟨S65536, .f32⟩
  | .hbm, ⟨60, _⟩ => ⟨S65536, .f32⟩
  | .hbm, ⟨61, _⟩ => ⟨S_, .f32⟩
  | .hbm, ⟨62, _⟩ => ⟨S65536, .f32⟩
  | .hbm, ⟨63, _⟩ => ⟨S65536, .f32⟩
  | .hbm, ⟨64, _⟩ => ⟨S_, .f32⟩
  | .hbm, ⟨65, _⟩ => ⟨S65536, .f32⟩
  | .hbm, ⟨66, _⟩ => ⟨S65536, .f32⟩
  | .hbm, ⟨67, _⟩ => ⟨S65536, .f32⟩
  | .hbm, ⟨68, _⟩ => ⟨S_, .f32⟩
  | .hbm, ⟨69, _⟩ => ⟨S_, .f32⟩
  | .hbm, ⟨70, _⟩ => ⟨S65536, .f32⟩
  | .hbm, ⟨71, _⟩ => ⟨S65536, .f32⟩
  | .hbm, ⟨72, _⟩ => ⟨S_, .f32⟩
  | .hbm, ⟨73, _⟩ => ⟨S_, .i1⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_cst_9 : Ref sig .tc := ⟨.hbm, 39, rfl⟩
abbrev main_call0_v0 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_11 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_12 : Ref sig .tc := ⟨.hbm, 50, rfl⟩
abbrev main_v32 : Ref sig .tc := ⟨.hbm, 51, rfl⟩
abbrev main_v33 : Ref sig .tc := ⟨.hbm, 52, rfl⟩
abbrev main_cst_13 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_14 : Ref sig .tc := ⟨.hbm, 58, rfl⟩
abbrev main_v38 : Ref sig .tc := ⟨.hbm, 59, rfl⟩
abbrev main_v39 : Ref sig .tc := ⟨.hbm, 60, rfl⟩
abbrev main_cst_15 : Ref sig .tc := ⟨.hbm, 61, rfl⟩
abbrev main_v40 : Ref sig .tc := ⟨.hbm, 62, rfl⟩
abbrev main_v41 : Ref sig .tc := ⟨.hbm, 63, rfl⟩
abbrev main_cst_16 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_17 : Ref sig .tc := ⟨.hbm, 68, rfl⟩
abbrev main_call1_v0 : Ref sig .tc := ⟨.hbm, 69, rfl⟩
abbrev main_call1_v1 : Ref sig .tc := ⟨.hbm, 70, rfl⟩
abbrev main_v45 : Ref sig .tc := ⟨.hbm, 71, rfl⟩
abbrev main_cst_18 : Ref sig .tc := ⟨.hbm, 72, rfl⟩
abbrev main_v46 : Ref sig .tc := ⟨.hbm, 73, rfl⟩
abbrev main_cst_19 : Ref sig .tc := ⟨.hbm, 74, rfl⟩
abbrev main_v47 : Ref sig .tc := ⟨.hbm, 75, rfl⟩
abbrev main_cst_20 : Ref sig .tc := ⟨.hbm, 76, rfl⟩
abbrev main_v48 : Ref sig .tc := ⟨.hbm, 77, rfl⟩
abbrev main_v49 : Ref sig .tc := ⟨.hbm, 78, rfl⟩
abbrev main_cst_21 : Ref sig .tc := ⟨.hbm, 79, rfl⟩
abbrev main_v50 : Ref sig .tc := ⟨.hbm, 80, rfl⟩
abbrev main_v51 : Ref sig .tc := ⟨.hbm, 81, rfl⟩
abbrev main_cst_22 : Ref sig .tc := ⟨.hbm, 82, rfl⟩
abbrev main_call2_v0 : Ref sig .tc := ⟨.hbm, 83, rfl⟩
abbrev main_v52 : Ref sig .tc := ⟨.hbm, 84, rfl⟩
abbrev main_v53 : Ref sig .tc := ⟨.hbm, 85, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S_S65536 : S_.BroadcastsInDim S65536 (![] : Fin 0 → Fin S65536.rank)
  bcast_S8388608_S8388608x1_0 : S8388608.BroadcastsInDim S8388608x1 (![0] : Fin 1 → Fin S8388608x1.rank)
  reducesTo_S65536_S_d0 : S65536.ReducesTo [0] S_
  h_S_ : 0 < S_.numel
  reducesTo_S8388608_S_d0 : S8388608.ReducesTo [0] S_
  scatter_S65536_S8388608x1_S8388608_n_0_0_1_wf : ScatterDims.WF S65536 S8388608x1 S8388608 [] [0] [0] 1

variable [Facts₀]

def scatter_S65536_S8388608x1_S8388608_n_0_0_1 : ScatterDims S65536 S8388608x1 S8388608 where
  updateWindowDims := []
  insertedWindowDims := [0]
  scatterDimsToOperandDims := [0]
  indexVectorDim := 1
  wf := scatter_S65536_S8388608x1_S8388608_n_0_0_1_wf

class Facts : Prop extends Facts₀ where

variable [Facts]
-- ==== Proof.KerBitsSetup.lean ====
/-
  The program around its one kernel launch: the two reshapes that lay the instance arrays out as [2, 32768, 128]
  before the launch, the launch over a 2 × 8 grid, and the host operations after it. Stated here: what every buffer
  holds when the launch begins (`V`), that the later operations neither allocate nor write an array the launch
  stages, that the three argument arrays are never written, the block of each staged array at a grid point, the two
  branch conditions of the kernel body in closed form over the grid (the first block of a core's eight: t ≡ 0 mod 8;
  the last: t ≡ 7 mod 8), and where the per-core sum's window is idle (everywhere but the last block).
-/
import proofs.«144705_j45681272160447_2_alg».proof.Proof.Gen.Kernel.Launch
import proofs.«144705_j45681272160447_2_alg».proof.Proof.Gen.Kernel.Skeleton
import proofs.«144705_j45681272160447_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the launch -/

/-- What each buffer holds when the launch begins: the memory after the two reshapes. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The stretches of host operations after the launch, in order. -/
abbrev tailOps : List (List (HloOp τ sig (Elt F))) := [hostOps1, hostOps1_1, hostOps1_2, hostOps1_3, hostOps1_4, hostOps1_5, hostOps1_6]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

theorem hostOps1_keeps : (hostOps1 : List (HloOp τ sig (Elt F))).Forall fun op => ∀ w : Fin 4, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op => ∀ w : Fin 4, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op => ∀ w : Fin 4, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_keeps : (hostOps1_3 : List (HloOp τ sig (Elt F))).Forall fun op => ∀ w : Fin 4, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_keeps : (hostOps1_4 : List (HloOp τ sig (Elt F))).Forall fun op => ∀ w : Fin 4, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_keeps : (hostOps1_5 : List (HloOp τ sig (Elt F))).Forall fun op => ∀ w : Fin 4, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_keeps : (hostOps1_6 : List (HloOp τ sig (Elt F))).Forall fun op => ∀ w : Fin 4, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- The program is the reshapes, the launch, then the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later operations touch only unscoped TensorCore buffers. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
/-- And write no array the launch stages: each writes its own result buffer only. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

/-- The reshapes do not write argument 0: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later operation writes argument 0: it ends as given. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The reshapes do not write argument 1: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later operation writes argument 1: it ends as given. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The reshapes do not write argument 2: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later operation writes argument 2: it ends as given. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The blocks -/

/-- The block of staged array `w` at grid point `t`, read off the array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's current staging buffer holds its block at every point. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's current staging buffer holds its block at every point. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- A run whose final state has every staged array at what the proof data computes and every other unscoped buffer as
    the later operations leave it ends with the three argument arrays as given. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
    (((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c))⟩) h

/-! ## The body's two branch conditions -/

/-- "This is the first of the core's eight blocks" (the accumulator is reset), from the grid coordinates. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- "This is the last of the core's eight blocks" (the accumulator is written out). -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Away from a core's last block nothing is stored into the per-core sum's window, and it is not written back. -/
theorem idleAt3 : ∀ t : Fin cfg0.N, ¬condLast (grid0.coords t) → cfg0.idle 3 (grid0.coords t) = true := by decide +kernel
theorem noFlush3 : ∀ t : Fin cfg0.N, ¬condLast (grid0.coords t) → (cfg0.win 3).flush t = false := by decide +kernel
theorem liveAt3 : ∀ t : Fin cfg0.N, condLast (grid0.coords t) → cfg0.idle 3 (grid0.coords t) = false := by decide +kernel

/-! ## The memrefs the body is called with -/

/-- One staging buffer of each output window, through which its contents are stated. -/
abbrev VO2 : View sig .tc .vmem S1x4096x128 .f32 := (Memref.whole cc0_stg2_0 : Memref sig .tc .vmem S1x4096x128 .f32).view
abbrev VO3 : View sig .tc .vmem S1x1x1 .f32 := (Memref.whole cc0_stg3_0 : Memref sig .tc .vmem S1x1x1 .f32).view
abbrev ms0 (t : Fin cfg0.N) : Memref sig .tc .vmem S1x4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x128 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1 .f32 := win0_3.stage (cfg0.slots t 3)
abbrev hs3 (t : Fin cfg0.N) : (ms3 t).IsWhole := hstage0_3 ((cfg0.slots t 3).cast nbuf0_3)
/-- The accumulator: a scoped buffer of the kernel's own, carried from block to block. -/
abbrev accM : Memref sig .tc .vmem S1x1 .f32 := Memref.whole cc0_scratch0
abbrev VAcc : View sig .tc .vmem S1x1 .f32 := accM.view

/-- What the launch lends the body beside the windows: the accumulator at some contents, and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Fr

end
-- ==== Proof.KerBitsRunFirst.lean ====
/-
  The kernel body run once at the FIRST of a core's eight blocks: the accumulator is reset to zero, the block's
  positive-instance products are stored whole into the output block, and the block's negative-instance sum is added to
  the accumulator; nothing is stored into the per-core sum's window. The run finds, as pieces, what the output block and
  the accumulator end with.
-/
import proofs.«144705_j45681272160447_2_alg».proof.Proof.KerBitsSetup

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the two input blocks at their contents, the output block at anything, the per-core sum's
    buffer handed back untouched, the accumulator at anything — the body runs to a continuation holding the inputs as
    they were, the output block and the accumulator with the pieces found written. -/
noncomputable def runFirst (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : condFirst i) (hc1 : ¬condLast i)
    (x0 : Vec F S1x4096x128 .f32) (x1 : Vec F S1x4096x128 .i32) :
    Σ' (L2 : List (View.Piece (Elt F) S1x4096x128 .f32)), { LS : List (View.Piece (Elt F) S1x1 .f32) //
      ∀ (xi3 : Vec F S1x1x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__elementwise_kernel i arg2 harg2 arg3 harg3 arg4 harg4 arg5 harg5 arg6 harg6) K } := by
  refine ⟨?_, ?_, fun xi3 E K => ?run⟩
  case run =>
    simp only [cc0__elementwise_kernel_eq_skeleton]; unfold cc0__elementwise_kernel_skel
    simp only [k0_part1_eq_skeleton]
    unfold owns
    iintro ⟨⟨%f0, %hf0, H0⟩, ⟨%f1, %hf1, H1⟩, ⟨%d2, %f2, -, H2⟩, ⟨%f3, %hf3, H3⟩, ⟨%ds, %fs, -, HS⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

end Cert.Kernel.Fr

end
-- ==== Proof.KerBitsRunMid.lean ====
/-
  The kernel body run once at a MIDDLE block of a core's eight (neither first nor last): the block's positive-instance
  products are stored whole into the output block and the block's negative-instance sum is added to the accumulator,
  which holds what the block before left.
-/
import proofs.«144705_j45681272160447_2_alg».proof.Proof.KerBitsRunFirst

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- As at the first block, but the accumulator comes in at the contents `xs` the block before left. -/
noncomputable def runMid (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : ¬condLast i)
    (x0 : Vec F S1x4096x128 .f32) (x1 : Vec F S1x4096x128 .i32) (xs : Vec F S1x1 .f32) :
    Σ' (L2 : List (View.Piece (Elt F) S1x4096x128 .f32)), { LS : List (View.Piece (Elt F) S1x1 .f32) //
      ∀ (xi3 : Vec F S1x1x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__elementwise_kernel i arg2 harg2 arg3 harg3 arg4 harg4 arg5 harg5 arg6 harg6) K } := by
  refine ⟨?_, ?_, fun xi3 E K => ?run⟩
  case run =>
    simp only [cc0__elementwise_kernel_eq_skeleton]; unfold cc0__elementwise_kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg2.eq_unread hf0; obtain rfl := harg3.eq_unread hf1; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

end Cert.Kernel.Fr

end
-- ==== Proof.KerBitsRunLast.lean ====
/-
  The kernel body run once at the LAST of a core's eight blocks: as at a middle block, and then the accumulator —
  now the core's whole negative-instance sum — is stored into the per-core sum's window.
-/
import proofs.«144705_j45681272160447_2_alg».proof.Proof.KerBitsRunMid

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- As at a middle block, but the per-core sum's buffer comes in at anything and ends with the pieces found written. -/
noncomputable def runLast (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : condLast i)
    (x0 : Vec F S1x4096x128 .f32) (x1 : Vec F S1x4096x128 .i32) (xs : Vec F S1x1 .f32) :
    Σ' (L2 : List (View.Piece (Elt F) S1x4096x128 .f32)) (L3 : List (View.Piece (Elt F) S1x1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__elementwise_kernel i arg2 harg2 arg3 harg3 arg4 harg4 arg5 harg5 arg6 harg6) K } := by
  refine ⟨?_, ?_, ?_, fun E K => ?run⟩
  case run =>
    simp only [cc0__elementwise_kernel_eq_skeleton]; unfold cc0__elementwise_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.Kernel.Fr

end
-- ==== Proof.KerBitsFrame.lean ====
/-
  The launch as a whole. Per kind of block (first, middle, last of a core's eight) what the body leaves in the output
  block, in the per-core sum's window and in the accumulator, read back from the pieces its run found; block by block,
  by recursion on the grid point, what the three hold after each point (the accumulator of a middle or last block
  starting from what the block before left, that of a first block from zero); the invariant carried between points (the
  accumulator at that value); the body's obligation at every point by cases on the closed forms of the two branch
  conditions; and the run of the whole program: every weakly fair execution terminates, each staged array ends at what
  the library computes from these per-point values, every other buffer as the later host operations leave it.
-/
import proofs.«144705_j45681272160447_2_alg».proof.Proof.KerBitsRunLast

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of block leaves -/

/-- First block: the output block, read back from the run's pieces. -/
def out2First (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : condFirst i) (hc1 : ¬condLast i) (x0 : Vec F S1x4096x128 .f32) (x1 : Vec F S1x4096x128 .i32) : Vec F S1x4096x128 .f32 :=
  VO2.read (Elt F) (VO2.writes (Elt F) VO2.junk (runFirst c i arg2 harg2 arg3 harg3 arg4 harg4 arg5 harg5 arg6 harg6 hc0 hc1 x0 x1).1)
theorem cover2First (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : condFirst i) (hc1 : ¬condLast i) (x0 : Vec F S1x4096x128 .f32) (x1 : Vec F S1x4096x128 .i32) (y : S1x4096x128.Idx) :
    ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S1x4096x128.size (by sl_kernel_rfl) y
/-- First block: the accumulator. -/
def accFirst (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : condFirst i) (hc1 : ¬condLast i) (x0 : Vec F S1x4096x128 .f32) (x1 : Vec F S1x4096x128 .i32) : Vec F S1x1 .f32 :=
  VAcc.read (Elt F) (VAcc.writes (Elt F) VAcc.junk (runFirst c i arg2 harg2 arg3 harg3 arg4 harg4 arg5 harg5 arg6 harg6 hc0 hc1 x0 x1).2.1)
theorem coverAccFirst (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : condFirst i) (hc1 : ¬condLast i) (x0 : Vec F S1x4096x128 .f32) (x1 : Vec F S1x4096x128 .i32) (y : S1x1.Idx) :
    ∃ pc ∈ (runFirst c i arg2 harg2 arg3 harg3 arg4 harg4 arg5 harg5 arg6 harg6 hc0 hc1 x0 x1).2.1, y ∈ pc.1.set :=
  View.cover_of_tiledL (runFirst c i arg2 harg2 arg3 harg3 arg4 harg4 arg5 harg5 arg6 harg6 hc0 hc1 x0 x1).2.1 S1x1.size (by sl_kernel_rfl) y

/-- Middle block: the output block. -/
def out2Mid (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : ¬condLast i) (x0 : Vec F S1x4096x128 .f32) (x1 : Vec F S1x4096x128 .i32) (xs : Vec F S1x1 .f32) : Vec F S1x4096x128 .f32 :=
  VO2.read (Elt F) (VO2.writes (Elt F) VO2.junk (runMid c i arg2 harg2 arg3 harg3 arg4 harg4 arg5 harg5 arg6 harg6 hc0 hc1 x0 x1 xs).1)
theorem cover2Mid (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : ¬condLast i) (x0 : Vec F S1x4096x128 .f32) (x1 : Vec F S1x4096x128 .i32) (xs : Vec F S1x1 .f32) (y : S1x4096x128.Idx) :
    ∃ pc ∈ (runMid c i arg2 harg2 arg3 harg3 arg4 harg4 arg5 harg5 arg6 harg6 hc0 hc1 x0 x1 xs).1, y ∈ pc.1.set :=
  View.cover_of_tiledL (runMid c i arg2 harg2 arg3 harg3 arg4 harg4 arg5 harg5 arg6 harg6 hc0 hc1 x0 x1 xs).1 S1x4096x128.size (by sl_kernel_rfl) y
/-- Middle block: the accumulator. -/
def accMid (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : ¬condLast i) (x0 : Vec F S1x4096x128 .f32) (x1 : Vec F S1x4096x128 .i32) (xs : Vec F S1x1 .f32) : Vec F S1x1 .f32 :=
  VAcc.read (Elt F) (VAcc.writes (Elt F) VAcc.junk (runMid c i arg2 harg2 arg3 harg3 arg4 harg4 arg5 harg5 arg6 harg6 hc0 hc1 x0 x1 xs).2.1)
theorem coverAccMid (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : ¬condLast i) (x0 : Vec F S1x4096x128 .f32) (x1 : Vec F S1x4096x128 .i32) (xs : Vec F S1x1 .f32) (y : S1x1.Idx) :
    ∃ pc ∈ (runMid c i arg2 harg2 arg3 harg3 arg4 harg4 arg5 harg5 arg6 harg6 hc0 hc1 x0 x1 xs).2.1, y ∈ pc.1.set :=
  View.cover_of_tiledL (runMid c i arg2 harg2 arg3 harg3 arg4 harg4 arg5 harg5 arg6 harg6 hc0 hc1 x0 x1 xs).2.1 S1x1.size (by sl_kernel_rfl) y

/-- Last block: the output block. -/
def out2Last (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : condLast i) (x0 : Vec F S1x4096x128 .f32) (x1 : Vec F S1x4096x128 .i32) (xs : Vec F S1x1 .f32) : Vec F S1x4096x128 .f32 :=
  VO2.read (Elt F) (VO2.writes (Elt F) VO2.junk (runLast c i arg2 harg2 arg3 harg3 arg4 harg4 arg5 harg5 arg6 harg6 hc0 hc1 x0 x1 xs).1)
theorem cover2Last (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : condLast i) (x0 : Vec F S1x4096x128 .f32) (x1 : Vec F S1x4096x128 .i32) (xs : Vec F S1x1 .f32) (y : S1x4096x128.Idx) :
    ∃ pc ∈ (runLast c i arg2 harg2 arg3 harg3 arg4 harg4 arg5 harg5 arg6 harg6 hc0 hc1 x0 x1 xs).1, y ∈ pc.1.set :=
  View.cover_of_tiledL (runLast c i arg2 harg2 arg3 harg3 arg4 harg4 arg5 harg5 arg6 harg6 hc0 hc1 x0 x1 xs).1 S1x4096x128.size (by sl_kernel_rfl) y
/-- Last block: the per-core sum's window. -/
def out3Last (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : condLast i) (x0 : Vec F S1x4096x128 .f32) (x1 : Vec F S1x4096x128 .i32) (xs : Vec F S1x1 .f32) : Vec F S1x1x1 .f32 :=
  VO3.read (Elt F) (VO3.writes (Elt F) VO3.junk (runLast c i arg2 harg2 arg3 harg3 arg4 harg4 arg5 harg5 arg6 harg6 hc0 hc1 x0 x1 xs).2.1)
theorem cover3Last (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : condLast i) (x0 : Vec F S1x4096x128 .f32) (x1 : Vec F S1x4096x128 .i32) (xs : Vec F S1x1 .f32) (y : S1x1x1.Idx) :
    ∃ pc ∈ (runLast c i arg2 harg2 arg3 harg3 arg4 harg4 arg5 harg5 arg6 harg6 hc0 hc1 x0 x1 xs).2.1, y ∈ pc.1.set :=
  View.cover_of_tiledL (runLast c i arg2 harg2 arg3 harg3 arg4 harg4 arg5 harg5 arg6 harg6 hc0 hc1 x0 x1 xs).2.1 S1x1x1.size (by sl_kernel_rfl) y
/-- Last block: the accumulator. -/
def accLast (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : condLast i) (x0 : Vec F S1x4096x128 .f32) (x1 : Vec F S1x4096x128 .i32) (xs : Vec F S1x1 .f32) : Vec F S1x1 .f32 :=
  VAcc.read (Elt F) (VAcc.writes (Elt F) VAcc.junk (runLast c i arg2 harg2 arg3 harg3 arg4 harg4 arg5 harg5 arg6 harg6 hc0 hc1 x0 x1 xs).2.2.1)
theorem coverAccLast (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : condLast i) (x0 : Vec F S1x4096x128 .f32) (x1 : Vec F S1x4096x128 .i32) (xs : Vec F S1x1 .f32) (y : S1x1.Idx) :
    ∃ pc ∈ (runLast c i arg2 harg2 arg3 harg3 arg4 harg4 arg5 harg5 arg6 harg6 hc0 hc1 x0 x1 xs).2.2.1, y ∈ pc.1.set :=
  View.cover_of_tiledL (runLast c i arg2 harg2 arg3 harg3 arg4 harg4 arg5 harg5 arg6 harg6 hc0 hc1 x0 x1 xs).2.2.1 S1x1.size (by sl_kernel_rfl) y

/-- A value for the per-core sum's window where nothing is stored into it: never consulted (the window is idle and not
    written back there). -/
def idle3 : Vec F S1x1x1 .f32 := VO3.read (Elt F) (VO3.writes (Elt F) VO3.junk [])

/-! ## What the outputs and the accumulator hold after each point -/

/-- After the body at position `n`: the output block, the per-core sum's window, the accumulator. -/
def outsAt (c : Dev nD) : (n : ℕ) → n < cfg0.N → Vec F S1x4096x128 .f32 × Vec F S1x1x1 .f32 × Vec F S1x1 .f32
  | 0, hn =>
    (out2First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩),
     idle3,
     accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩))
  | n + 1, hn =>
    if h0 : (n + 1) % 8 = 0 then
      (out2First c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((hcondFirst ⟨n + 1, hn⟩).mpr h0) (fun h => (fun h => by (try dsimp only at h); omega) ((hcondLast ⟨n + 1, hn⟩).mp h)) (iblk m c 0 ⟨n + 1, hn⟩) (iblk m c 1 ⟨n + 1, hn⟩),
       idle3,
       accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((hcondFirst ⟨n + 1, hn⟩).mpr h0) (fun h => (fun h => by (try dsimp only at h); omega) ((hcondLast ⟨n + 1, hn⟩).mp h)) (iblk m c 0 ⟨n + 1, hn⟩) (iblk m c 1 ⟨n + 1, hn⟩))
    else
      if h1 : (n + 1) % 8 = 7 then
        (out2Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2.2,
         out3Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2.2,
         accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2.2)
      else
        (out2Mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (outsAt c n (Nat.lt_of_succ_lt hn)).2.2,
         idle3,
         accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (outsAt c n (Nat.lt_of_succ_lt hn)).2.2)

/-- At a first block. -/
theorem outsAt_first (c : Dev nD) (t : Fin cfg0.N) (h0 : t.val % 8 = 0) (hl : ¬condLast (grid0.coords t)) :
    outsAt m c t.val t.isLt =
      (out2First c (grid0.coords t) (ms0 t) (hs0 t) (ms1 t) (hs1 t) (ms2 t) (hs2 t) (ms3 t) (hs3 t) accM (Memref.isWhole_whole _) ((hcondFirst t).mpr h0) hl (iblk m c 0 t) (iblk m c 1 t),
       idle3,
       accFirst c (grid0.coords t) (ms0 t) (hs0 t) (ms1 t) (hs1 t) (ms2 t) (hs2 t) (ms3 t) (hs3 t) accM (Memref.isWhole_whole _) ((hcondFirst t).mpr h0) hl (iblk m c 0 t) (iblk m c 1 t)) := by
  obtain ⟨n, hn⟩ := t
  cases n with
  | zero => exact rfl
  | succ n => exact (dif_pos h0).trans rfl

/-- At a middle block: over what the block before left in the accumulator. -/
theorem outsAt_mid (c : Dev nD) (t : Fin cfg0.N) (h0 : ¬t.val % 8 = 0) (h1 : ¬t.val % 8 = 7) :
    outsAt m c t.val t.isLt =
      (out2Mid c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk m c 0 t) (iblk m c 1 t) (outsAt m c (t.val - 1) (Nat.lt_of_le_of_lt (Nat.sub_le _ _) t.isLt)).2.2,
       idle3,
       accMid c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk m c 0 t) (iblk m c 1 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last block. -/
theorem outsAt_last (c : Dev nD) (t : Fin cfg0.N) (h0 : ¬t.val % 8 = 0) (h1 : t.val % 8 = 7) :
    outsAt m c t.val t.isLt =
      (out2Last c (grid0.coords t) (ms0 t) (hs0 t) (ms1 t) (hs1 t) (ms2 t) (hs2 t) (ms3 t) (hs3 t) accM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2.2,
       out3Last c (grid0.coords t) (ms0 t) (hs0 t) (ms1 t) (hs1 t) (ms2 t) (hs2 t) (ms3 t) (hs3 t) accM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2.2,
       accLast c (grid0.coords t) (ms0 t) (hs0 t) (ms1 t) (hs1 t) (ms2 t) (hs2 t) (ms3 t) (hs3 t) accM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start what the launch lends; afterwards the accumulator at what the point before left,
    and the generator register. -/
def PhiS (c : Dev nD) : (n : ℕ) → n ≤ cfg0.N → sProp 𝕄
  | 0, _ => Pipeline.ΦA spec0 c
  | n + 1, hn => iprop(iprop(owns (c : Thread nD τ) accM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2.2)) ∗ (∃ r, prngReg c r)) := by
  cases n with
  | zero => exact absurd rfl hz
  | succ n => rfl

/-! ## The proof data -/

/-- The arrays as the launch finds them; after the body at point `t` each input's buffer at its block and the outputs'
    at `outsAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2.1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body's obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) : (dats m 0 c).leavesExact 0 t = owns (c : Thread nD τ) (ms0 t) fullShare (iblk m c 0 t) := by
  unfold Dat.leavesExact; rw [liveAt0 t, after0]
theorem leaves1 (c : Dev nD) (t : Fin cfg0.N) : (dats m 0 c).leavesExact 1 t = owns (c : Thread nD τ) (ms1 t) fullShare (iblk m c 1 t) := by
  unfold Dat.leavesExact; rw [liveAt1 t, after1]
theorem leaves2 (c : Dev nD) (t : Fin cfg0.N) : (dats m 0 c).leavesExact 2 t = owns (c : Thread nD τ) (ms2 t) fullShare ((outsAt m c t.val t.isLt).1) := by
  unfold Dat.leavesExact; rw [liveAt2 t, after2]
theorem leaves3_last (c : Dev nD) (t : Fin cfg0.N) (hl : condLast (grid0.coords t)) : (dats m 0 c).leavesExact 3 t = owns (c : Thread nD τ) (ms3 t) fullShare ((outsAt m c t.val t.isLt).2.1) := by
  unfold Dat.leavesExact; rw [liveAt3 t hl, after3]

set_option maxHeartbeats 4800000 in
/-- The body at any point: the inputs' buffers hold their blocks; the closed forms say which kind of block the point
    is; the invariant hands the body the accumulator at what the block before left (at anything at the very first
    point, and a first block resets it anyway) and takes it back at this point's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 16 := lt_of_lt_of_eq t.isLt (show cfg0.N = 16 from N_0)
  by_cases h0 : t.val % 8 = 0
  · have hl : ¬condLast (grid0.coords t) := fun h => by have := (hcondLast t).mp h; omega
    rw [Dat.leavesExact_idle (dats m 0 c) 3 t (idleAt3 t hl) (noFlush3 t hl)]
    rw [outsAt_first m c t h0 hl]
    unfold out2First accFirst; (try dsimp only)
    have hΦ : PhiS m c t.val (Nat.le_of_lt t.isLt) ⊢ (iprop(iprop((∃ d, owns (c : Thread nD τ) accM fullShare d)) ∗ (∃ r, prngReg c r)) : sProp 𝕄) := by
      by_cases hz : t.val = 0
      · rw [PhiS_zero m c _ _ hz, PhiA_eq]
      · rw [PhiS_pos m c _ _ hz]
        iintro ⟨HS, Hg⟩
        isplitl [HS]
        · iexists _; iexact HS
        iexact Hg
    rw [PhiS_castSucc m c t]
    iintro ⟨HΦ, Ho, ⟨%d0, H0⟩, ⟨%d1, H1⟩, ⟨%d2, H2⟩, ⟨%d3, H3⟩⟩
    ihave HΦ' := hΦ $$ HΦ
    icases HΦ' with ⟨HS, Hg⟩
    iapply ((runFirst c (grid0.coords t) _ _ _ _ _ _ _ _ _ _ ((hcondFirst t).mpr h0) hl (iblk m c 0 t) (iblk m c 1 t)).2.2 _ Set.univ _)
    isplitl [H0]; · iexact H0
    isplitl [H1]; · iexact H1
    isplitl [H2]; · iexists _; iexact H2
    isplitl [H3]; · iexact H3
    isplitl [HS]; · iexact HS
    iintro ⟨H0, H1, ⟨%e2, H2⟩, H3, ⟨%es, HS⟩⟩
    isplitl [HS Hg]
    · isplitl [HS]
      · unfold owns; iexists _; isplitr
        swap; · iexact HS
        ipureintro; exact View.read_writes_of_cover _ _ _ _ _ (coverAccFirst c _ _ _ _ _ _ _ _ _ _ _ _ _ _ _)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover2First c _ _ _ _ _ _ _ _ _ _ _ _ _ _ _)
    iexists _; iexact H3
  · have hz : t.val ≠ 0 := fun h => h0 (by rw [h])
    by_cases h1 : t.val % 8 = 7
    · have hl : condLast (grid0.coords t) := (hcondLast t).mpr h1
      rw [leaves3_last m c t hl]
      rw [outsAt_last m c t h0 h1]
      unfold out2Last out3Last accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runLast c (grid0.coords t) _ _ _ _ _ _ _ _ _ _ (fun h => h0 ((hcondFirst t).mp h)) hl (iblk m c 0 t) (iblk m c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hg]
      · isplitl [HS]
        · unfold owns; iexists _; isplitr
          swap; · iexact HS
          ipureintro; exact View.read_writes_of_cover _ _ _ _ _ (coverAccLast c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2Last c _ _ _ _ _ _ _ _ _ _ _ _ _ _ _ _)
      unfold owns; iexists _; isplitr
      swap; · iexact H3
      ipureintro; exact View.read_writes_of_cover _ _ _ _ _ (cover3Last c _ _ _ _ _ _ _ _ _ _ _ _ _ _ _ _)
    · have hl : ¬condLast (grid0.coords t) := fun h => h1 ((hcondLast t).mp h)
      rw [Dat.leavesExact_idle (dats m 0 c) 3 t (idleAt3 t hl) (noFlush3 t hl)]
      rw [outsAt_mid m c t h0 h1]
      unfold out2Mid accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runMid c (grid0.coords t) _ _ _ _ _ _ _ _ _ _ (fun h => h0 ((hcondFirst t).mp h)) hl (iblk m c 0 t) (iblk m c 1 t) _).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (coverAccMid c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2Mid c _ _ _ _ _ _ _ _ _ _ _ _ _ _ _ _)
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA_eq]
  iintro ⟨HS, Hg⟩
  isplitl [HS]
  · iexists _; iexact HS
  iexact Hg

/-! ## The run and the frame -/

set_option backward.isDefEq.respectTransparency.types false in
/-- Every weakly fair execution of the program terminates; each staged array ends at what the library computes from the
    proof data, every other unscoped buffer as the later host operations leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The program runs to its end and leaves its three argument arrays as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Fr

end
-- ==== Proof.KerIdealSetup.lean ====
/-
  The program around its one kernel launch: the two reshapes that lay the instance arrays out as [2, 32768, 128]
  before the launch, the launch over a 2 × 8 grid, and the host operations after it. Stated here: what every buffer
  holds when the launch begins (`V`), that the later operations neither allocate nor write an array the launch
  stages, that the three argument arrays are never written, the block of each staged array at a grid point, the two
  branch conditions of the kernel body in closed form over the grid (the first block of a core's eight: t ≡ 0 mod 8;
  the last: t ≡ 7 mod 8), and where the per-core sum's window is idle (everywhere but the last block).
-/
import proofs.«144705_j45681272160447_2_alg».proof.Proof.Gen.KernelIdeal.Launch
import proofs.«144705_j45681272160447_2_alg».proof.Proof.Gen.KernelIdeal.Skeleton
import proofs.«144705_j45681272160447_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the launch -/

/-- What each buffer holds when the launch begins: the memory after the two reshapes. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The stretches of host operations after the launch, in order. -/
abbrev tailOps : List (List (HloOp τ sig (Elt F))) := [hostOps1, hostOps1_1, hostOps1_2, hostOps1_3, hostOps1_4, hostOps1_5, hostOps1_6]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

theorem hostOps1_keeps : (hostOps1 : List (HloOp τ sig (Elt F))).Forall fun op => ∀ w : Fin 4, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_1_keeps : (hostOps1_1 : List (HloOp τ sig (Elt F))).Forall fun op => ∀ w : Fin 4, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_2_keeps : (hostOps1_2 : List (HloOp τ sig (Elt F))).Forall fun op => ∀ w : Fin 4, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_3_keeps : (hostOps1_3 : List (HloOp τ sig (Elt F))).Forall fun op => ∀ w : Fin 4, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_4_keeps : (hostOps1_4 : List (HloOp τ sig (Elt F))).Forall fun op => ∀ w : Fin 4, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_5_keeps : (hostOps1_5 : List (HloOp τ sig (Elt F))).Forall fun op => ∀ w : Fin 4, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))
theorem hostOps1_6_keeps : (hostOps1_6 : List (HloOp τ sig (Elt F))).Forall fun op => ∀ w : Fin 4, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; fin_cases w <;> exact StableHlo.devRef_ne_of_ne (by decide))

/-- The program is the reshapes, the launch, then the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later operations touch only unscoped TensorCore buffers. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
/-- And write no array the launch stages: each writes its own result buffer only. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

/-- The reshapes do not write argument 0: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later operation writes argument 0: it ends as given. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- The reshapes do not write argument 1: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later operation writes argument 1: it ends as given. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The reshapes do not write argument 2: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No later operation writes argument 2: it ends as given. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, hostOps1_5, hostOps1_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The blocks -/

/-- The block of staged array `w` at grid point `t`, read off the array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's current staging buffer holds its block at every point. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's current staging buffer holds its block at every point. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- A run whose final state has every staged array at what the proof data computes and every other unscoped buffer as
    the later operations leave it ends with the three argument arrays as given. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
    (((h c).2 main_arg0 (Pipeline.mem_restRefs_of main_arg0 (by decide) (by decide))).trans (W_main_arg0 m dats c)),
    (((h c).2 main_arg1 (Pipeline.mem_restRefs_of main_arg1 (by decide) (by decide))).trans (W_main_arg1 m dats c)),
    (((h c).2 main_arg2 (Pipeline.mem_restRefs_of main_arg2 (by decide) (by decide))).trans (W_main_arg2 m dats c))⟩) h

/-! ## The body's two branch conditions -/

/-- "This is the first of the core's eight blocks" (the accumulator is reset), from the grid coordinates. -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)

/-- "This is the last of the core's eight blocks" (the accumulator is written out). -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
/-- Away from a core's last block nothing is stored into the per-core sum's window, and it is not written back. -/
theorem idleAt3 : ∀ t : Fin cfg0.N, ¬condLast (grid0.coords t) → cfg0.idle 3 (grid0.coords t) = true := by decide +kernel
theorem noFlush3 : ∀ t : Fin cfg0.N, ¬condLast (grid0.coords t) → (cfg0.win 3).flush t = false := by decide +kernel
theorem liveAt3 : ∀ t : Fin cfg0.N, condLast (grid0.coords t) → cfg0.idle 3 (grid0.coords t) = false := by decide +kernel

/-! ## The memrefs the body is called with -/

/-- One staging buffer of each output window, through which its contents are stated. -/
abbrev VO2 : View sig .tc .vmem S1x4096x128 .f32 := (Memref.whole cc0_stg2_0 : Memref sig .tc .vmem S1x4096x128 .f32).view
abbrev VO3 : View sig .tc .vmem S1x1x1 .f32 := (Memref.whole cc0_stg3_0 : Memref sig .tc .vmem S1x1x1 .f32).view
abbrev ms0 (t : Fin cfg0.N) : Memref sig .tc .vmem S1x4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x128 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1 .f32 := win0_3.stage (cfg0.slots t 3)
abbrev hs3 (t : Fin cfg0.N) : (ms3 t).IsWhole := hstage0_3 ((cfg0.slots t 3).cast nbuf0_3)
/-- The accumulator: a scoped buffer of the kernel's own, carried from block to block. -/
abbrev accM : Memref sig .tc .vmem S1x1 .f32 := Memref.whole cc0_scratch0
abbrev VAcc : View sig .tc .vmem S1x1 .f32 := accM.view

/-- What the launch lends the body beside the windows: the accumulator at some contents, and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Fr

end
-- ==== Proof.KerIdealRunFirst.lean ====
/-
  The kernel body run once at the FIRST of a core's eight blocks: the accumulator is reset to zero, the block's
  positive-instance products are stored whole into the output block, and the block's negative-instance sum is added to
  the accumulator; nothing is stored into the per-core sum's window. The run finds, as pieces, what the output block and
  the accumulator end with.
-/
import proofs.«144705_j45681272160447_2_alg».proof.Proof.KerIdealSetup

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- On whole memrefs — the two input blocks at their contents, the output block at anything, the per-core sum's
    buffer handed back untouched, the accumulator at anything — the body runs to a continuation holding the inputs as
    they were, the output block and the accumulator with the pieces found written. -/
noncomputable def runFirst (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : condFirst i) (hc1 : ¬condLast i)
    (x0 : Vec F S1x4096x128 .f32) (x1 : Vec F S1x4096x128 .i32) :
    Σ' (L2 : List (View.Piece (Elt F) S1x4096x128 .f32)), { LS : List (View.Piece (Elt F) S1x1 .f32) //
      ∀ (xi3 : Vec F S1x1x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__elementwise_kernel i arg2 harg2 arg3 harg3 arg4 harg4 arg5 harg5 arg6 harg6) K } := by
  refine ⟨?_, ?_, fun xi3 E K => ?run⟩
  case run =>
    simp only [cc0__elementwise_kernel_eq_skeleton]; unfold cc0__elementwise_kernel_skel
    simp only [k0_part1_eq_skeleton]
    unfold owns
    iintro ⟨⟨%f0, %hf0, H0⟩, ⟨%f1, %hf1, H1⟩, ⟨%d2, %f2, -, H2⟩, ⟨%f3, %hf3, H3⟩, ⟨%ds, %fs, -, HS⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

end Cert.KernelIdeal.Fr

end
-- ==== Proof.KerIdealRunMid.lean ====
/-
  The kernel body run once at a MIDDLE block of a core's eight (neither first nor last): the block's positive-instance
  products are stored whole into the output block and the block's negative-instance sum is added to the accumulator,
  which holds what the block before left.
-/
import proofs.«144705_j45681272160447_2_alg».proof.Proof.KerIdealRunFirst

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- As at the first block, but the accumulator comes in at the contents `xs` the block before left. -/
noncomputable def runMid (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : ¬condLast i)
    (x0 : Vec F S1x4096x128 .f32) (x1 : Vec F S1x4096x128 .i32) (xs : Vec F S1x1 .f32) :
    Σ' (L2 : List (View.Piece (Elt F) S1x4096x128 .f32)), { LS : List (View.Piece (Elt F) S1x1 .f32) //
      ∀ (xi3 : Vec F S1x1x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__elementwise_kernel i arg2 harg2 arg3 harg3 arg4 harg4 arg5 harg5 arg6 harg6) K } := by
  refine ⟨?_, ?_, fun xi3 E K => ?run⟩
  case run =>
    simp only [cc0__elementwise_kernel_eq_skeleton]; unfold cc0__elementwise_kernel_skel
    simp only [k0_part1_eq_skeleton]
    unfold owns
    iintro ⟨⟨%f0, %hf0, H0⟩, ⟨%f1, %hf1, H1⟩, ⟨%d2, %f2, -, H2⟩, ⟨%f3, %hf3, H3⟩, ⟨%fs, %hfs, HS⟩, Hk⟩
    obtain rfl := harg2.eq_unread hf0; obtain rfl := harg3.eq_unread hf1; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS

end Cert.KernelIdeal.Fr

end
-- ==== Proof.KerIdealRunLast.lean ====
/-
  The kernel body run once at the LAST of a core's eight blocks: as at a middle block, and then the accumulator —
  now the core's whole negative-instance sum — is stored into the per-core sum's window.
-/
import proofs.«144705_j45681272160447_2_alg».proof.Proof.KerIdealRunMid

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- As at a middle block, but the per-core sum's buffer comes in at anything and ends with the pieces found written. -/
noncomputable def runLast (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : condLast i)
    (x0 : Vec F S1x4096x128 .f32) (x1 : Vec F S1x4096x128 .i32) (xs : Vec F S1x1 .f32) :
    Σ' (L2 : List (View.Piece (Elt F) S1x4096x128 .f32)) (L3 : List (View.Piece (Elt F) S1x1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__elementwise_kernel i arg2 harg2 arg3 harg3 arg4 harg4 arg5 harg5 arg6 harg6) K } := by
  refine ⟨?_, ?_, ?_, fun E K => ?run⟩
  case run =>
    simp only [cc0__elementwise_kernel_eq_skeleton]; unfold cc0__elementwise_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS

end Cert.KernelIdeal.Fr

end
-- ==== Proof.KerIdealFrame.lean ====
/-
  The launch as a whole. Per kind of block (first, middle, last of a core's eight) what the body leaves in the output
  block, in the per-core sum's window and in the accumulator, read back from the pieces its run found; block by block,
  by recursion on the grid point, what the three hold after each point (the accumulator of a middle or last block
  starting from what the block before left, that of a first block from zero); the invariant carried between points (the
  accumulator at that value); the body's obligation at every point by cases on the closed forms of the two branch
  conditions; and the run of the whole program: every weakly fair execution terminates, each staged array ends at what
  the library computes from these per-point values, every other buffer as the later host operations leave it.
-/
import proofs.«144705_j45681272160447_2_alg».proof.Proof.KerIdealRunLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of block leaves -/

/-- First block: the output block, read back from the run's pieces. -/
def out2First (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : condFirst i) (hc1 : ¬condLast i) (x0 : Vec F S1x4096x128 .f32) (x1 : Vec F S1x4096x128 .i32) : Vec F S1x4096x128 .f32 :=
  VO2.read (Elt F) (VO2.writes (Elt F) VO2.junk (runFirst c i arg2 harg2 arg3 harg3 arg4 harg4 arg5 harg5 arg6 harg6 hc0 hc1 x0 x1).1)
theorem cover2First (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : condFirst i) (hc1 : ¬condLast i) (x0 : Vec F S1x4096x128 .f32) (x1 : Vec F S1x4096x128 .i32) (y : S1x4096x128.Idx) :
    ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S1x4096x128.size (by sl_kernel_rfl) y
/-- First block: the accumulator. -/
def accFirst (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : condFirst i) (hc1 : ¬condLast i) (x0 : Vec F S1x4096x128 .f32) (x1 : Vec F S1x4096x128 .i32) : Vec F S1x1 .f32 :=
  VAcc.read (Elt F) (VAcc.writes (Elt F) VAcc.junk (runFirst c i arg2 harg2 arg3 harg3 arg4 harg4 arg5 harg5 arg6 harg6 hc0 hc1 x0 x1).2.1)
theorem coverAccFirst (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : condFirst i) (hc1 : ¬condLast i) (x0 : Vec F S1x4096x128 .f32) (x1 : Vec F S1x4096x128 .i32) (y : S1x1.Idx) :
    ∃ pc ∈ (runFirst c i arg2 harg2 arg3 harg3 arg4 harg4 arg5 harg5 arg6 harg6 hc0 hc1 x0 x1).2.1, y ∈ pc.1.set :=
  View.cover_of_tiledL (runFirst c i arg2 harg2 arg3 harg3 arg4 harg4 arg5 harg5 arg6 harg6 hc0 hc1 x0 x1).2.1 S1x1.size (by sl_kernel_rfl) y

/-- Middle block: the output block. -/
def out2Mid (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : ¬condLast i) (x0 : Vec F S1x4096x128 .f32) (x1 : Vec F S1x4096x128 .i32) (xs : Vec F S1x1 .f32) : Vec F S1x4096x128 .f32 :=
  VO2.read (Elt F) (VO2.writes (Elt F) VO2.junk (runMid c i arg2 harg2 arg3 harg3 arg4 harg4 arg5 harg5 arg6 harg6 hc0 hc1 x0 x1 xs).1)
theorem cover2Mid (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : ¬condLast i) (x0 : Vec F S1x4096x128 .f32) (x1 : Vec F S1x4096x128 .i32) (xs : Vec F S1x1 .f32) (y : S1x4096x128.Idx) :
    ∃ pc ∈ (runMid c i arg2 harg2 arg3 harg3 arg4 harg4 arg5 harg5 arg6 harg6 hc0 hc1 x0 x1 xs).1, y ∈ pc.1.set :=
  View.cover_of_tiledL (runMid c i arg2 harg2 arg3 harg3 arg4 harg4 arg5 harg5 arg6 harg6 hc0 hc1 x0 x1 xs).1 S1x4096x128.size (by sl_kernel_rfl) y
/-- Middle block: the accumulator. -/
def accMid (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : ¬condLast i) (x0 : Vec F S1x4096x128 .f32) (x1 : Vec F S1x4096x128 .i32) (xs : Vec F S1x1 .f32) : Vec F S1x1 .f32 :=
  VAcc.read (Elt F) (VAcc.writes (Elt F) VAcc.junk (runMid c i arg2 harg2 arg3 harg3 arg4 harg4 arg5 harg5 arg6 harg6 hc0 hc1 x0 x1 xs).2.1)
theorem coverAccMid (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : ¬condLast i) (x0 : Vec F S1x4096x128 .f32) (x1 : Vec F S1x4096x128 .i32) (xs : Vec F S1x1 .f32) (y : S1x1.Idx) :
    ∃ pc ∈ (runMid c i arg2 harg2 arg3 harg3 arg4 harg4 arg5 harg5 arg6 harg6 hc0 hc1 x0 x1 xs).2.1, y ∈ pc.1.set :=
  View.cover_of_tiledL (runMid c i arg2 harg2 arg3 harg3 arg4 harg4 arg5 harg5 arg6 harg6 hc0 hc1 x0 x1 xs).2.1 S1x1.size (by sl_kernel_rfl) y

/-- Last block: the output block. -/
def out2Last (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : condLast i) (x0 : Vec F S1x4096x128 .f32) (x1 : Vec F S1x4096x128 .i32) (xs : Vec F S1x1 .f32) : Vec F S1x4096x128 .f32 :=
  VO2.read (Elt F) (VO2.writes (Elt F) VO2.junk (runLast c i arg2 harg2 arg3 harg3 arg4 harg4 arg5 harg5 arg6 harg6 hc0 hc1 x0 x1 xs).1)
theorem cover2Last (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : condLast i) (x0 : Vec F S1x4096x128 .f32) (x1 : Vec F S1x4096x128 .i32) (xs : Vec F S1x1 .f32) (y : S1x4096x128.Idx) :
    ∃ pc ∈ (runLast c i arg2 harg2 arg3 harg3 arg4 harg4 arg5 harg5 arg6 harg6 hc0 hc1 x0 x1 xs).1, y ∈ pc.1.set :=
  View.cover_of_tiledL (runLast c i arg2 harg2 arg3 harg3 arg4 harg4 arg5 harg5 arg6 harg6 hc0 hc1 x0 x1 xs).1 S1x4096x128.size (by sl_kernel_rfl) y
/-- Last block: the per-core sum's window. -/
def out3Last (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : condLast i) (x0 : Vec F S1x4096x128 .f32) (x1 : Vec F S1x4096x128 .i32) (xs : Vec F S1x1 .f32) : Vec F S1x1x1 .f32 :=
  VO3.read (Elt F) (VO3.writes (Elt F) VO3.junk (runLast c i arg2 harg2 arg3 harg3 arg4 harg4 arg5 harg5 arg6 harg6 hc0 hc1 x0 x1 xs).2.1)
theorem cover3Last (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : condLast i) (x0 : Vec F S1x4096x128 .f32) (x1 : Vec F S1x4096x128 .i32) (xs : Vec F S1x1 .f32) (y : S1x1x1.Idx) :
    ∃ pc ∈ (runLast c i arg2 harg2 arg3 harg3 arg4 harg4 arg5 harg5 arg6 harg6 hc0 hc1 x0 x1 xs).2.1, y ∈ pc.1.set :=
  View.cover_of_tiledL (runLast c i arg2 harg2 arg3 harg3 arg4 harg4 arg5 harg5 arg6 harg6 hc0 hc1 x0 x1 xs).2.1 S1x1x1.size (by sl_kernel_rfl) y
/-- Last block: the accumulator. -/
def accLast (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : condLast i) (x0 : Vec F S1x4096x128 .f32) (x1 : Vec F S1x4096x128 .i32) (xs : Vec F S1x1 .f32) : Vec F S1x1 .f32 :=
  VAcc.read (Elt F) (VAcc.writes (Elt F) VAcc.junk (runLast c i arg2 harg2 arg3 harg3 arg4 harg4 arg5 harg5 arg6 harg6 hc0 hc1 x0 x1 xs).2.2.1)
theorem coverAccLast (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : condLast i) (x0 : Vec F S1x4096x128 .f32) (x1 : Vec F S1x4096x128 .i32) (xs : Vec F S1x1 .f32) (y : S1x1.Idx) :
    ∃ pc ∈ (runLast c i arg2 harg2 arg3 harg3 arg4 harg4 arg5 harg5 arg6 harg6 hc0 hc1 x0 x1 xs).2.2.1, y ∈ pc.1.set :=
  View.cover_of_tiledL (runLast c i arg2 harg2 arg3 harg3 arg4 harg4 arg5 harg5 arg6 harg6 hc0 hc1 x0 x1 xs).2.2.1 S1x1.size (by sl_kernel_rfl) y

/-- A value for the per-core sum's window where nothing is stored into it: never consulted (the window is idle and not
    written back there). -/
def idle3 : Vec F S1x1x1 .f32 := VO3.read (Elt F) (VO3.writes (Elt F) VO3.junk [])

/-! ## What the outputs and the accumulator hold after each point -/

/-- After the body at position `n`: the output block, the per-core sum's window, the accumulator. -/
def outsAt (c : Dev nD) : (n : ℕ) → n < cfg0.N → Vec F S1x4096x128 .f32 × Vec F S1x1x1 .f32 × Vec F S1x1 .f32
  | 0, hn =>
    (out2First c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩),
     idle3,
     accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) accM (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩))
  | n + 1, hn =>
    if h0 : (n + 1) % 8 = 0 then
      (out2First c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((hcondFirst ⟨n + 1, hn⟩).mpr h0) (fun h => (fun h => by (try dsimp only at h); omega) ((hcondLast ⟨n + 1, hn⟩).mp h)) (iblk m c 0 ⟨n + 1, hn⟩) (iblk m c 1 ⟨n + 1, hn⟩),
       idle3,
       accFirst c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) ((hcondFirst ⟨n + 1, hn⟩).mpr h0) (fun h => (fun h => by (try dsimp only at h); omega) ((hcondLast ⟨n + 1, hn⟩).mp h)) (iblk m c 0 ⟨n + 1, hn⟩) (iblk m c 1 ⟨n + 1, hn⟩))
    else
      if h1 : (n + 1) % 8 = 7 then
        (out2Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2.2,
         out3Last c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2.2,
         accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) ((hcondLast ⟨n + 1, hn⟩).mpr h1) (iblk m c 0 ⟨n + 1, hn⟩) (iblk m c 1 ⟨n + 1, hn⟩) (outsAt c n (Nat.lt_of_succ_lt hn)).2.2)
      else
        (out2Mid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (outsAt c n (Nat.lt_of_succ_lt hn)).2.2,
         idle3,
         accMid c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) accM (Memref.isWhole_whole _) (fun h => h0 ((hcondFirst ⟨n + 1, hn⟩).mp h)) (fun h => h1 ((hcondLast ⟨n + 1, hn⟩).mp h)) (iblk m c 0 ⟨n + 1, hn⟩) (iblk m c 1 ⟨n + 1, hn⟩) (outsAt c n (Nat.lt_of_succ_lt hn)).2.2)

/-- At a first block. -/
theorem outsAt_first (c : Dev nD) (t : Fin cfg0.N) (h0 : t.val % 8 = 0) (hl : ¬condLast (grid0.coords t)) :
    outsAt m c t.val t.isLt =
      (out2First c (grid0.coords t) (ms0 t) (hs0 t) (ms1 t) (hs1 t) (ms2 t) (hs2 t) (ms3 t) (hs3 t) accM (Memref.isWhole_whole _) ((hcondFirst t).mpr h0) hl (iblk m c 0 t) (iblk m c 1 t),
       idle3,
       accFirst c (grid0.coords t) (ms0 t) (hs0 t) (ms1 t) (hs1 t) (ms2 t) (hs2 t) (ms3 t) (hs3 t) accM (Memref.isWhole_whole _) ((hcondFirst t).mpr h0) hl (iblk m c 0 t) (iblk m c 1 t)) := by
  obtain ⟨n, hn⟩ := t
  cases n with
  | zero => exact rfl
  | succ n => exact (dif_pos h0).trans rfl

/-- At a middle block: over what the block before left in the accumulator. -/
theorem outsAt_mid (c : Dev nD) (t : Fin cfg0.N) (h0 : ¬t.val % 8 = 0) (h1 : ¬t.val % 8 = 7) :
    outsAt m c t.val t.isLt =
      (out2Mid c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk m c 0 t) (iblk m c 1 t) (outsAt m c (t.val - 1) (Nat.lt_of_le_of_lt (Nat.sub_le _ _) t.isLt)).2.2,
       idle3,
       accMid c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk m c 0 t) (iblk m c 1 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last block. -/
theorem outsAt_last (c : Dev nD) (t : Fin cfg0.N) (h0 : ¬t.val % 8 = 0) (h1 : t.val % 8 = 7) :
    outsAt m c t.val t.isLt =
      (out2Last c (grid0.coords t) (ms0 t) (hs0 t) (ms1 t) (hs1 t) (ms2 t) (hs2 t) (ms3 t) (hs3 t) accM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2.2,
       out3Last c (grid0.coords t) (ms0 t) (hs0 t) (ms1 t) (hs1 t) (ms2 t) (hs2 t) (ms3 t) (hs3 t) accM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2.2,
       accLast c (grid0.coords t) (ms0 t) (hs0 t) (ms1 t) (hs1 t) (ms2 t) (hs2 t) (ms3 t) (hs3 t) accM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start what the launch lends; afterwards the accumulator at what the point before left,
    and the generator register. -/
def PhiS (c : Dev nD) : (n : ℕ) → n ≤ cfg0.N → sProp 𝕄
  | 0, _ => Pipeline.ΦA spec0 c
  | n + 1, hn => iprop(iprop(owns (c : Thread nD τ) accM fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) accM fullShare ((outsAt m c (n - 1) (by omega)).2.2)) ∗ (∃ r, prngReg c r)) := by
  cases n with
  | zero => exact absurd rfl hz
  | succ n => rfl

/-! ## The proof data -/

/-- The arrays as the launch finds them; after the body at point `t` each input's buffer at its block and the outputs'
    at `outsAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2.1 := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body's obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) : (dats m 0 c).leavesExact 0 t = owns (c : Thread nD τ) (ms0 t) fullShare (iblk m c 0 t) := by
  unfold Dat.leavesExact; rw [liveAt0 t, after0]
theorem leaves1 (c : Dev nD) (t : Fin cfg0.N) : (dats m 0 c).leavesExact 1 t = owns (c : Thread nD τ) (ms1 t) fullShare (iblk m c 1 t) := by
  unfold Dat.leavesExact; rw [liveAt1 t, after1]
theorem leaves2 (c : Dev nD) (t : Fin cfg0.N) : (dats m 0 c).leavesExact 2 t = owns (c : Thread nD τ) (ms2 t) fullShare ((outsAt m c t.val t.isLt).1) := by
  unfold Dat.leavesExact; rw [liveAt2 t, after2]
theorem leaves3_last (c : Dev nD) (t : Fin cfg0.N) (hl : condLast (grid0.coords t)) : (dats m 0 c).leavesExact 3 t = owns (c : Thread nD τ) (ms3 t) fullShare ((outsAt m c t.val t.isLt).2.1) := by
  unfold Dat.leavesExact; rw [liveAt3 t hl, after3]

set_option maxHeartbeats 4800000 in
/-- The body at any point: the inputs' buffers hold their blocks; the closed forms say which kind of block the point
    is; the invariant hands the body the accumulator at what the block before left (at anything at the very first
    point, and a first block resets it anyway) and takes it back at this point's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 16 := lt_of_lt_of_eq t.isLt (show cfg0.N = 16 from N_0)
  by_cases h0 : t.val % 8 = 0
  · have hl : ¬condLast (grid0.coords t) := fun h => by have := (hcondLast t).mp h; omega
    rw [Dat.leavesExact_idle (dats m 0 c) 3 t (idleAt3 t hl) (noFlush3 t hl)]
    rw [outsAt_first m c t h0 hl]
    unfold out2First accFirst; (try dsimp only)
    have hΦ : PhiS m c t.val (Nat.le_of_lt t.isLt) ⊢ (iprop(iprop((∃ d, owns (c : Thread nD τ) accM fullShare d)) ∗ (∃ r, prngReg c r)) : sProp 𝕄) := by
      by_cases hz : t.val = 0
      · rw [PhiS_zero m c _ _ hz, PhiA_eq]
      · rw [PhiS_pos m c _ _ hz]
        iintro ⟨HS, Hg⟩
        isplitl [HS]
        · iexists _; iexact HS
        iexact Hg
    rw [PhiS_castSucc m c t]
    iintro ⟨HΦ, Ho, ⟨%d0, H0⟩, ⟨%d1, H1⟩, ⟨%d2, H2⟩, ⟨%d3, H3⟩⟩
    ihave HΦ' := hΦ $$ HΦ
    icases HΦ' with ⟨HS, Hg⟩
    iapply ((runFirst c (grid0.coords t) _ _ _ _ _ _ _ _ _ _ ((hcondFirst t).mpr h0) hl (iblk m c 0 t) (iblk m c 1 t)).2.2 _ Set.univ _)
    isplitl [H0]; · iexact H0
    isplitl [H1]; · iexact H1
    isplitl [H2]; · iexists _; iexact H2
    isplitl [H3]; · iexact H3
    isplitl [HS]; · iexact HS
    iintro ⟨H0, H1, ⟨%e2, H2⟩, H3, ⟨%es, HS⟩⟩
    isplitl [HS Hg]
    · isplitl [HS]
      · unfold owns; iexists _; isplitr
        swap; · iexact HS
        ipureintro; exact View.read_writes_of_cover _ _ _ _ _ (coverAccFirst c _ _ _ _ _ _ _ _ _ _ _ _ _ _ _)
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover2First c _ _ _ _ _ _ _ _ _ _ _ _ _ _ _)
    iexists _; iexact H3
  · have hz : t.val ≠ 0 := fun h => h0 (by rw [h])
    by_cases h1 : t.val % 8 = 7
    · have hl : condLast (grid0.coords t) := (hcondLast t).mpr h1
      rw [leaves3_last m c t hl]
      rw [outsAt_last m c t h0 h1]
      unfold out2Last out3Last accLast; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runLast c (grid0.coords t) _ _ _ _ _ _ _ _ _ _ (fun h => h0 ((hcondFirst t).mp h)) hl (iblk m c 0 t) (iblk m c 1 t) _).2.2.2 Set.univ _)
      isplitl [H0]; · iexact H0
      isplitl [H1]; · iexact H1
      isplitl [H2]; · iexists _; iexact H2
      isplitl [H3]; · iexists _; iexact H3
      isplitl [HS]; · iexact HS
      iintro ⟨H0, H1, ⟨%e2, H2⟩, ⟨%e3, H3⟩, ⟨%es, HS⟩⟩
      isplitl [HS Hg]
      · isplitl [HS]
        · unfold owns; iexists _; isplitr
          swap; · iexact HS
          ipureintro; exact View.read_writes_of_cover _ _ _ _ _ (coverAccLast c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2Last c _ _ _ _ _ _ _ _ _ _ _ _ _ _ _ _)
      unfold owns; iexists _; isplitr
      swap; · iexact H3
      ipureintro; exact View.read_writes_of_cover _ _ _ _ _ (cover3Last c _ _ _ _ _ _ _ _ _ _ _ _ _ _ _ _)
    · have hl : ¬condLast (grid0.coords t) := fun h => h1 ((hcondLast t).mp h)
      rw [Dat.leavesExact_idle (dats m 0 c) 3 t (idleAt3 t hl) (noFlush3 t hl)]
      rw [outsAt_mid m c t h0 h1]
      unfold out2Mid accMid; (try dsimp only)
      rw [PhiS_castSucc m c t, PhiS_pos m c _ _ hz]
      iintro ⟨⟨HS, Hg⟩, Ho, ⟨%d0, H0⟩, ⟨%d1, H1⟩, ⟨%d2, H2⟩, ⟨%d3, H3⟩⟩
      iapply ((runMid c (grid0.coords t) _ _ _ _ _ _ _ _ _ _ (fun h => h0 ((hcondFirst t).mp h)) hl (iblk m c 0 t) (iblk m c 1 t) _).2.2 _ Set.univ _)
      isplitl [H0]; · iexact H0
      isplitl [H1]; · iexact H1
      isplitl [H2]; · iexists _; iexact H2
      isplitl [H3]; · iexact H3
      isplitl [HS]; · iexact HS
      iintro ⟨H0, H1, ⟨%e2, H2⟩, H3, ⟨%es, HS⟩⟩
      isplitl [HS Hg]
      · isplitl [HS]
        · unfold owns; iexists _; isplitr
          swap; · iexact HS
          ipureintro; exact View.read_writes_of_cover _ _ _ _ _ (coverAccMid c _ _ _ _ _ _ _ _ _ _ _ _ _ _ _ _)
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover2Mid c _ _ _ _ _ _ _ _ _ _ _ _ _ _ _ _)
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA_eq]
  iintro ⟨HS, Hg⟩
  isplitl [HS]
  · iexists _; iexact HS
  iexact Hg

/-! ## The run and the frame -/

set_option backward.isDefEq.respectTransparency.types false in
/-- Every weakly fair execution of the program terminates; each staged array ends at what the library computes from the
    proof data, every other unscoped buffer as the later host operations leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The program runs to its end and leaves its three argument arrays as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Fr

end
-- ==== Proof.KerIdealPieces.lean ====
/-
  What each kind of block leaves, read back as values: whatever the block, the output block ends at the body's
  positive-instance products of the two input blocks; the accumulator ends at the block's negative-instance sum added to
  what it held when the block began — zero at a first block, which resets it first; and at a last block the per-core
  sum's window receives the accumulator's final value. Each is the one covering store's payload, its loads read through
  the whole buffers.
-/
import proofs.«144705_j45681272160447_2_alg».proof.Proof.KerIdealFrame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- First block: the output block is the products of the two input blocks. -/
theorem out2First_eq (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : condFirst i) (hc1 : ¬condLast i) (x0 : Vec F S1x4096x128 .f32) (x1 : Vec F S1x4096x128 .i32) :
    out2First c i arg2 harg2 arg3 harg3 arg4 harg4 arg5 harg5 arg6 harg6 hc0 hc1 x0 x1 = k0_pay5 x0 x1 := by
  unfold out2First
  rw [View.read_writes_eq_canon _ _ _ (cover2First c i arg2 harg2 arg3 harg3 arg4 harg4 arg5 harg5 arg6 harg6 hc0 hc1 x0 x1)]
  unfold runFirst
  dsimp only
  sl_unfold_words
  rw [View.canon_unit_zero hz3]
  simp only [View.readAt_eq_ld, harg2.read_unread, harg3.read_unread, View.ld_unit_zero (S := S1x4096x128) hz3, View.ld_unit_zero (S := S1x1) hz2]

/-- First block: the accumulator, reset to zero and read back, ends at the block's sum added to zero. -/
theorem accFirst_eq (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : condFirst i) (hc1 : ¬condLast i) (x0 : Vec F S1x4096x128 .f32) (x1 : Vec F S1x4096x128 .i32) :
    accFirst c i arg2 harg2 arg3 harg3 arg4 harg4 arg5 harg5 arg6 harg6 hc0 hc1 x0 x1 = k0_pay6 x0 x1 (k0_pay2 (F := F)) := by
  unfold accFirst
  rw [View.read_writes_eq_canon _ _ _ (coverAccFirst c i arg2 harg2 arg3 harg3 arg4 harg4 arg5 harg5 arg6 harg6 hc0 hc1 x0 x1)]
  unfold runFirst
  dsimp only
  sl_unfold_words
  rw [View.canon_cons_unit_zero (S := S1x1) hz2, View.readCov_unit_zero (S := S1x1) _ hz2]
  simp only [View.readAt_eq_ld, harg2.read_unread, harg3.read_unread, View.ld_unit_zero (S := S1x4096x128) hz3, View.ld_unit_zero (S := S1x1) hz2]

/-- Middle block: the output block. -/
theorem out2Mid_eq (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : ¬condLast i) (x0 : Vec F S1x4096x128 .f32) (x1 : Vec F S1x4096x128 .i32) (xs : Vec F S1x1 .f32) :
    out2Mid c i arg2 harg2 arg3 harg3 arg4 harg4 arg5 harg5 arg6 harg6 hc0 hc1 x0 x1 xs = k0_pay5 x0 x1 := by
  unfold out2Mid
  rw [View.read_writes_eq_canon _ _ _ (cover2Mid c i arg2 harg2 arg3 harg3 arg4 harg4 arg5 harg5 arg6 harg6 hc0 hc1 x0 x1 xs)]
  unfold runMid
  dsimp only
  rw [View.canon_unit_zero hz3]
  simp only [View.readAt_eq_ld, harg2.read_unread, harg3.read_unread, View.ld_unit_zero (S := S1x4096x128) hz3, View.ld_unit_zero (S := S1x1) hz2]

/-- Middle block: the accumulator ends at the block's sum added to what it held. -/
theorem accMid_eq (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : ¬condLast i) (x0 : Vec F S1x4096x128 .f32) (x1 : Vec F S1x4096x128 .i32) (xs : Vec F S1x1 .f32) :
    accMid c i arg2 harg2 arg3 harg3 arg4 harg4 arg5 harg5 arg6 harg6 hc0 hc1 x0 x1 xs = k0_pay6 x0 x1 xs := by
  unfold accMid
  rw [View.read_writes_eq_canon _ _ _ (coverAccMid c i arg2 harg2 arg3 harg3 arg4 harg4 arg5 harg5 arg6 harg6 hc0 hc1 x0 x1 xs)]
  unfold runMid
  dsimp only
  sl_unfold_words
  rw [View.canon_unit_zero hz2]
  simp only [View.readAt_eq_ld, harg2.read_unread, harg3.read_unread, harg6.read_unread, View.ld_unit_zero (S := S1x4096x128) hz3, View.ld_unit_zero (S := S1x1) hz2]

/-- Last block: the output block. -/
theorem out2Last_eq (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : condLast i) (x0 : Vec F S1x4096x128 .f32) (x1 : Vec F S1x4096x128 .i32) (xs : Vec F S1x1 .f32) :
    out2Last c i arg2 harg2 arg3 harg3 arg4 harg4 arg5 harg5 arg6 harg6 hc0 hc1 x0 x1 xs = k0_pay5 x0 x1 := by
  unfold out2Last
  rw [View.read_writes_eq_canon _ _ _ (cover2Last c i arg2 harg2 arg3 harg3 arg4 harg4 arg5 harg5 arg6 harg6 hc0 hc1 x0 x1 xs)]
  unfold runLast
  dsimp only
  rw [View.canon_unit_zero hz3]
  simp only [View.readAt_eq_ld, harg2.read_unread, harg3.read_unread, View.ld_unit_zero (S := S1x4096x128) hz3, View.ld_unit_zero (S := S1x1) hz2]

/-- Last block: the accumulator. -/
theorem accLast_eq (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : condLast i) (x0 : Vec F S1x4096x128 .f32) (x1 : Vec F S1x4096x128 .i32) (xs : Vec F S1x1 .f32) :
    accLast c i arg2 harg2 arg3 harg3 arg4 harg4 arg5 harg5 arg6 harg6 hc0 hc1 x0 x1 xs = k0_pay6 x0 x1 xs := by
  unfold accLast
  rw [View.read_writes_eq_canon _ _ _ (coverAccLast c i arg2 harg2 arg3 harg3 arg4 harg4 arg5 harg5 arg6 harg6 hc0 hc1 x0 x1 xs)]
  unfold runLast
  dsimp only
  sl_unfold_words
  rw [View.canon_unit_zero hz2]
  simp only [View.readAt_eq_ld, harg2.read_unread, harg3.read_unread, harg6.read_unread, View.ld_unit_zero (S := S1x4096x128) hz3, View.ld_unit_zero (S := S1x1) hz2]

/-- Last block: the per-core sum's window receives the accumulator's final value. -/
theorem out3Last_eq (c : Dev nD) (i : grid0.Coords) (arg2 : Memref sig .tc .vmem S1x4096x128 .f32) (harg2 : arg2.IsWhole) (arg3 : Memref sig .tc .vmem S1x4096x128 .i32) (harg3 : arg3.IsWhole) (arg4 : Memref sig .tc .vmem S1x4096x128 .f32) (harg4 : arg4.IsWhole) (arg5 : Memref sig .tc .vmem S1x1x1 .f32) (harg5 : arg5.IsWhole) (arg6 : Memref sig .tc .vmem S1x1 .f32) (harg6 : arg6.IsWhole) (hc0 : ¬condFirst i) (hc1 : condLast i) (x0 : Vec F S1x4096x128 .f32) (x1 : Vec F S1x4096x128 .i32) (xs : Vec F S1x1 .f32) :
    out3Last c i arg2 harg2 arg3 harg3 arg4 harg4 arg5 harg5 arg6 harg6 hc0 hc1 x0 x1 xs = k0_pay1 (k0_pay6 x0 x1 xs) := by
  unfold out3Last
  rw [View.read_writes_eq_canon _ _ _ (cover3Last c i arg2 harg2 arg3 harg3 arg4 harg4 arg5 harg5 arg6 harg6 hc0 hc1 x0 x1 xs)]
  unfold runLast
  dsimp only
  sl_unfold_words
  rw [View.canon_unit_zero hz3, View.readCov_unit_zero (S := S1x1) _ hz2]
  simp only [View.readAt_eq_ld, harg2.read_unread, harg3.read_unread, harg6.read_unread, View.ld_unit_zero (S := S1x4096x128) hz3, View.ld_unit_zero (S := S1x1) hz2]

end Cert.KernelIdeal.Fr

end
-- ==== Proof.KerIdealAt.lean ====
/-
  Point by point: after EVERY grid point the output block holds the body's products of the point's two input blocks;
  the accumulator holds, at a first block, the block's negative-instance sum added to zero, and at any later block that
  sum added to what the point before left; and at a last block the per-core sum's window holds the accumulator. Also:
  the two arrays the launch stages as inputs are the row-major [2, 32768, 128] layouts of the first two argument arrays,
  and where each window's block sits at a grid point (block (t / 8, t % 8) of the big arrays, block t / 8 of the per-core
  sums).
-/
import proofs.«144705_j45681272160447_2_alg».proof.Proof.KerIdealPieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

/-- After every point the output block is the products of the point's two input blocks. -/
theorem outsAt_out2 (c : Dev nD) (t : Fin cfg0.N) :
    (outsAt m c t.val t.isLt).1 = k0_pay5 (F := F) (iblk m c 0 t) (iblk m c 1 t) := by
  by_cases h0 : t.val % 8 = 0
  · have hl : ¬condLast (grid0.coords t) := fun h => by have := (hcondLast t).mp h; omega
    rw [outsAt_first m c t h0 hl]
    dsimp only
    exact out2First_eq c (grid0.coords t) (ms0 t) (hs0 t) (ms1 t) (hs1 t) (ms2 t) (hs2 t) (ms3 t) (hs3 t) accM (Memref.isWhole_whole _) ((hcondFirst t).mpr h0) hl (iblk m c 0 t) (iblk m c 1 t)
  · by_cases h1 : t.val % 8 = 7
    · rw [outsAt_last m c t h0 h1]
      dsimp only
      exact out2Last_eq c (grid0.coords t) (ms0 t) (hs0 t) (ms1 t) (hs1 t) (ms2 t) (hs2 t) (ms3 t) (hs3 t) accM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2.2
    · rw [outsAt_mid m c t h0 h1]
      dsimp only
      exact out2Mid_eq c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk m c 0 t) (iblk m c 1 t) (outsAt m c (t.val - 1) (Nat.lt_of_le_of_lt (Nat.sub_le _ _) t.isLt)).2.2

/-- At a first block the accumulator ends at the block's sum added to zero. -/
theorem outsAt_acc_first (c : Dev nD) (t : Fin cfg0.N) (h0 : t.val % 8 = 0) :
    (outsAt m c t.val t.isLt).2.2 = k0_pay6 (F := F) (iblk m c 0 t) (iblk m c 1 t) (k0_pay2 (F := F)) := by
  have hl : ¬condLast (grid0.coords t) := fun h => by have := (hcondLast t).mp h; omega
  rw [outsAt_first m c t h0 hl]
  dsimp only
  exact accFirst_eq c (grid0.coords t) (ms0 t) (hs0 t) (ms1 t) (hs1 t) (ms2 t) (hs2 t) (ms3 t) (hs3 t) accM (Memref.isWhole_whole _) ((hcondFirst t).mpr h0) hl (iblk m c 0 t) (iblk m c 1 t)

/-- At a later block it ends at the block's sum added to what the point before left. -/
theorem outsAt_acc_next (c : Dev nD) (t : Fin cfg0.N) (h0 : ¬t.val % 8 = 0) :
    (outsAt m c t.val t.isLt).2.2 = k0_pay6 (F := F) (iblk m c 0 t) (iblk m c 1 t) (outsAt m c (t.val - 1) (Nat.lt_of_le_of_lt (Nat.sub_le _ _) t.isLt)).2.2 := by
  by_cases h1 : t.val % 8 = 7
  · rw [outsAt_last m c t h0 h1]
    dsimp only
    exact accLast_eq c (grid0.coords t) (ms0 t) (hs0 t) (ms1 t) (hs1 t) (ms2 t) (hs2 t) (ms3 t) (hs3 t) accM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2.2
  · rw [outsAt_mid m c t h0 h1]
    dsimp only
    exact accMid_eq c (grid0.coords t) (ms0 t) (hs0 t) (ms1 t) (hs1 t) (ms2 t) (hs2 t) (ms3 t) (hs3 t) accM (Memref.isWhole_whole _) (fun h => h0 ((hcondFirst t).mp h)) (fun h => h1 ((hcondLast t).mp h)) (iblk m c 0 t) (iblk m c 1 t) (outsAt m c (t.val - 1) (Nat.lt_of_le_of_lt (Nat.sub_le _ _) t.isLt)).2.2

/-- At a last block the per-core sum's window holds the accumulator. -/
theorem outsAt_out3 (c : Dev nD) (t : Fin cfg0.N) (h1 : t.val % 8 = 7) :
    (outsAt m c t.val t.isLt).2.1 = k0_pay1 (F := F) ((outsAt m c t.val t.isLt).2.2) := by
  have h0 : ¬t.val % 8 = 0 := by omega
  rw [outsAt_last m c t h0 h1]
  dsimp only
  exact (out3Last_eq c (grid0.coords t) (ms0 t) (hs0 t) (ms1 t) (hs1 t) (ms2 t) (hs2 t) (ms3 t) (hs3 t) accM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2.2).trans
    (congrArg (k0_pay1 (F := F)) (accLast_eq c (grid0.coords t) (ms0 t) (hs0 t) (ms1 t) (hs1 t) (ms2 t) (hs2 t) (ms3 t) (hs3 t) accM (Memref.isWhole_whole _) (fun h => h0 ((hcondFirst t).mp h)) ((hcondLast t).mpr h1) (iblk m c 0 t) (iblk m c 1 t) (outsAt m c (t.val - 1) (Nat.lt_of_le_of_lt (Nat.sub_le _ _) t.isLt)).2.2).symm)

/-- The first staged array is the [2, 32768, 128] layout of the first argument. -/
theorem V_v0 (c : Dev nD) : (V m c main_v0 : S2x32768x128.Idx → Elt F .f32)
    = shapeCast S2x32768x128 (m ((c : Thread nD τ).loc main_arg0)) shapeCasts_S8388608_S2x32768x128 := by
  show StableHlo.after hostOps0 (fun b => m (c, b)) (Proc.devRef .tc main_v0) = _
  after_results; rfl

/-- The second is that of the second argument. -/
theorem V_v1 (c : Dev nD) : (V m c main_v1 : S2x32768x128.Idx → Elt F .i32)
    = shapeCast S2x32768x128 (m ((c : Thread nD τ).loc main_arg1)) shapeCasts_S8388608_S2x32768x128 := by
  show StableHlo.after hostOps0 (fun b => m (c, b)) (Proc.devRef .tc main_v1) = _
  after_results; rfl

/-- Where the windows' blocks sit: point `t` is block `t % 8` of core `t / 8`. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = t.val % 8 ∧ win0_2.index t (2 : Fin 3) = 0
    ∧ win0_3.index t (0 : Fin 3) = t.val / 8 ∧ win0_3.index t (1 : Fin 3) = 0 ∧ win0_3.index t (2 : Fin 3) = 0 :=
  (by decide +kernel : ∀ t : Fin grid0.N, _)

end Cert.KernelIdeal.Fr

end
-- ==== Proof.RefSpec.lean ====
/-
  The specification both programs are compared with, at the ideal instance (a float an extended real).

  Inputs: probabilities p, labels and bag identifiers, 8388608 entries each; 65536 bags.
    L       = log (1 - p + eps)                                   (per entry)
    negMask = [label = 0], posMask = [label = 1]                  (0 or 1, per entry)
    negcnt  = per bag, the number of its entries with label 0
    poscnt  = per bag, the number of its entries with label 1
    posseg  = per bag, the sum of L over its entries with label 1
    negsum  = the sum of L over all entries with label 0
  and the result is `finish negcnt poscnt posseg negsum`:
    nneg = the number of bags with negcnt > 0,  npos = the number of bags with poscnt > 0,
    lossNeg = if nneg > 0 then -(1 * negsum) / max nneg 1 else 0,
    bagTerm = per bag, if poscnt > 0 then log (1 - min (exp posseg) 1 + eps) else 0,
    lossPos = if npos > 0 then -(1 * sum bagTerm) / max npos 1 else 0,
    result  = lossNeg + lossPos.
  The float words 1.0 (0x3F800000), eps (0x33D6BF95) and 0.0 are kept as words: the same word stands on
  both sides of every comparison and is never evaluated here.

  Every shape relation an operation asks for (a broadcast's, a reduction's, the scatter's dimension
  numbers) is an explicit argument: a proof of a proposition, so any two choices of it give the same term.
-/
import Idealize.ShloMosaic.PureOps
import Idealize.ShloMosaic.PureOps.Ideal
import Idealize.ShloMosaic.Lib.ValueIdx

noncomputable section

namespace Cert.RefSpec

open Idealize.ShloMosaic

/-- The entries: 8388608 of them. -/
abbrev SN : Shape := ⟨1, ![8388608]⟩
/-- The bags: 65536 of them. -/
abbrev SB : Shape := ⟨1, ![65536]⟩
/-- The entries as a column, the form in which the bag identifiers index the scatter. -/
abbrev SNx1 : Shape := ⟨2, ![8388608, 1]⟩
/-- A scalar. -/
abbrev S0 : Shape := ⟨0, ![]⟩

/-- The common tail: from the per-bag counts of label-0 and label-1 entries, the per-bag sums of
    `log (1 - p + eps)` over the label-1 entries and the total of it over the label-0 entries, the loss
    `lossNeg + lossPos` described in the header, one host operation per step. -/
def finish (hB0B : S0.BroadcastsInDim SB (![] : Fin 0 → Fin SB.rank)) (hRB : SB.ReducesTo [0] S0) (h0 : 0 < S0.numel)
    (negcnt poscnt posseg : FVec Ideal SB .f32) (negsum : FVec Ideal S0 .f32) : FVec Ideal S0 .f32 :=
  addf (F := Ideal)
    (select
      (cmpf (F := Ideal) .ogt
        (Host.reduceAdd (F := Ideal)
          (uitofp (F := Ideal) .f32
            (cmpf (F := Ideal) .ogt negcnt (broadcastInDim SB ![] hB0B (constant (F := Ideal) S0 .f32 0x00000000#32))))
          (constant (F := Ideal) S0 .f32 0x00000000#32) hRB h0)
        (constant (F := Ideal) S0 .f32 0x00000000#32))
      (Host.divf (F := Ideal)
        (Host.negf (F := Ideal) (mulf (F := Ideal) (constant (F := Ideal) S0 .f32 0x3F800000#32) negsum))
        (maximumf (F := Ideal)
          (Host.reduceAdd (F := Ideal)
            (uitofp (F := Ideal) .f32
              (cmpf (F := Ideal) .ogt negcnt (broadcastInDim SB ![] hB0B (constant (F := Ideal) S0 .f32 0x00000000#32))))
            (constant (F := Ideal) S0 .f32 0x00000000#32) hRB h0)
          (constant (F := Ideal) S0 .f32 0x3F800000#32)))
      (id (constant (F := Ideal) S0 .f32 0x00000000#32)))
    (select
      (cmpf (F := Ideal) .ogt
        (Host.reduceAdd (F := Ideal)
          (uitofp (F := Ideal) .f32
            (cmpf (F := Ideal) .ogt poscnt (broadcastInDim SB ![] hB0B (constant (F := Ideal) S0 .f32 0x00000000#32))))
          (constant (F := Ideal) S0 .f32 0x00000000#32) hRB h0)
        (constant (F := Ideal) S0 .f32 0x00000000#32))
      (Host.divf (F := Ideal)
        (Host.negf (F := Ideal) (mulf (F := Ideal) (constant (F := Ideal) S0 .f32 0x3F800000#32)
          (Host.reduceAdd (F := Ideal)
            (select
              (cmpf (F := Ideal) .ogt poscnt (broadcastInDim SB ![] hB0B (constant (F := Ideal) S0 .f32 0x00000000#32)))
              (Host.log (F := Ideal)
                (addf (F := Ideal)
                  (subf (F := Ideal) (broadcastInDim SB ![] hB0B (constant (F := Ideal) S0 .f32 0x3F800000#32))
                    (minimumf (F := Ideal) (Host.exp (F := Ideal) posseg)
                      (broadcastInDim SB ![] hB0B (constant (F := Ideal) S0 .f32 0x3F800000#32))))
                  (broadcastInDim SB ![] hB0B (constant (F := Ideal) S0 .f32 0x33D6BF95#32))))
              (broadcastInDim SB ![] hB0B (id (constant (F := Ideal) S0 .f32 0x00000000#32))))
            (constant (F := Ideal) S0 .f32 0x00000000#32) hRB h0)))
        (maximumf (F := Ideal)
          (Host.reduceAdd (F := Ideal)
            (uitofp (F := Ideal) .f32
              (cmpf (F := Ideal) .ogt poscnt (broadcastInDim SB ![] hB0B (constant (F := Ideal) S0 .f32 0x00000000#32))))
            (constant (F := Ideal) S0 .f32 0x00000000#32) hRB h0)
          (constant (F := Ideal) S0 .f32 0x3F800000#32)))
      (id (constant (F := Ideal) S0 .f32 0x00000000#32)))

/-- `log (1 - p + eps)`, entry by entry. -/
def logNot (hB0N : S0.BroadcastsInDim SN (![] : Fin 0 → Fin SN.rank)) (p : FVec Ideal SN .f32) : FVec Ideal SN .f32 :=
  Host.log (F := Ideal)
    (addf (F := Ideal)
      (subf (F := Ideal) (broadcastInDim SN ![] hB0N (constant (F := Ideal) S0 .f32 0x3F800000#32)) p)
      (broadcastInDim SN ![] hB0N (constant (F := Ideal) S0 .f32 0x33D6BF95#32)))

/-- The indicator of label 0 as a float: 1 where the label is 0, else 0. -/
def negMask (hB0N : S0.BroadcastsInDim SN (![] : Fin 0 → Fin SN.rank)) (lbl : IVec SN 32) : FVec Ideal SN .f32 :=
  uitofp (F := Ideal) .f32 (cmpi .eq lbl (broadcastInDim SN ![] hB0N (constantI S0 32 0#32)))

/-- The indicator of label 1 as a float: 1 where the label is 1, else 0. -/
def posMask (hB0N : S0.BroadcastsInDim SN (![] : Fin 0 → Fin SN.rank)) (lbl : IVec SN 32) : FVec Ideal SN .f32 :=
  uitofp (F := Ideal) .f32 (cmpi .eq lbl (broadcastInDim SN ![] hB0N (constantI S0 32 1#32)))

/-- The whole loss as a function of the three inputs: the three per-bag accumulations (each a scatter-add
    into zeros at the bag identifiers) and the one total, handed to `finish`. -/
def spec (hB0B : S0.BroadcastsInDim SB (![] : Fin 0 → Fin SB.rank))
    (hB0N : S0.BroadcastsInDim SN (![] : Fin 0 → Fin SN.rank))
    (hBN1 : SN.BroadcastsInDim SNx1 (![0] : Fin 1 → Fin SNx1.rank))
    (hRB : SB.ReducesTo [0] S0) (hRN : SN.ReducesTo [0] S0) (h0 : 0 < S0.numel)
    (sd : ScatterDims SB SNx1 SN)
    (p : FVec Ideal SN .f32) (lbl bag : IVec SN 32) : FVec Ideal S0 .f32 :=
  finish hB0B hRB h0
    (Host.scatterAdd (F := Ideal) sd
      (broadcastInDim SB ![] hB0B (constant (F := Ideal) S0 .f32 0x00000000#32))
      (broadcastInDim SNx1 ![0] hBN1 bag)
      (negMask hB0N lbl))
    (Host.scatterAdd (F := Ideal) sd
      (broadcastInDim SB ![] hB0B (constant (F := Ideal) S0 .f32 0x00000000#32))
      (broadcastInDim SNx1 ![0] hBN1 bag)
      (posMask hB0N lbl))
    (Host.scatterAdd (F := Ideal) sd
      (broadcastInDim SB ![] hB0B (constant (F := Ideal) S0 .f32 0x00000000#32))
      (broadcastInDim SNx1 ![0] hBN1 bag)
      (mulf (F := Ideal) (posMask hB0N lbl) (logNot hB0N p)))
    (Host.reduceAdd (F := Ideal) (mulf (F := Ideal) (negMask hB0N lbl) (logNot hB0N p))
      (constant (F := Ideal) S0 .f32 0x00000000#32) hRN h0)

end Cert.RefSpec

end
-- ==== Proof.LabelCodes.lean ====
/-
  Labels that are 0 or 1, read as floats (at the ideal instance: a float is an extended real, an
  integer converts to itself exactly).

  For a label a in {0, 1}:
    the signed conversion of a is the indicator [a = 1]        (0 gives 0, 1 gives 1);
    1 - (the signed conversion of a) is the indicator [a = 0]  (1 - 0 = 1, 1 - 1 = 0),
      where 1 is the float word 0x3F800000, which denotes the real 1;
  and for any one-bit word b, widening b to 32 bits with zeros and converting it signed gives the same
  real as converting b unsigned (the widened word is 0 or 1, never negative).
-/
import proofs.«144705_j45681272160447_2_alg».proof.Proof.RefSpec

noncomputable section

namespace Cert.RefSpec

open Idealize.ShloMosaic

/-- The float word 0x3F800000 denotes the real 1. -/
theorem ofBits_one : Ideal.ofBits .f32 0x3F800000#32 = 1 := by
  simp [Ideal.ofBits, Ideal.ieee, -EReal.coe_mul]; norm_num

/-- A one-bit word widened with zeros to 32 bits is nonnegative: read signed it is the bit. -/
theorem toInt_setWidth_bit (b : BitVec 1) : (b.setWidth 32).toInt = (b.toNat : Int) := by
  revert b; decide

/-- The signed conversion of a label that is 0 or 1 is the indicator of label 1. -/
theorem sitofp_eq_posMask (hB0N : S0.BroadcastsInDim SN (![] : Fin 0 → Fin SN.rank)) (lbl : IVec SN 32)
    (h : ∀ i, lbl i = 0#32 ∨ lbl i = 1#32) :
    sitofp (F := Ideal) .f32 lbl = posMask hB0N lbl := by
  funext i
  show (((lbl i).toInt : ℝ) : EReal) = (((IntOp.cmpi .eq (lbl i) 1#32).toNat : ℝ) : EReal)
  rcases h i with e | e <;> rw [e]
  · have h1 : (0#32 : BitVec 32).toInt = 0 := by decide
    have h2 : (IntOp.cmpi .eq (0#32 : BitVec 32) 1#32).toNat = 0 := by decide
    rw [h1, h2]; simp
  · have h1 : (1#32 : BitVec 32).toInt = 1 := by decide
    have h2 : (IntOp.cmpi .eq (1#32 : BitVec 32) 1#32).toNat = 1 := by decide
    rw [h1, h2]; simp

/-- One minus the signed conversion of a label that is 0 or 1 is the indicator of label 0. -/
theorem one_sub_sitofp_eq_negMask (hB0N : S0.BroadcastsInDim SN (![] : Fin 0 → Fin SN.rank)) (lbl : IVec SN 32)
    (h : ∀ i, lbl i = 0#32 ∨ lbl i = 1#32) :
    subf (F := Ideal) (broadcastInDim SN ![] hB0N (constant (F := Ideal) S0 .f32 0x3F800000#32))
      (sitofp (F := Ideal) .f32 lbl) = negMask hB0N lbl := by
  funext i
  show Ideal.ofBits .f32 0x3F800000#32 - (((lbl i).toInt : ℝ) : EReal)
    = (((IntOp.cmpi .eq (lbl i) 0#32).toNat : ℝ) : EReal)
  rw [ofBits_one]
  rcases h i with e | e <;> rw [e]
  · have h1 : (0#32 : BitVec 32).toInt = 0 := by decide
    have h2 : (IntOp.cmpi .eq (0#32 : BitVec 32) 0#32).toNat = 1 := by decide
    rw [h1, h2]; simp
  · have h1 : (1#32 : BitVec 32).toInt = 1 := by decide
    have h2 : (IntOp.cmpi .eq (1#32 : BitVec 32) 0#32).toNat = 0 := by decide
    rw [h1, h2]
    rw [Int.cast_one, Nat.cast_zero, EReal.coe_one, EReal.coe_zero, ← EReal.coe_one, ← EReal.coe_sub, sub_self,
      EReal.coe_zero]

/-- A one-bit array widened to 32 bits and converted signed is the array converted unsigned. -/
theorem sitofp_extui_bit {S : Shape} (v : IVec S 1) (h : 1 < 32) :
    sitofp (F := Ideal) .f32 (extui 32 v h) = uitofp (F := Ideal) .f32 v := by
  funext i
  show ((((v i).setWidth 32).toInt : ℝ) : EReal) = (((v i).toNat : ℝ) : EReal)
  rw [toInt_setWidth_bit]; simp

end Cert.RefSpec

end
-- ==== Proof.KerPay.lean ====
/-
  The kernel body's arithmetic read at an index, at the ideal instance (a float an extended real).

  One grid point holds a block of 4096 x 128 entries: probabilities x0 and labels x1, each laid out
  [1, 4096, 128]. With L = log (1 - x0 + eps), the body
    * stores, entry by entry, [x1 = 1] * L                            (the label-1 terms, kept per entry);
    * adds to a running scalar the sum over the block of [x1 = 0] * L  (the label-0 terms, totalled:
      first along the 128 lanes of each row, then over the 4096 rows);
    * starts that scalar at 0, and at the end copies it out unchanged.
  The indicator [x1 = a] is computed as a one-bit comparison widened to 32 bits and converted signed,
  which is the bit converted unsigned; the layout changes only add or drop unit axes, so the entry
  (0, r, l) of a [1, 4096, 128] array is the entry (r, l) of the [4096, 128] one. A sum over one axis at
  this instance is the plain finite sum (its zero start word is not read), so nothing here needs the
  terms to be finite.

  Every statement is over variables of the literal array types and explicit coordinates; an entry of
  the flat inputs p, labels is matched with a block entry by hypothesis.
-/
import proofs.«144705_j45681272160447_2_alg».proof.Proof.Gen.KernelIdeal.Skeleton
import proofs.«144705_j45681272160447_2_alg».proof.Proof.RefSpec
import proofs.«144705_j45681272160447_2_alg».proof.Proof.LabelCodes
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.RefSpec

open scoped BigOperators

/-! ## Indices by coordinates -/

/-- An index of a [1, 4096, 128] block is (0, r, l). -/
theorem eq_ix3_block (y : S1x4096x128.Idx) : y = ix3 (0 : Fin 1) (y 1) (y 2) := by
  funext d
  match d with
  | ⟨0, _⟩ => exact Subsingleton.elim (α := Fin 1) _ _
  | ⟨1, _⟩ => rfl
  | ⟨2, _⟩ => rfl

/-- The same with the two coordinates as variables of literal range. -/
theorem exists_ix3_block (y : S1x4096x128.Idx) : ∃ (r : Fin 4096) (l : Fin 128), y = ix3 (0 : Fin 1) r l :=
  ⟨y 1, y 2, eq_ix3_block y⟩

/-- The one index of a [1, 1] array. -/
theorem eq_ix2_unit (y : S1x1.Idx) : y = ix2 (0 : Fin 1) (0 : Fin 1) := by
  funext d
  match d with
  | ⟨0, _⟩ => exact Subsingleton.elim (α := Fin 1) _ _
  | ⟨1, _⟩ => exact Subsingleton.elim (α := Fin 1) _ _

/-- The one index of a [1, 1, 1] array. -/
theorem eq_ix3_unit (y : S1x1x1.Idx) : y = ix3 (0 : Fin 1) (0 : Fin 1) (0 : Fin 1) := by
  funext d
  match d with
  | ⟨0, _⟩ => exact Subsingleton.elim (α := Fin 1) _ _
  | ⟨1, _⟩ => exact Subsingleton.elim (α := Fin 1) _ _
  | ⟨2, _⟩ => exact Subsingleton.elim (α := Fin 1) _ _

/-! ## The pieces -/

/-- The labels viewed [4096, 128]: entry (r, l) is the block's entry (0, r, l). -/
theorem pay3_apply (x1 : Vec Ideal S1x4096x128 .i32) (r : Fin 4096) (l : Fin 128) :
    k0_pay3 (F := Ideal) x1 (ix2 r l) = x1 (ix3 (0 : Fin 1) r l) := by
  unfold k0_pay3
  exact shapeCast_1ab_ab_apply x1 _ r l

/-- L = log (1 - x0 + eps) at entry (r, l), the two float words kept as words. -/
theorem pay4_apply (x0 : Vec Ideal S1x4096x128 .f32) (r : Fin 4096) (l : Fin 128) :
    k0_pay4 (F := Ideal) x0 (ix2 r l)
      = Ideal.log (Ideal.ofBits .f32 0x3F800000#32 - x0 (ix3 (0 : Fin 1) r l) + Ideal.ofBits .f32 0x33D6BF95#32) := by
  unfold k0_pay4
  show Ideal.log (Ideal.ofBits .f32 0x3F800000#32
      - shapeCast S4096x128 x0 shapeCasts_S1x4096x128_S4096x128 (ix2 r l) + Ideal.ofBits .f32 0x33D6BF95#32) = _
  rw [shapeCast_1ab_ab_apply x0 _ r l]

/-- The reference's log (1 - p + eps) at an entry, in the same form. -/
theorem logNot_apply (hB0N : S0.BroadcastsInDim SN (![] : Fin 0 → Fin SN.rank)) (p : FVec Ideal SN .f32) (n : SN.Idx) :
    logNot hB0N p n = Ideal.log (Ideal.ofBits .f32 0x3F800000#32 - p n + Ideal.ofBits .f32 0x33D6BF95#32) := rfl

/-- The term [x1 = a] * L of the block's entry (r, l), the indicator spelt as the body spells it, is the
    reference's [label = a] * log (1 - p + eps) at the matching flat entry. -/
theorem term_apply (hB0N : S0.BroadcastsInDim SN (![] : Fin 0 → Fin SN.rank)) (a : BitVec 32)
    (x0 : Vec Ideal S1x4096x128 .f32) (x1 : Vec Ideal S1x4096x128 .i32) (r : Fin 4096) (l : Fin 128)
    (p : FVec Ideal SN .f32) (lbl : IVec SN 32) (n : SN.Idx)
    (hp : p n = x0 (ix3 (0 : Fin 1) r l)) (hl : lbl n = x1 (ix3 (0 : Fin 1) r l)) (h132 : 1 < 32) :
    (mulf (F := Ideal)
        (sitofp (F := Ideal) .f32 (extui 32 (cmpi .eq (k0_pay3 (F := Ideal) x1) (broadcast S4096x128 a)) h132))
        (k0_pay4 (F := Ideal) x0)) (ix2 r l)
      = (mulf (F := Ideal)
          (uitofp (F := Ideal) .f32 (cmpi .eq lbl (broadcastInDim SN ![] hB0N (constantI S0 32 a))))
          (logNot hB0N p)) n := by
  rw [sitofp_extui_bit]
  show (((IntOp.cmpi .eq (k0_pay3 (F := Ideal) x1 (ix2 r l)) a).toNat : ℝ) : EReal) * k0_pay4 (F := Ideal) x0 (ix2 r l)
    = (((IntOp.cmpi .eq (lbl n) a).toNat : ℝ) : EReal) * logNot hB0N p n
  rw [pay3_apply, pay4_apply, logNot_apply, hl, hp]

/-! ## The stored values -/

/-- The per-entry store: [x1 = 1] * L at (0, r, l) is the reference's label-1 term at the matching entry. -/
theorem pay5_apply (hB0N : S0.BroadcastsInDim SN (![] : Fin 0 → Fin SN.rank))
    (x0 : Vec Ideal S1x4096x128 .f32) (x1 : Vec Ideal S1x4096x128 .i32) (r : Fin 4096) (l : Fin 128)
    (p : FVec Ideal SN .f32) (lbl : IVec SN 32) (n : SN.Idx)
    (hp : p n = x0 (ix3 (0 : Fin 1) r l)) (hl : lbl n = x1 (ix3 (0 : Fin 1) r l)) :
    k0_pay5 (F := Ideal) x0 x1 (ix3 (0 : Fin 1) r l) = (mulf (F := Ideal) (posMask hB0N lbl) (logNot hB0N p)) n := by
  unfold k0_pay5
  refine (shapeCast_ab_1ab_apply _ _ (0 : Fin 1) r l).trans ?_
  exact term_apply hB0N 1#32 x0 x1 r l p lbl n hp hl _

/-- A [4096] array viewed as a column [4096, 1]: entry (r, 0) is entry r. -/
theorem shapeCast_column_apply (x : FVec Ideal S4096 .f32) (h : S4096.ShapeCasts S4096x1) (r : Fin 4096) :
    shapeCast S4096x1 x h (ix2 r (0 : Fin 1)) = x (ix1 r) :=
  shapeCast_apply x h _ _ (by
    rw [Shape.rowMajor_val_one, Shape.rowMajor_val_two]
    show r.val = r.val * 1 + 0
    omega)

/-- The sum along the 128 lanes of row r. -/
theorem laneSum_apply (v : FVec Ideal S4096x128 .f32) (h : S4096x128.Reduces [1] S4096) (hφ : FKind.Formats .f32)
    (hacc : (0x00000000#32 : BitVec 32) = FKind.add.neutral .f32 hφ) (r : Fin 4096) :
    multiReduction (F := Ideal) .add [1] S4096 v 0x00000000#32 h hφ hacc (ix1 r) = ∑ l : Fin 128, v (ix2 r l) := by
  refine (Ideal.multiReduction_add_single v 0x00000000#32 h hφ hacc (ix1 r)).trans ?_
  refine Finset.sum_congr rfl fun l _ => congrArg v ?_
  funext c
  match c with
  | ⟨0, _⟩ => rfl
  | ⟨1, _⟩ => rfl

/-- The sum over the 4096 rows of a column. -/
theorem rowSum_apply (v : FVec Ideal S4096x1 .f32) (h : S4096x1.Reduces [0] S1) (hφ : FKind.Formats .f32)
    (hacc : (0x00000000#32 : BitVec 32) = FKind.add.neutral .f32 hφ) :
    multiReduction (F := Ideal) .add [0] S1 v 0x00000000#32 h hφ hacc (ix1 (0 : Fin 1))
      = ∑ r : Fin 4096, v (ix2 r (0 : Fin 1)) := by
  refine (Ideal.multiReduction_add_single v 0x00000000#32 h hφ hacc (ix1 (0 : Fin 1))).trans ?_
  refine Finset.sum_congr rfl fun r _ => congrArg v ?_
  funext c
  match c with
  | ⟨0, _⟩ => rfl
  | ⟨1, _⟩ => rfl

/-- The accumulated scalar: the running value plus the block's total of [x1 = 0] * L, which is the total
    of the reference's label-0 terms over the matching flat entries. -/
theorem pay6_apply (hB0N : S0.BroadcastsInDim SN (![] : Fin 0 → Fin SN.rank))
    (x0 : Vec Ideal S1x4096x128 .f32) (x1 : Vec Ideal S1x4096x128 .i32) (acc : Vec Ideal S1x1 .f32)
    (p : FVec Ideal SN .f32) (lbl : IVec SN 32) (nn : Fin 4096 → Fin 128 → SN.Idx)
    (hp : ∀ r l, p (nn r l) = x0 (ix3 (0 : Fin 1) r l)) (hl : ∀ r l, lbl (nn r l) = x1 (ix3 (0 : Fin 1) r l)) :
    k0_pay6 (F := Ideal) x0 x1 acc (ix2 (0 : Fin 1) (0 : Fin 1))
      = acc (ix2 (0 : Fin 1) (0 : Fin 1))
        + ∑ r : Fin 4096, ∑ l : Fin 128, (mulf (F := Ideal) (negMask hB0N lbl) (logNot hB0N p)) (nn r l) := by
  unfold k0_pay6
  refine (congrFun (shapeCast_self _ _) _).trans ?_
  refine congrArg (fun z : EReal => acc (ix2 (0 : Fin 1) (0 : Fin 1)) + z) ?_
  refine (shapeCast_a_1a_apply _ _ (0 : Fin 1) (0 : Fin 1)).trans ?_
  refine (rowSum_apply _ _ _ _).trans ?_
  refine Finset.sum_congr rfl fun r _ => ?_
  refine (shapeCast_column_apply _ _ r).trans ?_
  refine (laneSum_apply _ _ _ _ r).trans ?_
  refine Finset.sum_congr rfl fun l _ => ?_
  exact term_apply hB0N 0#32 x0 x1 r l p lbl (nn r l) (hp r l) (hl r l) _

/-- The scalar's starting value is 0. -/
theorem pay2_apply : k0_pay2 (F := Ideal) (ix2 (0 : Fin 1) (0 : Fin 1)) = 0 := by
  unfold k0_pay2
  refine (congrFun (shapeCast_self _ _) _).trans ?_
  exact Ideal.ofBits_zero_f32

/-- The scalar copied out as a [1, 1, 1] array: its one entry is the scalar. -/
theorem pay1_apply (v : Vec Ideal S1x1 .f32) :
    k0_pay1 (F := Ideal) v (ix3 (0 : Fin 1) (0 : Fin 1) (0 : Fin 1)) = v (ix2 (0 : Fin 1) (0 : Fin 1)) := by
  unfold k0_pay1
  exact shapeCast_ab_1ab_apply v _ (0 : Fin 1) (0 : Fin 1) (0 : Fin 1)

end Cert.KernelIdeal.Pay

end
-- ==== Proof.Reshapes.lean ====
/-
  The row-major reshapes between a flat array of 8388608 entries and a [2, 32768, 128] array, read at an
  index, for any element type.

  Both shapes list the same entries in the same row-major order: entry (c, q, l) of the [2, 32768, 128]
  array is entry (c * 32768 + q) * 128 + l of the flat one; conversely entry n of the flat array is entry
  (n / 4194304, (n / 128) mod 32768, n mod 128).
-/
import Idealize.ShloMosaic.PureOps
import Idealize.ShloMosaic.Lib.ValueIdx
import Idealize.ShloMosaic.Lib.Pipeline.Value
import proofs.«144705_j45681272160447_2_alg».proof.Proof.RefSpec

noncomputable section

namespace Cert.RefSpec

open Idealize.ShloMosaic Idealize.ShloMosaic.ValueIdx

variable {α : Type}

/-- The entries as 2 slabs of 32768 rows of 128 lanes. -/
abbrev S3 : Shape := ⟨3, ![2, 32768, 128]⟩

/-- The flat position of (c, q, l). -/
theorem flat_lt (c : Fin 2) (q : Fin 32768) (l : Fin 128) : (c.val * 32768 + q.val) * 128 + l.val < 8388608 := by
  omega

/-- The flat array viewed [2, 32768, 128]: entry (c, q, l) is flat entry (c * 32768 + q) * 128 + l. -/
theorem reshape_to3_apply (x : SN.Idx → α) (h : SN.ShapeCasts S3) (c : Fin 2) (q : Fin 32768) (l : Fin 128) :
    shapeCast S3 x h (ix3 c q l) = x (ix1 ⟨(c.val * 32768 + q.val) * 128 + l.val, flat_lt c q l⟩) :=
  shapeCast_apply x h _ _ (by
    rw [Shape.rowMajor_val_one, Shape.rowMajor_val_three]
    show (c.val * 32768 + q.val) * 128 + l.val = (c.val * 32768 + q.val) * 128 + l.val
    rfl)

/-- The [2, 32768, 128] array flattened: flat entry (c * 32768 + q) * 128 + l is entry (c, q, l). -/
theorem reshape_to1_apply (z : S3.Idx → α) (h' : S3.ShapeCasts SN) (c : Fin 2) (q : Fin 32768) (l : Fin 128) :
    shapeCast SN z h' (ix1 ⟨(c.val * 32768 + q.val) * 128 + l.val, flat_lt c q l⟩) = z (ix3 c q l) :=
  shapeCast_apply z h' _ _ (by
    rw [Shape.rowMajor_val_one, Shape.rowMajor_val_three]
    show (c.val * 32768 + q.val) * 128 + l.val = (c.val * 32768 + q.val) * 128 + l.val
    rfl)

/-- The same at any flat position n: entry (n / 4194304, (n / 128) mod 32768, n mod 128). -/
theorem reshape_to1_apply_divmod (z : S3.Idx → α) (h' : S3.ShapeCasts SN) (n : Fin 8388608) :
    shapeCast SN z h' (ix1 n)
      = z (ix3 (⟨n.val / 4194304, by omega⟩ : Fin 2) (⟨(n.val / 128) % 32768, by omega⟩ : Fin 32768)
          (⟨n.val % 128, by omega⟩ : Fin 128)) :=
  shapeCast_apply z h' _ _ (by
    rw [Shape.rowMajor_val_one, Shape.rowMajor_val_three]
    show (n.val / 4194304 * 32768 + (n.val / 128) % 32768) * 128 + n.val % 128 = n.val
    omega)

/-- So a [2, 32768, 128] array whose entry (c, q, l) is g at flat position (c * 32768 + q) * 128 + l
    flattens to g. -/
theorem reshape_to1_eq (z : S3.Idx → α) (h' : S3.ShapeCasts SN) (g : SN.Idx → α)
    (hz : ∀ (c : Fin 2) (q : Fin 32768) (l : Fin 128),
      z (ix3 c q l) = g (ix1 ⟨(c.val * 32768 + q.val) * 128 + l.val, flat_lt c q l⟩)) :
    shapeCast SN z h' = g := by
  funext j
  obtain ⟨n, rfl⟩ : ∃ n : Fin 8388608, j = ix1 n := ⟨j 0, eq_ix1 j⟩
  rw [reshape_to1_apply_divmod z h' n, hz]
  refine congrArg g (congrArg (ix1 (n := 8388608)) (Fin.ext ?_))
  show (n.val / 4194304 * 32768 + (n.val / 128) % 32768) * 128 + n.val % 128 = n.val
  omega

end Cert.RefSpec

end
-- ==== Proof.SumBlocks.lean ====
/-
  A sum over 8388608 consecutive positions regrouped by blocks.

  A position n below a * b is i * b + j for exactly one pair i < a, j < b, so a sum over the positions
  is the double sum over the pairs; in a commutative monoid no finiteness of the terms is needed.
  Applied three times: 8388608 = 65536 * 128, 65536 = 16 * 4096, 16 = 2 * 8, so a position is
  ((c * 8 + i) * 4096 + r) * 128 + l with c < 2, i < 8, r < 4096, l < 128.
-/
import Mathlib.Algebra.BigOperators.Fin
import Mathlib.Logic.Equiv.Fin.Basic
import Mathlib.Tactic.Ring
import Mathlib.Tactic.NormNum

namespace Cert.RefSpec

open scoped BigOperators

/-- The position of the pair (i, j) is inside the product range. -/
theorem pair_lt {a b i j : ℕ} (hi : i < a) (hj : j < b) : i * b + j < a * b :=
  calc i * b + j < i * b + b := by omega
    _ = (i + 1) * b := by ring
    _ ≤ a * b := Nat.mul_le_mul_right b hi

/-- A sum over the positions below N = a * b is the double sum over the pairs (i, j), at position i * b + j. -/
theorem sum_fin_split {M : Type*} [AddCommMonoid M] {N : ℕ} (a b : ℕ) (hN : N = a * b) (f : Fin N → M) :
    ∑ n, f n = ∑ i : Fin a, ∑ j : Fin b, f ⟨i.val * b + j.val, hN ▸ pair_lt i.isLt j.isLt⟩ := by
  subst hN
  rw [← (finProdFinEquiv (m := a) (n := b)).sum_comp, Fintype.sum_prod_type]
  refine Finset.sum_congr rfl fun i _ => Finset.sum_congr rfl fun j _ => congrArg f (Fin.ext ?_)
  show j.val + b * i.val = i.val * b + j.val
  ring

/-- The 8388608 positions as 2 × 8 × 4096 × 128 blocks. -/
theorem sum_blocks {M : Type*} [AddCommMonoid M] (f : Fin 8388608 → M) :
    ∑ n, f n = ∑ c : Fin 2, ∑ i : Fin 8, ∑ r : Fin 4096, ∑ l : Fin 128,
      f ⟨((c.val * 8 + i.val) * 4096 + r.val) * 128 + l.val, by omega⟩ := by
  have h1 := sum_fin_split 65536 128 (by norm_num) f
  have h2 := sum_fin_split 16 4096 (by norm_num)
    (fun q : Fin 65536 => ∑ l : Fin 128, f ⟨q.val * 128 + l.val, by omega⟩)
  have h3 := sum_fin_split 2 8 (by norm_num)
    (fun s : Fin 16 => ∑ r : Fin 4096, ∑ l : Fin 128, f ⟨(s.val * 4096 + r.val) * 128 + l.val, by omega⟩)
  exact h1.trans (h2.trans h3)

end Cert.RefSpec
-- ==== Proof.HostSums.lean ====
/-
  Host sums read as finite sums, and the label-0 total assembled from per-core partial totals.

  At the ideal instance the host's sum of a whole array (a reduction into a scalar) started from the zero
  word is the plain sum of the entries: the zero word denotes 0. For a one-axis array the entries are
  indexed by the coordinate; for a [2, 1, 1] array by its first coordinate. The 8388608 positions regroup
  as 2 x 8 x 4096 x 128 blocks, position ((c * 8 + i) * 4096 + r) * 128 + l. So if entry c of a
  [2, 1, 1] array is the sum of x over the positions with first block coordinate c, the host's sum of that
  array is the host's sum of x. Sums in a commutative monoid regroup freely: no finiteness is used.
-/
import proofs.«144705_j45681272160447_2_alg».proof.Proof.RefSpec
import proofs.«144705_j45681272160447_2_alg».proof.Proof.SumBlocks
import Idealize.ShloMosaic.Lib.IdealHost

noncomputable section

namespace Cert.RefSpec

open Idealize.ShloMosaic Idealize.ShloMosaic.ValueIdx

open scoped BigOperators

/-- One partial total per core: a [2, 1, 1] array. -/
abbrev SC : Shape := ⟨3, ![2, 1, 1]⟩

/-- An index of a one-axis array is its one coordinate. -/
def idxEquiv1 {n : Nat} : (⟨1, ![n]⟩ : Shape).Idx ≃ Fin n where
  toFun j := j 0
  invFun a := ix1 a
  left_inv j := (eq_ix1 j).symm
  right_inv _ := rfl

/-- A sum over the indices of a one-axis array is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- An index of an [n, 1, 1] array is (c, 0, 0). -/
theorem eq_ix3_col {n : Nat} (j : (⟨3, ![n, 1, 1]⟩ : Shape).Idx) : j = ix3 (j 0) (0 : Fin 1) (0 : Fin 1) := by
  funext d
  match d with
  | ⟨0, _⟩ => rfl
  | ⟨1, _⟩ => exact Subsingleton.elim (α := Fin 1) _ _
  | ⟨2, _⟩ => exact Subsingleton.elim (α := Fin 1) _ _

/-- An index of an [n, 1, 1] array is its first coordinate. -/
def idxEquivCol {n : Nat} : (⟨3, ![n, 1, 1]⟩ : Shape).Idx ≃ Fin n where
  toFun j := j 0
  invFun a := ix3 a (0 : Fin 1) (0 : Fin 1)
  left_inv j := (eq_ix3_col j).symm
  right_inv _ := rfl

/-- A sum over the indices of an [n, 1, 1] array is the sum over the first coordinate. -/
theorem sum_idxCol {M : Type*} [AddCommMonoid M] {n : Nat} (f : (⟨3, ![n, 1, 1]⟩ : Shape).Idx → M) :
    ∑ i, f i = ∑ a : Fin n, f (ix3 a (0 : Fin 1) (0 : Fin 1)) :=
  (Equiv.sum_comp (idxEquivCol (n := n)).symm f).symm

/-- The host's sum of all 8388608 entries from the zero word is the sum over the positions. -/
theorem reduceAdd_all_apply (hRN : SN.ReducesTo [0] S0) (h0 : 0 < S0.numel) (x : FVec Ideal SN .f32) (j : S0.Idx) :
    Host.reduceAdd (F := Ideal) x (constant (F := Ideal) S0 .f32 0x00000000#32) hRN h0 j
      = ∑ n : Fin 8388608, x (ix1 n) := by
  refine (hostReduceAdd_apply x _ hRN h0 j).trans ?_
  refine (Ideal.hostReduceAdd_total hRN (fun b => b.elim0) x _ j).trans ?_
  show Ideal.ofBits .f32 0x00000000#32 + _ = _
  rw [Ideal.ofBits_zero_f32, zero_add]
  exact sum_idx1 x

/-- The same total regrouped by blocks: position ((c * 8 + i) * 4096 + r) * 128 + l. -/
theorem reduceAdd_all_blocks (hRN : SN.ReducesTo [0] S0) (h0 : 0 < S0.numel) (x : FVec Ideal SN .f32) (j : S0.Idx) :
    Host.reduceAdd (F := Ideal) x (constant (F := Ideal) S0 .f32 0x00000000#32) hRN h0 j
      = ∑ c : Fin 2, ∑ i : Fin 8, ∑ r : Fin 4096, ∑ l : Fin 128,
          x (ix1 ⟨((c.val * 8 + i.val) * 4096 + r.val) * 128 + l.val, by omega⟩) :=
  (reduceAdd_all_apply hRN h0 x j).trans (sum_blocks fun n : Fin 8388608 => x (ix1 n))

/-- The host's sum of the two per-core entries from the zero word is their sum. -/
theorem reduceAdd_cores_apply (hR : SC.ReducesTo [0, 1, 2] S0) (h0 : 0 < S0.numel) (y : FVec Ideal SC .f32) (j : S0.Idx) :
    Host.reduceAdd (F := Ideal) y (constant (F := Ideal) S0 .f32 0x00000000#32) hR h0 j
      = ∑ c : Fin 2, y (ix3 c (0 : Fin 1) (0 : Fin 1)) := by
  refine (hostReduceAdd_apply y _ hR h0 j).trans ?_
  refine (Ideal.hostReduceAdd_total hR (fun b => b.elim0) y _ j).trans ?_
  show Ideal.ofBits .f32 0x00000000#32 + _ = _
  rw [Ideal.ofBits_zero_f32, zero_add]
  exact sum_idxCol y

/-- Per-core partial totals add up to the whole: if entry c of y is the sum of x over the positions of
    first block coordinate c, the host's sum of y is the host's sum of x. -/
theorem reduceAdd_cores_eq_all (hR : SC.ReducesTo [0, 1, 2] S0) (hRN : SN.ReducesTo [0] S0) (h0 : 0 < S0.numel)
    (x : FVec Ideal SN .f32) (y : FVec Ideal SC .f32)
    (hy : ∀ c : Fin 2, y (ix3 c (0 : Fin 1) (0 : Fin 1))
      = ∑ i : Fin 8, ∑ r : Fin 4096, ∑ l : Fin 128,
          x (ix1 ⟨((c.val * 8 + i.val) * 4096 + r.val) * 128 + l.val, by omega⟩)) :
    Host.reduceAdd (F := Ideal) y (constant (F := Ideal) S0 .f32 0x00000000#32) hR h0
      = Host.reduceAdd (F := Ideal) x (constant (F := Ideal) S0 .f32 0x00000000#32) hRN h0 := by
  funext j
  rw [reduceAdd_cores_apply hR h0 y j, reduceAdd_all_blocks hRN h0 x j]
  exact Finset.sum_congr rfl fun c _ => hy c

end Cert.RefSpec

end
-- ==== Proof.KerIdealValue.lean ====
/-
  What the two output arrays of the launch end holding, over the extended reals, as functions of the argument arrays.
  An instance n = ((c·8 + i)·4096 + r)·128 + l sits in block i of core c, at row r and lane l of the block, so:
  the big output array is, in the [2, 32768, 128] layout, the products (label = 1) · log(1 − p + ε); and entry c of the
  per-core sums is the sum over the core's eight blocks, each over its 4096 rows and 128 lanes, of
  (label = 0) · log(1 − p + ε) — the accumulator after block i of a core being the sum over blocks 0 … i, by induction
  along the core's blocks.
-/
import proofs.«144705_j45681272160447_2_alg».proof.Proof.KerIdealAt
import proofs.«144705_j45681272160447_2_alg».proof.Proof.KerPay
import proofs.«144705_j45681272160447_2_alg».proof.Proof.Reshapes
import proofs.«144705_j45681272160447_2_alg».proof.Proof.HostSums
import Idealize.ShloMosaic.Lib.Pipeline.Value

set_option maxRecDepth 16384

noncomputable section

namespace Cert.KernelIdeal.Val

open Cert.KernelIdeal Cert.KernelIdeal.Gen Cert.KernelIdeal.Fr Cert.KernelIdeal.Pay Cert.RefSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The probabilities and the labels, as the program is given them. -/
abbrev pArr (c : Dev nD) : FVec Ideal SN .f32 := m ((c : Thread nD τ).loc main_arg0)
abbrev lArr (c : Dev nD) : IVec SN 32 := m ((c : Thread nD τ).loc main_arg1)

/-- (label = 1) · log(1 − p + ε) and (label = 0) · log(1 − p + ε), instance by instance. -/
abbrev posTerm (c : Dev nD) : FVec Ideal SN .f32 := mulf (F := Ideal) (posMask bcast_S_S8388608 (lArr m c)) (logNot bcast_S_S8388608 (pArr m c))
abbrev negTerm (c : Dev nD) : FVec Ideal SN .f32 := mulf (F := Ideal) (negMask bcast_S_S8388608 (lArr m c)) (logNot bcast_S_S8388608 (pArr m c))

theorem hN16 (t : Fin cfg0.N) : t.val < 16 := lt_of_lt_of_eq t.isLt (show cfg0.N = 16 from N_0)

/-- The instance at row `r`, lane `l` of the block of grid point `t`. -/
def flat (t : Fin cfg0.N) (r : Fin 4096) (l : Fin 128) : SN.Idx :=
  ix1 (⟨(t.val * 4096 + r.val) * 128 + l.val, by have := hN16 t; omega⟩ : Fin 8388608)

/-- Where row `r`, lane `l` of point `t`'s block sits in a [2, 32768, 128] array. -/
def pos3 (t : Fin cfg0.N) (r : Fin 4096) (l : Fin 128) : S2x32768x128.Idx :=
  ix3 (⟨t.val / 8, by have := hN16 t; omega⟩ : Fin 2) (⟨t.val % 8 * 4096 + r.val, by omega⟩ : Fin 32768) l

theorem emb0 (t : Fin cfg0.N) (r : Fin 4096) (l : Fin 128) :
    ((cfg0.win 0).blk t).view.emb (ix3 (0 : Fin 1) r l) = pos3 t r l := by
  obtain ⟨e0, e1, e2, -⟩ := idx_facts t
  funext a; apply Fin.ext
  match a with
  | ⟨0, _⟩ => show win0_0.index t (0 : Fin 3) * 1 + 1 * 0 = t.val / 8; omega
  | ⟨1, _⟩ => show win0_0.index t (1 : Fin 3) * 4096 + 1 * r.val = t.val % 8 * 4096 + r.val; omega
  | ⟨2, _⟩ => show win0_0.index t (2 : Fin 3) * 128 + 1 * l.val = l.val; omega

theorem emb1 (t : Fin cfg0.N) (r : Fin 4096) (l : Fin 128) :
    ((cfg0.win 1).blk t).view.emb (ix3 (0 : Fin 1) r l) = pos3 t r l := by
  obtain ⟨-, -, -, e0, e1, e2, -⟩ := idx_facts t
  funext a; apply Fin.ext
  match a with
  | ⟨0, _⟩ => show win0_1.index t (0 : Fin 3) * 1 + 1 * 0 = t.val / 8; omega
  | ⟨1, _⟩ => show win0_1.index t (1 : Fin 3) * 4096 + 1 * r.val = t.val % 8 * 4096 + r.val; omega
  | ⟨2, _⟩ => show win0_1.index t (2 : Fin 3) * 128 + 1 * l.val = l.val; omega

theorem emb2 (t : Fin cfg0.N) (r : Fin 4096) (l : Fin 128) :
    ((cfg0.win 2).blk t).view.emb (ix3 (0 : Fin 1) r l) = pos3 t r l := by
  obtain ⟨-, -, -, -, -, -, e0, e1, e2, -⟩ := idx_facts t
  funext a; apply Fin.ext
  match a with
  | ⟨0, _⟩ => show win0_2.index t (0 : Fin 3) * 1 + 1 * 0 = t.val / 8; omega
  | ⟨1, _⟩ => show win0_2.index t (1 : Fin 3) * 4096 + 1 * r.val = t.val % 8 * 4096 + r.val; omega
  | ⟨2, _⟩ => show win0_2.index t (2 : Fin 3) * 128 + 1 * l.val = l.val; omega

/-- The [2, 32768, 128] layout of an instance array, read where a block's entry sits, is the array at the instance. -/
theorem layout_at {α : Type} (x : SN.Idx → α) (h : SN.ShapeCasts S3) (t : Fin cfg0.N) (r : Fin 4096) (l : Fin 128) :
    shapeCast S3 x h (pos3 t r l) = x (flat t r l) := by
  unfold pos3 flat
  rw [reshape_to3_apply]
  congr 2
  apply Fin.ext
  have := hN16 t
  show (t.val / 8 * 32768 + (t.val % 8 * 4096 + r.val)) * 128 + l.val = (t.val * 4096 + r.val) * 128 + l.val
  omega

/-- The first input block at a point: the probabilities of the block's instances. -/
theorem iblk0_apply (c : Dev nD) (t : Fin cfg0.N) (r : Fin 4096) (l : Fin 128) :
    iblk m c 0 t (ix3 (0 : Fin 1) r l) = pArr m c (flat t r l) := by
  unfold iblk
  rw [View.read_apply]
  show V m c main_v0 (((cfg0.win 0).blk t).view.emb (ix3 (0 : Fin 1) r l)) = _
  rw [V_v0, emb0]
  exact layout_at _ _ t r l

/-- The second input block: their labels. -/
theorem iblk1_apply (c : Dev nD) (t : Fin cfg0.N) (r : Fin 4096) (l : Fin 128) :
    iblk m c 1 t (ix3 (0 : Fin 1) r l) = lArr m c (flat t r l) := by
  unfold iblk
  rw [View.read_apply]
  show V m c main_v1 (((cfg0.win 1).blk t).view.emb (ix3 (0 : Fin 1) r l)) = _
  rw [V_v1, emb1]
  exact layout_at _ _ t r l

/-! ## The big output array -/

/-- The products (label = 1) · log(1 − p + ε) in the [2, 32768, 128] layout. -/
def G2 (c : Dev nD) : Buf (Elt Ideal) ((c : Thread nD τ).loc main_v2_0) :=
  shapeCast S2x32768x128 (posTerm m c) shapeCasts_S8388608_S2x32768x128

/-- What point `t` writes back is block `t` of it. -/
theorem flushed2_eq (c : Dev nD) (t : Fin cfg0.N) :
    (dats m 0 c).flushed 2 t = ((cfg0.win 2).blk t).view.read (Elt Ideal) (G2 m c) := by
  show (cfg0.win 2).cut (grid0.coords t) ((dats m 0 c).after 2 t) = _
  rw [after2, outsAt_out2]
  funext y
  obtain ⟨r, l, rfl⟩ := exists_ix3_block y
  show k0_pay5 (F := Ideal) (iblk m c 0 t) (iblk m c 1 t) (ix3 (0 : Fin 1) r l) = G2 m c (((cfg0.win 2).blk t).view.emb (ix3 (0 : Fin 1) r l))
  rw [pay5_apply bcast_S_S8388608 _ _ r l (pArr m c) (lArr m c) (flat t r l) (iblk0_apply m c t r l).symm (iblk1_apply m c t r l).symm, emb2]
  exact (layout_at _ _ t r l).symm

theorem mem_blk2 (t : Fin cfg0.N) (i : S2x32768x128.Idx) :
    i ∈ ((cfg0.win 2).blk t).view.set ↔ ∀ a : Fin 3, win0_2.index t a * S1x4096x128.size a ≤ (i a).val ∧ (i a).val < win0_2.index t a * S1x4096x128.size a + S1x4096x128.size a := by
  show i ∈ ((View.whole main_v2_0).slice (win0_2.rect t)).set ↔ _
  rw [View.set_slice_whole, Rect.mem_set_unit]
  exact Iff.rfl

/-- Every entry of the array is in the block of some point (block (i₁ / 4096) of core i₀). -/
theorem cover2 (i : S2x32768x128.Idx) : ∃ t : Fin cfg0.N, (cfg0.win 2).flush t = true ∧ i ∈ ((cfg0.win 2).blk t).view.set := by
  have h0 : (i 0).val < 2 := (i 0).isLt
  have h1 : (i 1).val < 32768 := (i 1).isLt
  have h2 : (i 2).val < 128 := (i 2).isLt
  let t : Fin cfg0.N := ⟨(i 0).val * 8 + (i 1).val / 4096, by rw [show cfg0.N = 16 from N_0]; omega⟩
  refine ⟨t, flush0_2 t, ?_⟩
  obtain ⟨-, -, -, -, -, -, e0, e1, e2, -⟩ := idx_facts t
  have ht : t.val = (i 0).val * 8 + (i 1).val / 4096 := rfl
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 128 ≤ (i 2).val ∧ (i 2).val < win0_2.index t (2 : Fin 3) * 128 + 128; omega

/-- So the big output array ends holding the products. -/
theorem final2 (c : Dev nD) : (dats m 0 c).arrAt 2 cfg0.N = G2 m c :=
  (dats m 0 c).arrAt_eq_of_cover 2 (G2 m c) (fun t _ => flushed2_eq m c t) cover2

end Cert.KernelIdeal.Val

end
-- ==== Proof.KerIdealSums.lean ====
/-
  The per-core sums. After block i of a core the accumulator holds the sum, over the core's blocks 0 … i, of each block's
  negative-instance terms (label = 0) · log(1 − p + ε) over its 4096 rows and 128 lanes: at a first block the reset
  accumulator (zero) plus the block's sum, afterwards what the block before left plus the block's sum — an induction
  along the core's blocks. The last block writes that value into entry c of the per-core sums, which therefore ends
  holding, for each core, the sum over the core's eight blocks.
-/
import proofs.«144705_j45681272160447_2_alg».proof.Proof.KerIdealValue

set_option maxRecDepth 16384

noncomputable section

namespace Cert.KernelIdeal.Val

open Cert.KernelIdeal Cert.KernelIdeal.Gen Cert.KernelIdeal.Fr Cert.KernelIdeal.Pay Cert.RefSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The negative-instance terms of the block of point `t`, summed over its rows and lanes. -/
def blockSum (c : Dev nD) (t : Fin cfg0.N) : EReal := ∑ r : Fin 4096, ∑ l : Fin 128, negTerm m c (flat t r l)

/-- The same by position, zero past the grid. -/
def bs (c : Dev nD) (n : ℕ) : EReal := if h : n < cfg0.N then blockSum m c ⟨n, h⟩ else 0

theorem bs_of_lt (c : Dev nD) (n : ℕ) (h : n < cfg0.N) : bs m c n = blockSum m c ⟨n, h⟩ := dif_pos h

/-- At a first block the accumulator ends at the block's sum. -/
theorem acc_first (c : Dev nD) (t : Fin cfg0.N) (h0 : t.val % 8 = 0) :
    (outsAt m c t.val t.isLt).2.2 (ix2 (0 : Fin 1) (0 : Fin 1)) = blockSum m c t := by
  rw [outsAt_acc_first m c t h0]
  rw [pay6_apply bcast_S_S8388608 (iblk m c 0 t) (iblk m c 1 t) (k0_pay2 (F := Ideal)) (pArr m c) (lArr m c) (flat t)
    (fun r l => (iblk0_apply m c t r l).symm) (fun r l => (iblk1_apply m c t r l).symm), pay2_apply, zero_add]
  rfl

/-- At a later block: what the block before left, plus the block's sum. -/
theorem acc_next (c : Dev nD) (t : Fin cfg0.N) (h0 : ¬t.val % 8 = 0) :
    (outsAt m c t.val t.isLt).2.2 (ix2 (0 : Fin 1) (0 : Fin 1))
      = (outsAt m c (t.val - 1) (Nat.lt_of_le_of_lt (Nat.sub_le _ _) t.isLt)).2.2 (ix2 (0 : Fin 1) (0 : Fin 1)) + blockSum m c t := by
  rw [outsAt_acc_next m c t h0]
  rw [pay6_apply bcast_S_S8388608 (iblk m c 0 t) (iblk m c 1 t) _ (pArr m c) (lArr m c) (flat t)
    (fun r l => (iblk0_apply m c t r l).symm) (fun r l => (iblk1_apply m c t r l).symm)]
  rfl

/-- After position `n` the accumulator is the sum over the core's blocks up to it. -/
theorem acc_closed (c : Dev nD) : ∀ (n : ℕ) (hn : n < cfg0.N),
    (outsAt m c n hn).2.2 (ix2 (0 : Fin 1) (0 : Fin 1)) = ∑ i ∈ Finset.range (n % 8 + 1), bs m c (n / 8 * 8 + i)
  | 0, hn => by
    refine (acc_first m c ⟨0, hn⟩ rfl).trans ?_
    rw [Finset.sum_range_one]
    exact (bs_of_lt m c 0 hn).symm
  | n + 1, hn => by
    by_cases h0 : (n + 1) % 8 = 0
    · refine (acc_first m c ⟨n + 1, hn⟩ h0).trans ?_
      have e : (n + 1) / 8 * 8 + 0 = n + 1 := by omega
      rw [h0, Finset.sum_range_one, e]
      exact (bs_of_lt m c (n + 1) hn).symm
    · refine (acc_next m c ⟨n + 1, hn⟩ h0).trans ?_
      refine (congrArg (· + blockSum m c ⟨n + 1, hn⟩) (acc_closed c n (Nat.lt_of_succ_lt hn))).trans ?_
      have e1 : (n + 1) % 8 = n % 8 + 1 := by omega
      have e2 : (n + 1) / 8 = n / 8 := by omega
      have e3 : n / 8 * 8 + (n % 8 + 1) = n + 1 := by omega
      rw [e1, e2, Finset.sum_range_succ _ (n % 8 + 1), e3, bs_of_lt m c (n + 1) hn]

/-- A core's sum: over its eight blocks, their rows and lanes. -/
def coreSum (c : Dev nD) (k : Fin 2) : EReal :=
  ∑ i : Fin 8, ∑ r : Fin 4096, ∑ l : Fin 128,
    negTerm m c (ix1 (⟨((k.val * 8 + i.val) * 4096 + r.val) * 128 + l.val, by omega⟩ : Fin 8388608))

/-- The per-core sums as an array. -/
def G3 (c : Dev nD) : Buf (Elt Ideal) ((c : Thread nD τ).loc main_v2_1) :=
  fun j => coreSum m c ⟨(j 0).val, (j 0).isLt⟩

theorem emb3 (t : Fin cfg0.N) :
    ((cfg0.win 3).blk t).view.emb (ix3 (0 : Fin 1) (0 : Fin 1) (0 : Fin 1)) = ix3 (⟨t.val / 8, by have := hN16 t; omega⟩ : Fin 2) (0 : Fin 1) (0 : Fin 1) := by
  obtain ⟨-, -, -, -, -, -, -, -, -, e0, e1, e2⟩ := idx_facts t
  funext a; apply Fin.ext
  match a with
  | ⟨0, _⟩ => show win0_3.index t (0 : Fin 3) * 1 + 1 * 0 = t.val / 8; omega
  | ⟨1, _⟩ => show win0_3.index t (1 : Fin 3) * 1 + 1 * 0 = 0; omega
  | ⟨2, _⟩ => show win0_3.index t (2 : Fin 3) * 1 + 1 * 0 = 0; omega

/-- The last block of a core has accumulated the core's sum. -/
theorem acc_last (c : Dev nD) (t : Fin cfg0.N) (h7 : t.val % 8 = 7) :
    (outsAt m c t.val t.isLt).2.2 (ix2 (0 : Fin 1) (0 : Fin 1)) = coreSum m c ⟨t.val / 8, by have := hN16 t; omega⟩ := by
  have hN := hN16 t
  rw [acc_closed m c t.val t.isLt, h7, Finset.sum_range]
  unfold coreSum
  refine Finset.sum_congr rfl fun i _ => ?_
  have hi : i.val < 8 := i.isLt
  rw [bs_of_lt m c _ (by have hNN : cfg0.N = 16 := N_0; omega)]
  rfl

/-- What a core's last point writes back is the core's entry of the per-core sums. -/
theorem flushed3_eq (c : Dev nD) (t : Fin cfg0.N) (hf : (cfg0.win 3).flush t = true) :
    (dats m 0 c).flushed 3 t = ((cfg0.win 3).blk t).view.read (Elt Ideal) (G3 m c) := by
  have h7 : t.val % 8 = 7 := (flush0_3 t).mp hf
  show (cfg0.win 3).cut (grid0.coords t) ((dats m 0 c).after 3 t) = _
  rw [after3, outsAt_out3 m c t h7]
  funext y
  obtain rfl : y = ix3 (0 : Fin 1) (0 : Fin 1) (0 : Fin 1) := eq_ix3_unit y
  show k0_pay1 (F := Ideal) ((outsAt m c t.val t.isLt).2.2) (ix3 (0 : Fin 1) (0 : Fin 1) (0 : Fin 1)) = G3 m c (((cfg0.win 3).blk t).view.emb (ix3 (0 : Fin 1) (0 : Fin 1) (0 : Fin 1)))
  rw [pay1_apply, acc_last m c t h7, emb3]
  rfl

theorem mem_blk3 (t : Fin cfg0.N) (i : S2x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v2_1).slice (win0_3.rect t)).set ↔ _
  rw [View.set_slice_whole, Rect.mem_set_unit]
  exact Iff.rfl

/-- Each entry is written by its core's last point. -/
theorem cover3 (i : S2x1x1.Idx) : ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 1 := (i 2).isLt
  let t : Fin cfg0.N := ⟨(i 0).val * 8 + 7, by rw [show cfg0.N = 16 from N_0]; omega⟩
  have ht : t.val = (i 0).val * 8 + 7 := rfl
  refine ⟨t, (flush0_3 t).mpr (by omega), ?_⟩
  obtain ⟨-, -, -, -, -, -, -, -, -, e0, e1, e2⟩ := idx_facts t
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 1 ≤ (i 2).val ∧ (i 2).val < win0_3.index t (2 : Fin 3) * 1 + 1; omega

/-- So the per-core sums end holding each core's sum. -/
theorem final3 (c : Dev nD) : (dats m 0 c).arrAt 3 cfg0.N = G3 m c :=
  (dats m 0 c).arrAt_eq_of_cover 3 (G3 m c) (flushed3_eq m c) cover3

/-- Entry `k` of them. -/
theorem G3_apply (c : Dev nD) (k : Fin 2) : G3 m c (ix3 k (0 : Fin 1) (0 : Fin 1)) = coreSum m c k := rfl

end Cert.KernelIdeal.Val

end
-- ==== Proof.KerIdealTailTerm.lean ====
/-
  The host operations after the launch, read as one term of the buffers' contents when they begin: three scatter-adds
  into the 65536 bags by bag id — of 1 − label, of label, and of the flattened big output array —, the sum of the per-core
  sums, and then the common ending: the bag counts compared with zero and counted, the two normalised losses, their sum.
-/
import proofs.«144705_j45681272160447_2_alg».proof.Proof.KerIdealFrame
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.StableHlo

/-- The common ending over the kernel's own shapes: from the two per-bag counts, the per-bag sums and the total, the two
    normalised losses added. -/
def kerFinish (negcnt poscnt posseg : FVec F S65536 .f32) (negsum : FVec F S_ .f32) : FVec F S_ .f32 :=
  addf (F := F)
    (select
      (cmpf (F := F) .ogt
        (Host.reduceAdd (F := F)
          (uitofp (F := F) .f32
            (cmpf (F := F) .ogt negcnt (broadcastInDim S65536 ![] bcast_S_S65536 (constant (F := F) S_ .f32 0x00000000#32))))
          (constant (F := F) S_ .f32 0x00000000#32) reducesTo_S65536_S_d0 h_S_)
        (constant (F := F) S_ .f32 0x00000000#32))
      (Host.divf (F := F)
        (Host.negf (F := F) (mulf (F := F) (constant (F := F) S_ .f32 0x3F800000#32) negsum))
        (maximumf (F := F)
          (Host.reduceAdd (F := F)
            (uitofp (F := F) .f32
              (cmpf (F := F) .ogt negcnt (broadcastInDim S65536 ![] bcast_S_S65536 (constant (F := F) S_ .f32 0x00000000#32))))
            (constant (F := F) S_ .f32 0x00000000#32) reducesTo_S65536_S_d0 h_S_)
          (constant (F := F) S_ .f32 0x3F800000#32)))
      (id (constant (F := F) S_ .f32 0x00000000#32)))
    (select
      (cmpf (F := F) .ogt
        (Host.reduceAdd (F := F)
          (uitofp (F := F) .f32
            (cmpf (F := F) .ogt poscnt (broadcastInDim S65536 ![] bcast_S_S65536 (constant (F := F) S_ .f32 0x00000000#32))))
          (constant (F := F) S_ .f32 0x00000000#32) reducesTo_S65536_S_d0 h_S_)
        (constant (F := F) S_ .f32 0x00000000#32))
      (Host.divf (F := F)
        (Host.negf (F := F) (mulf (F := F) (constant (F := F) S_ .f32 0x3F800000#32)
          (Host.reduceAdd (F := F)
            (select
              (cmpf (F := F) .ogt poscnt (broadcastInDim S65536 ![] bcast_S_S65536 (constant (F := F) S_ .f32 0x00000000#32)))
              (Host.log (F := F)
                (addf (F := F)
                  (subf (F := F) (broadcastInDim S65536 ![] bcast_S_S65536 (constant (F := F) S_ .f32 0x3F800000#32))
                    (minimumf (F := F) (Host.exp (F := F) posseg)
                      (broadcastInDim S65536 ![] bcast_S_S65536 (constant (F := F) S_ .f32 0x3F800000#32))))
                  (broadcastInDim S65536 ![] bcast_S_S65536 (constant (F := F) S_ .f32 0x33D6BF95#32))))
              (broadcastInDim S65536 ![] bcast_S_S65536 (id (constant (F := F) S_ .f32 0x00000000#32))))
            (constant (F := F) S_ .f32 0x00000000#32) reducesTo_S65536_S_d0 h_S_)))
        (maximumf (F := F)
          (Host.reduceAdd (F := F)
            (uitofp (F := F) .f32
              (cmpf (F := F) .ogt poscnt (broadcastInDim S65536 ![] bcast_S_S65536 (constant (F := F) S_ .f32 0x00000000#32))))
            (constant (F := F) S_ .f32 0x00000000#32) reducesTo_S65536_S_d0 h_S_)
          (constant (F := F) S_ .f32 0x3F800000#32)))
      (id (constant (F := F) S_ .f32 0x00000000#32)))

/-- The result of the later operations from contents `W`. -/
def kerRes (W : Valuation τ sig (Elt F)) : FVec F S_ .f32 :=
  kerFinish
    (Host.scatterAdd (F := F) scatter_S65536_S8388608x1_S8388608_n_0_0_1 (broadcastInDim S65536 ![] bcast_S_S65536 (constant (F := F) S_ .f32 0x00000000#32)) (broadcastInDim S8388608x1 ![0] bcast_S8388608_S8388608x1_0 (W (Proc.devRef .tc main_arg2)))
      (subf (F := F) (broadcastInDim S8388608 ![] bcast_S_S8388608 (constant (F := F) S_ .f32 0x3F800000#32)) (sitofp (F := F) .f32 (W (Proc.devRef .tc main_arg1)))))
    (Host.scatterAdd (F := F) scatter_S65536_S8388608x1_S8388608_n_0_0_1 (broadcastInDim S65536 ![] bcast_S_S65536 (constant (F := F) S_ .f32 0x00000000#32)) (broadcastInDim S8388608x1 ![0] bcast_S8388608_S8388608x1_0 (W (Proc.devRef .tc main_arg2)))
      (sitofp (F := F) .f32 (W (Proc.devRef .tc main_arg1))))
    (Host.scatterAdd (F := F) scatter_S65536_S8388608x1_S8388608_n_0_0_1 (broadcastInDim S65536 ![] bcast_S_S65536 (constant (F := F) S_ .f32 0x00000000#32)) (broadcastInDim S8388608x1 ![0] bcast_S8388608_S8388608x1_0 (W (Proc.devRef .tc main_arg2)))
      (fun i => shapeCast main_v3.ty.shape (W (Proc.devRef .tc main_v2_0)) shapeCasts_S2x32768x128_S8388608 i))
    (Host.reduceAdd (F := F) (W (Proc.devRef .tc main_v2_1)) (constant (F := F) S_ .f32 0x00000000#32) reducesTo_S2x1x1_S_d0_1_2 h_S_)

set_option maxRecDepth 8192 in
set_option maxHeartbeats 33200000 in
/-- The later host operations, run from any contents `W`, end with the result at that term. -/
theorem tail_term (W : Valuation τ sig (Elt F)) :
    StableHlo.after (List.flatten (tailOps (F := F))) W (Proc.devRef .tc main_v47) = kerRes W := by
  simp only [tailOps, hostOps1, hostOps1_1, hostOps1_2, hostOps1_3, hostOps1_4, hostOps1_5, hostOps1_6, List.flatten_cons, List.flatten_nil, List.append_nil, List.cons_append, List.nil_append]
  after_results_simp <;> rfl <;> (unfold kerRes kerFinish; rfl)

end Cert.KernelIdeal.Fr

end
-- ==== Proof.KerIsSpec.lean ====
/-
  The kernel's composed term is the specification, for labels that are 0 or 1.

  The kernel hands the common tail four operands. Its two counts are scatter-adds of 1 - (the label
  converted signed) and of the label converted signed, which for labels in {0, 1} are the indicators of
  label 0 and of label 1. Its per-bag sums are the scatter-add of the per-entry products [label = 1] *
  log (1 - p + eps), which it keeps as a [2, 32768, 128] array and flattens again: a reshape there and
  back is the identity. Its label-0 total is the host's sum of two per-core partial totals, each the sum of
  [label = 0] * log (1 - p + eps) over that core's half of the positions, which is the host's sum over all
  positions. With the four operands equal to the specification's, the results are equal.
-/
import proofs.«144705_j45681272160447_2_alg».proof.Proof.RefSpec
import proofs.«144705_j45681272160447_2_alg».proof.Proof.LabelCodes
import proofs.«144705_j45681272160447_2_alg».proof.Proof.HostSums
import proofs.«144705_j45681272160447_2_alg».proof.Proof.Reshapes
import Idealize.ShloMosaic.Lib.Pipeline.Value

noncomputable section

namespace Cert.RefSpec

open Idealize.ShloMosaic Idealize.ShloMosaic.ValueIdx

open scoped BigOperators

/-- The common tail applied to the kernel's four operands is the specification of the inputs. -/
theorem ker_is_spec (hB0B : S0.BroadcastsInDim SB (![] : Fin 0 → Fin SB.rank))
    (hB0N : S0.BroadcastsInDim SN (![] : Fin 0 → Fin SN.rank))
    (hBN1 : SN.BroadcastsInDim SNx1 (![0] : Fin 1 → Fin SNx1.rank))
    (hRB : SB.ReducesTo [0] S0) (hRN : SN.ReducesTo [0] S0) (h0 : 0 < S0.numel)
    (sd : ScatterDims SB SNx1 SN)
    (h3 : SN.ShapeCasts S3) (h3' : S3.ShapeCasts SN) (hR3 : SC.ReducesTo [0, 1, 2] S0)
    (p : FVec Ideal SN .f32) (lbl bag : IVec SN 32) (A2 : FVec Ideal S3 .f32) (A3 : FVec Ideal SC .f32)
    (hlbl : ∀ i, lbl i = 0#32 ∨ lbl i = 1#32)
    (hA2 : A2 = shapeCast S3 (mulf (F := Ideal) (posMask hB0N lbl) (logNot hB0N p)) h3)
    (hA3 : ∀ c : Fin 2, A3 (ix3 c (0 : Fin 1) (0 : Fin 1))
      = ∑ i : Fin 8, ∑ r : Fin 4096, ∑ l : Fin 128,
          (mulf (F := Ideal) (negMask hB0N lbl) (logNot hB0N p))
            (ix1 ⟨((c.val * 8 + i.val) * 4096 + r.val) * 128 + l.val, by omega⟩)) :
    finish hB0B hRB h0
      (Host.scatterAdd (F := Ideal) sd
        (broadcastInDim SB ![] hB0B (constant (F := Ideal) S0 .f32 0x00000000#32))
        (broadcastInDim SNx1 ![0] hBN1 bag)
        (subf (F := Ideal) (broadcastInDim SN ![] hB0N (constant (F := Ideal) S0 .f32 0x3F800000#32))
          (sitofp (F := Ideal) .f32 lbl)))
      (Host.scatterAdd (F := Ideal) sd
        (broadcastInDim SB ![] hB0B (constant (F := Ideal) S0 .f32 0x00000000#32))
        (broadcastInDim SNx1 ![0] hBN1 bag)
        (sitofp (F := Ideal) .f32 lbl))
      (Host.scatterAdd (F := Ideal) sd
        (broadcastInDim SB ![] hB0B (constant (F := Ideal) S0 .f32 0x00000000#32))
        (broadcastInDim SNx1 ![0] hBN1 bag)
        (fun i => shapeCast SN A2 h3' i))
      (Host.reduceAdd (F := Ideal) A3 (constant (F := Ideal) S0 .f32 0x00000000#32) hR3 h0)
    = spec hB0B hB0N hBN1 hRB hRN h0 sd p lbl bag := by
  subst hA2
  have e1 := one_sub_sitofp_eq_negMask hB0N lbl hlbl
  have e2 := sitofp_eq_posMask hB0N lbl hlbl
  have e3 : (fun i => shapeCast SN (shapeCast S3 (mulf (F := Ideal) (posMask hB0N lbl) (logNot hB0N p)) h3) h3' i)
      = mulf (F := Ideal) (posMask hB0N lbl) (logNot hB0N p) := shapeCast_shapeCast _ h3 h3'
  have e4 := reduceAdd_cores_eq_all hR3 hRN h0 (mulf (F := Ideal) (negMask hB0N lbl) (logNot hB0N p)) A3 hA3
  unfold spec
  rw [e1, e2, e3, e4]

end Cert.RefSpec

end
-- ==== Proof.KerIdealTail.lean ====
/-
  The host operations after the launch, read as one term: from the big output array, the per-core sums and the labels
  and bag ids, three scatter-adds into the 65536 bags (the bag counts from 1 − label and label themselves, the per-bag
  sums from the flattened output array), the sum of the per-core sums, and then the common ending (counts compared with
  zero, the two normalised losses, their sum). With the two arrays at their closed forms and every label 0 or 1 that
  term is the specification of the arguments; so the idealized kernel runs to its end with its result there.
-/
import proofs.«144705_j45681272160447_2_alg».proof.Proof.KerIdealSums
import proofs.«144705_j45681272160447_2_alg».proof.Proof.KerIdealTailTerm
import proofs.«144705_j45681272160447_2_alg».proof.Proof.KerIsSpec
import Idealize.ShloMosaic.Lib.StableHlo.Run

set_option maxRecDepth 16384

noncomputable section

namespace Cert.KernelIdeal.Val

open Cert.KernelIdeal Cert.KernelIdeal.Gen Cert.KernelIdeal.Fr Cert.KernelIdeal.Pay Cert.RefSpec
open Idealize.ShloMosaic Idealize.ShloMosaic.TcCoe Idealize.ShloMosaic.ValueIdx Idealize.SL.Sem
open Idealize.ShloMosaic.StableHlo
open Idealize.ShloMosaic.Pipeline (Dat)

variable (m : (ℓ : Loc nD τ sig) → Buf (Elt Ideal) ℓ) (ρ : Dev nD → PrngReg)

set_option maxRecDepth 65536 in
/-- It is the specification's ending. -/
theorem kerFinish_eq (negcnt poscnt posseg : FVec Ideal S65536 .f32) (negsum : FVec Ideal S_ .f32) :
    kerFinish (F := Ideal) negcnt poscnt posseg negsum = finish bcast_S_S65536 reducesTo_S65536_S_d0 h_S_ negcnt poscnt posseg negsum := by
  unfold Cert.KernelIdeal.Fr.kerFinish finish
  rfl

/-- The flat instance array sums to a scalar. -/
theorem reducesTo_S8388608_S_d0 : S8388608.ReducesTo [0] S_ := by decide

/-- The result after the later host operations, as the common ending of the four quantities. -/
theorem tail_eq (c : Dev nD) :
    Pipeline.afterTail₀ cfgs (dats m) 0 (V0 m) tailOps c main_v47
      = kerFinish (F := Ideal)
          (Host.scatterAdd (F := Ideal) scatter_S65536_S8388608x1_S8388608_n_0_0_1 (broadcastInDim S65536 ![] bcast_S_S65536 (constant (F := Ideal) S_ .f32 0x00000000#32)) (broadcastInDim S8388608x1 ![0] bcast_S8388608_S8388608x1_0 (m ((c : Thread nD τ).loc main_arg2)))
            (subf (F := Ideal) (broadcastInDim S8388608 ![] bcast_S_S8388608 (constant (F := Ideal) S_ .f32 0x3F800000#32)) (sitofp (F := Ideal) .f32 (m ((c : Thread nD τ).loc main_arg1)))))
          (Host.scatterAdd (F := Ideal) scatter_S65536_S8388608x1_S8388608_n_0_0_1 (broadcastInDim S65536 ![] bcast_S_S65536 (constant (F := Ideal) S_ .f32 0x00000000#32)) (broadcastInDim S8388608x1 ![0] bcast_S8388608_S8388608x1_0 (m ((c : Thread nD τ).loc main_arg2)))
            (sitofp (F := Ideal) .f32 (m ((c : Thread nD τ).loc main_arg1))))
          (Host.scatterAdd (F := Ideal) scatter_S65536_S8388608x1_S8388608_n_0_0_1 (broadcastInDim S65536 ![] bcast_S_S65536 (constant (F := Ideal) S_ .f32 0x00000000#32)) (broadcastInDim S8388608x1 ![0] bcast_S8388608_S8388608x1_0 (m ((c : Thread nD τ).loc main_arg2)))
            (fun i => shapeCast main_v3.ty.shape ((dats m 0 c).arrAt 2 cfg0.N) shapeCasts_S2x32768x128_S8388608 i))
          (Host.reduceAdd (F := Ideal) ((dats m 0 c).arrAt 3 cfg0.N) (constant (F := Ideal) S_ .f32 0x00000000#32) reducesTo_S2x1x1_S_d0_1_2 h_S_) := by
  have e1 : Pipeline.withArrays (cfgs 0).spec c (V0 m c) (fun w => (dats m 0 c).arrAt w (cfgs 0).N) (Proc.devRef .tc main_arg1) = m ((c : Thread nD τ).loc main_arg1) :=
    (Pipeline.withArrays_of_ne _ c (V0 m c) _ main_arg1 (by exact (by decide : ∀ w, Pipeline.arrRef spec0 w ≠ main_arg1))).trans (V_main_arg1 m c)
  have e2 : Pipeline.withArrays (cfgs 0).spec c (V0 m c) (fun w => (dats m 0 c).arrAt w (cfgs 0).N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  have eA2 : Pipeline.withArrays (cfgs 0).spec c (V0 m c) (fun w => (dats m 0 c).arrAt w (cfgs 0).N) (Proc.devRef .tc main_v2_0) = (dats m 0 c).arrAt 2 cfg0.N :=
    Pipeline.withArrays_arr spec0 launch0.win.arr_inj c _ _ 2
  have eA3 : Pipeline.withArrays (cfgs 0).spec c (V0 m c) (fun w => (dats m 0 c).arrAt w (cfgs 0).N) (Proc.devRef .tc main_v2_1) = (dats m 0 c).arrAt 3 cfg0.N :=
    Pipeline.withArrays_arr spec0 launch0.win.arr_inj c _ _ 3
  unfold Pipeline.afterTail₀
  rw [tail_term]
  unfold kerRes
  rw [e1, e2, eA2, eA3]

/-- THE IDEALIZED KERNEL'S RUN, READ: where every label is 0 or 1, every weakly fair execution terminates with the
    result at the specification of the three argument arrays, and these unchanged. -/
theorem run_value (hlbl : ∀ (c : Dev nD) (i), m ((c : Thread nD τ).loc main_arg1) i = 0#32 ∨ m ((c : Thread nD τ).loc main_arg1) i = 1#32) :
    θ_run defs (onTc (τ := τ) (main (F := Ideal))) ⟨m, fun _ => 0, ρ⟩ (fun r => ∀ c : Dev nD,
      r.2.mem ((c.tc : Thread nD τ).loc main_v47)
          = spec bcast_S_S65536 bcast_S_S8388608 bcast_S8388608_S8388608x1_0 reducesTo_S65536_S_d0 reducesTo_S8388608_S_d0 h_S_ scatter_S65536_S8388608x1_S8388608_n_0_0_1
              (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
    (((h c).2 main_v47 (Pipeline.mem_restRefs_of main_v47 (by decide) (by decide))).trans (tail_eq m c)).trans ((kerFinish_eq _ _ _ _).trans
      (ker_is_spec bcast_S_S65536 bcast_S_S8388608 bcast_S8388608_S8388608x1_0 reducesTo_S65536_S_d0 reducesTo_S8388608_S_d0 h_S_ scatter_S65536_S8388608x1_S8388608_n_0_0_1
        shapeCasts_S8388608_S2x32768x128 shapeCasts_S2x32768x128_S8388608 reducesTo_S2x1x1_S_d0_1_2
        (m ((c.tc : Thread nD τ).loc main_arg0)) (m ((c.tc : Thread nD τ).loc main_arg1)) (m ((c.tc : Thread nD τ).loc main_arg2))
        ((dats m 0 c).arrAt 2 cfg0.N) ((dats m 0 c).arrAt 3 cfg0.N) (hlbl c) (final2 m c)
        (fun k => (congrFun (final3 m c) (ix3 k (0 : Fin 1) (0 : Fin 1))).trans (G3_apply m c k)))),
    (((h c).2 main_arg0 (Pipeline.mem_restRefs_of main_arg0 (by decide) (by decide))).trans (W_main_arg0 m (dats m) c)),
    (((h c).2 main_arg1 (Pipeline.mem_restRefs_of main_arg1 (by decide) (by decide))).trans (W_main_arg1 m (dats m) c)),
    (((h c).2 main_arg2 (Pipeline.mem_restRefs_of main_arg2 (by decide) (by decide))).trans (W_main_arg2 m (dats m) c))⟩)
    (run_main m ρ)

end Cert.KernelIdeal.Val

end
-- ==== Proof.RefRun.lean ====
/-
  The reference program run to its end: its host operations in order (the three `where`s jax outlined stand at their call
  sites), and the one result as the operations' composed term of the three argument arrays — the per-bag counts of
  negative and positive instances and the per-bag sum of log(1 − p + ε) over positive instances by scatter-add, the sum
  of log(1 − p + ε) over negative instances, and the two normalised losses added. Every weakly fair execution terminates
  with the result at that term and the arguments unchanged.
-/
import proofs.«144705_j45681272160447_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 83 host operations, in order. -/
abbrev ops : List (HloOp τ sig (Elt F)) :=
  [ nullary main_cst (constant (F := F) S_ .f32 0x3F800000#32),
    unary main_cst main_v0 (broadcastInDim S8388608 ![] bcast_S_S8388608 : (⟨S_, .f32⟩ : BufTy).Contents (Elt F) → (⟨S8388608, .f32⟩ : BufTy).Contents (Elt F)),
    binary main_v0 main_arg0 main_v1 (subf : (⟨S8388608, .f32⟩ : BufTy).Contents (Elt F) → (⟨S8388608, .f32⟩ : BufTy).Contents (Elt F) → (⟨S8388608, .f32⟩ : BufTy).Contents (Elt F)),
    nullary main_cst_0 (constant (F := F) S_ .f32 0x33D6BF95#32),
    unary main_cst_0 main_v2 (broadcastInDim S8388608 ![] bcast_S_S8388608 : (⟨S_, .f32⟩ : BufTy).Contents (Elt F) → (⟨S8388608, .f32⟩ : BufTy).Contents (Elt F)),
    binary main_v1 main_v2 main_v3 (addf : (⟨S8388608, .f32⟩ : BufTy).Contents (Elt F) → (⟨S8388608, .f32⟩ : BufTy).Contents (Elt F) → (⟨S8388608, .f32⟩ : BufTy).Contents (Elt F)),
    unary main_v3 main_v4 (Host.log : (⟨S8388608, .f32⟩ : BufTy).Contents (Elt F) → (⟨S8388608, .f32⟩ : BufTy).Contents (Elt F)),
    nullary main_c (constantI S_ 32 0#32),
    unary main_c main_v5 (broadcastInDim S8388608 ![] bcast_S_S8388608 : (⟨S_, .i32⟩ : BufTy).Contents (Elt F) → (⟨S8388608, .i32⟩ : BufTy).Contents (Elt F)),
    binary main_arg1 main_v5 main_v6 (cmpi .eq : (⟨S8388608, .i32⟩ : BufTy).Contents (Elt F) → (⟨S8388608, .i32⟩ : BufTy).Contents (Elt F) → (⟨S8388608, .i1⟩ : BufTy).Contents (Elt F)),
    nullary main_c_1 (constantI S_ 32 1#32),
    unary main_c_1 main_v7 (broadcastInDim S8388608 ![] bcast_S_S8388608 : (⟨S_, .i32⟩ : BufTy).Contents (Elt F) → (⟨S8388608, .i32⟩ : BufTy).Contents (Elt F)),
    binary main_arg1 main_v7 main_v8 (cmpi .eq : (⟨S8388608, .i32⟩ : BufTy).Contents (Elt F) → (⟨S8388608, .i32⟩ : BufTy).Contents (Elt F) → (⟨S8388608, .i1⟩ : BufTy).Contents (Elt F)),
    unary main_v6 main_v9 (uitofp .f32 : (⟨S8388608, .i1⟩ : BufTy).Contents (Elt F) → (⟨S8388608, .f32⟩ : BufTy).Contents (Elt F)),
    unary main_v8 main_v10 (uitofp .f32 : (⟨S8388608, .i1⟩ : BufTy).Contents (Elt F) → (⟨S8388608, .f32⟩ : BufTy).Contents (Elt F)),
    nullary main_cst_2 (constant (F := F) S_ .f32 0x00000000#32),
    unary main_cst_2 main_v11 (broadcastInDim S65536 ![] bcast_S_S65536 : (⟨S_, .f32⟩ : BufTy).Contents (Elt F) → (⟨S65536, .f32⟩ : BufTy).Contents (Elt F)),
    unary main_arg2 main_v12 (broadcastInDim S8388608x1 ![0] bcast_S8388608_S8388608x1_0 : (⟨S8388608, .i32⟩ : BufTy).Contents (Elt F) → (⟨S8388608x1, .i32⟩ : BufTy).Contents (Elt F)),
    ternary main_v11 main_v12 main_v9 main_v13 ((fun x i u => Host.scatterAdd scatter_S65536_S8388608x1_S8388608_n_0_0_1 x i u) : (⟨S65536, .f32⟩ : BufTy).Contents (Elt F) → (⟨S8388608x1, .i32⟩ : BufTy).Contents (Elt F) → (⟨S8388608, .f32⟩ : BufTy).Contents (Elt F) → (⟨S65536, .f32⟩ : BufTy).Contents (Elt F)),
    nullary main_cst_3 (constant (F := F) S_ .f32 0x00000000#32),
    unary main_cst_3 main_v14 (broadcastInDim S65536 ![] bcast_S_S65536 : (⟨S_, .f32⟩ : BufTy).Contents (Elt F) → (⟨S65536, .f32⟩ : BufTy).Contents (Elt F)),
    binary main_v13 main_v14 main_v15 (cmpf .ogt : (⟨S65536, .f32⟩ : BufTy).Contents (Elt F) → (⟨S65536, .f32⟩ : BufTy).Contents (Elt F) → (⟨S65536, .i1⟩ : BufTy).Contents (Elt F)),
    unary main_v15 main_v16 (uitofp .f32 : (⟨S65536, .i1⟩ : BufTy).Contents (Elt F) → (⟨S65536, .f32⟩ : BufTy).Contents (Elt F)),
    nullary main_cst_4 (constant (F := F) S_ .f32 0x00000000#32),
    binary main_v16 main_cst_4 main_v17 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    binary main_v9 main_v4 main_v18 (mulf : (⟨S8388608, .f32⟩ : BufTy).Contents (Elt F) → (⟨S8388608, .f32⟩ : BufTy).Contents (Elt F) → (⟨S8388608, .f32⟩ : BufTy).Contents (Elt F)),
    nullary main_cst_5 (constant (F := F) S_ .f32 0x00000000#32),
    binary main_v18 main_cst_5 main_v19 ((fun x v => Host.reduceAdd x v reducesTo_S8388608_S_d0 h_S_) : (⟨S8388608, .f32⟩ : BufTy).Contents (Elt F) → (⟨S_, .f32⟩ : BufTy).Contents (Elt F) → (⟨S_, .f32⟩ : BufTy).Contents (Elt F)),
    nullary main_cst_6 (constant (F := F) S_ .f32 0x00000000#32),
    binary main_v17 main_cst_6 main_v20 (cmpf .ogt : (⟨S_, .f32⟩ : BufTy).Contents (Elt F) → (⟨S_, .f32⟩ : BufTy).Contents (Elt F) → (⟨S_, .i1⟩ : BufTy).Contents (Elt F)),
    nullary main_cst_7 (constant (F := F) S_ .f32 0x3F800000#32),
    binary main_cst_7 main_v19 main_v21 (mulf : (⟨S_, .f32⟩ : BufTy).Contents (Elt F) → (⟨S_, .f32⟩ : BufTy).Contents (Elt F) → (⟨S_, .f32⟩ : BufTy).Contents (Elt F)),
    unary main_v21 main_v22 (Host.negf : (⟨S_, .f32⟩ : BufTy).Contents (Elt F) → (⟨S_, .f32⟩ : BufTy).Contents (Elt F)),
    nullary main_cst_8 (constant (F := F) S_ .f32 0x3F800000#32),
    binary main_v17 main_cst_8 main_v23 (maximumf : (⟨S_, .f32⟩ : BufTy).Contents (Elt F) → (⟨S_, .f32⟩ : BufTy).Contents (Elt F) → (⟨S_, .f32⟩ : BufTy).Contents (Elt F)),
    binary main_v22 main_v23 main_v24 (Host.divf : (⟨S_, .f32⟩ : BufTy).Contents (Elt F) → (⟨S_, .f32⟩ : BufTy).Contents (Elt F) → (⟨S_, .f32⟩ : BufTy).Contents (Elt F)),
    nullary main_cst_9 (constant (F := F) S_ .f32 0x00000000#32),
    TRef.unary (TRef.of (T := ⟨S_, .f32⟩) main_cst_9) (TRef.of (T := ⟨S_, .f32⟩) main_call0_v0) id,
    TRef.ternary (TRef.of (T := ⟨S_, .i1⟩) main_v20) (TRef.of (T := ⟨S_, .f32⟩) main_v24) (TRef.of (T := ⟨S_, .f32⟩) main_call0_v0) (TRef.of (T := ⟨S_, .f32⟩) main_v25) select,
    nullary main_cst_10 (constant (F := F) S_ .f32 0x00000000#32),
    unary main_cst_10 main_v26 (broadcastInDim S65536 ![] bcast_S_S65536 : (⟨S_, .f32⟩ : BufTy).Contents (Elt F) → (⟨S65536, .f32⟩ : BufTy).Contents (Elt F)),
    unary main_arg2 main_v27 (broadcastInDim S8388608x1 ![0] bcast_S8388608_S8388608x1_0 : (⟨S8388608, .i32⟩ : BufTy).Contents (Elt F) → (⟨S8388608x1, .i32⟩ : BufTy).Contents (Elt F)),
    ternary main_v26 main_v27 main_v10 main_v28 ((fun x i u => Host.scatterAdd scatter_S65536_S8388608x1_S8388608_n_0_0_1 x i u) : (⟨S65536, .f32⟩ : BufTy).Contents (Elt F) → (⟨S8388608x1, .i32⟩ : BufTy).Contents (Elt F) → (⟨S8388608, .f32⟩ : BufTy).Contents (Elt F) → (⟨S65536, .f32⟩ : BufTy).Contents (Elt F)),
    nullary main_cst_11 (constant (F := F) S_ .f32 0x00000000#32),
    unary main_cst_11 main_v29 (broadcastInDim S65536 ![] bcast_S_S65536 : (⟨S_, .f32⟩ : BufTy).Contents (Elt F) → (⟨S65536, .f32⟩ : BufTy).Contents (Elt F)),
    binary main_v28 main_v29 main_v30 (cmpf .ogt : (⟨S65536, .f32⟩ : BufTy).Contents (Elt F) → (⟨S65536, .f32⟩ : BufTy).Contents (Elt F) → (⟨S65536, .i1⟩ : BufTy).Contents (Elt F)),
    unary main_v30 main_v31 (uitofp .f32 : (⟨S65536, .i1⟩ : BufTy).Contents (Elt F) → (⟨S65536, .f32⟩ : BufTy).Contents (Elt F)),
    nullary main_cst_12 (constant (F := F) S_ .f32 0x00000000#32),
    binary main_v31 main_cst_12 main_v32 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    binary main_v10 main_v4 main_v33 (mulf : (⟨S8388608, .f32⟩ : BufTy).Contents (Elt F) → (⟨S8388608, .f32⟩ : BufTy).Contents (Elt F) → (⟨S8388608, .f32⟩ : BufTy).Contents (Elt F)),
    nullary main_cst_13 (constant (F := F) S_ .f32 0x00000000#32),
    unary main_cst_13 main_v34 (broadcastInDim S65536 ![] bcast_S_S65536 : (⟨S_, .f32⟩ : BufTy).Contents (Elt F) → (⟨S65536, .f32⟩ : BufTy).Contents (Elt F)),
    unary main_arg2 main_v35 (broadcastInDim S8388608x1 ![0] bcast_S8388608_S8388608x1_0 : (⟨S8388608, .i32⟩ : BufTy).Contents (Elt F) → (⟨S8388608x1, .i32⟩ : BufTy).Contents (Elt F)),
    ternary main_v34 main_v35 main_v33 main_v36 ((fun x i u => Host.scatterAdd scatter_S65536_S8388608x1_S8388608_n_0_0_1 x i u) : (⟨S65536, .f32⟩ : BufTy).Contents (Elt F) → (⟨S8388608x1, .i32⟩ : BufTy).Contents (Elt F) → (⟨S8388608, .f32⟩ : BufTy).Contents (Elt F) → (⟨S65536, .f32⟩ : BufTy).Contents (Elt F)),
    unary main_v36 main_v37 (Host.exp : (⟨S65536, .f32⟩ : BufTy).Contents (Elt F) → (⟨S65536, .f32⟩ : BufTy).Contents (Elt F)),
    nullary main_cst_14 (constant (F := F) S_ .f32 0x3F800000#32),
    unary main_cst_14 main_v38 (broadcastInDim S65536 ![] bcast_S_S65536 : (⟨S_, .f32⟩ : BufTy).Contents (Elt F) → (⟨S65536, .f32⟩ : BufTy).Contents (Elt F)),
    binary main_v37 main_v38 main_v39 (minimumf : (⟨S65536, .f32⟩ : BufTy).Contents (Elt F) → (⟨S65536, .f32⟩ : BufTy).Contents (Elt F) → (⟨S65536, .f32⟩ : BufTy).Contents (Elt F)),
    nullary main_cst_15 (constant (F := F) S_ .f32 0x3F800000#32),
    unary main_cst_15 main_v40 (broadcastInDim S65536 ![] bcast_S_S65536 : (⟨S_, .f32⟩ : BufTy).Contents (Elt F) → (⟨S65536, .f32⟩ : BufTy).Contents (Elt F)),
    binary main_v40 main_v39 main_v41 (subf : (⟨S65536, .f32⟩ : BufTy).Contents (Elt F) → (⟨S65536, .f32⟩ : BufTy).Contents (Elt F) → (⟨S65536, .f32⟩ : BufTy).Contents (Elt F)),
    nullary main_cst_16 (constant (F := F) S_ .f32 0x33D6BF95#32),
    unary main_cst_16 main_v42 (broadcastInDim S65536 ![] bcast_S_S65536 : (⟨S_, .f32⟩ : BufTy).Contents (Elt F) → (⟨S65536, .f32⟩ : BufTy).Contents (Elt F)),
    binary main_v41 main_v42 main_v43 (addf : (⟨S65536, .f32⟩ : BufTy).Contents (Elt F) → (⟨S65536, .f32⟩ : BufTy).Contents (Elt F) → (⟨S65536, .f32⟩ : BufTy).Contents (Elt F)),
    unary main_v43 main_v44 (Host.log : (⟨S65536, .f32⟩ : BufTy).Contents (Elt F) → (⟨S65536, .f32⟩ : BufTy).Contents (Elt F)),
    nullary main_cst_17 (constant (F := F) S_ .f32 0x00000000#32),
    TRef.unary (TRef.of (T := ⟨S_, .f32⟩) main_cst_17) (TRef.of (T := ⟨S_, .f32⟩) main_call1_v0) id,
    TRef.unary (TRef.of (T := ⟨S_, .f32⟩) main_call1_v0) (TRef.of (T := ⟨S65536, .f32⟩) main_call1_v1) (broadcastInDim S65536 ![] bcast_S_S65536),
    TRef.ternary (TRef.of (T := ⟨S65536, .i1⟩) main_v30) (TRef.of (T := ⟨S65536, .f32⟩) main_v44) (TRef.of (T := ⟨S65536, .f32⟩) main_call1_v1) (TRef.of (T := ⟨S65536, .f32⟩) main_v45) select,
    nullary main_cst_18 (constant (F := F) S_ .f32 0x00000000#32),
    binary main_v32 main_cst_18 main_v46 (cmpf .ogt : (⟨S_, .f32⟩ : BufTy).Contents (Elt F) → (⟨S_, .f32⟩ : BufTy).Contents (Elt F) → (⟨S_, .i1⟩ : BufTy).Contents (Elt F)),
    nullary main_cst_19 (constant (F := F) S_ .f32 0x00000000#32),
    binary main_v45 main_cst_19 main_v47 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    nullary main_cst_20 (constant (F := F) S_ .f32 0x3F800000#32),
    binary main_cst_20 main_v47 main_v48 (mulf : (⟨S_, .f32⟩ : BufTy).Contents (Elt F) → (⟨S_, .f32⟩ : BufTy).Contents (Elt F) → (⟨S_, .f32⟩ : BufTy).Contents (Elt F)),
    unary main_v48 main_v49 (Host.negf : (⟨S_, .f32⟩ : BufTy).Contents (Elt F) → (⟨S_, .f32⟩ : BufTy).Contents (Elt F)),
    nullary main_cst_21 (constant (F := F) S_ .f32 0x3F800000#32),
    binary main_v32 main_cst_21 main_v50 (maximumf : (⟨S_, .f32⟩ : BufTy).Contents (Elt F) → (⟨S_, .f32⟩ : BufTy).Contents (Elt F) → (⟨S_, .f32⟩ : BufTy).Contents (Elt F)),
    binary main_v49 main_v50 main_v51 (Host.divf : (⟨S_, .f32⟩ : BufTy).Contents (Elt F) → (⟨S_, .f32⟩ : BufTy).Contents (Elt F) → (⟨S_, .f32⟩ : BufTy).Contents (Elt F)),
    nullary main_cst_22 (constant (F := F) S_ .f32 0x00000000#32),
    TRef.unary (TRef.of (T := ⟨S_, .f32⟩) main_cst_22) (TRef.of (T := ⟨S_, .f32⟩) main_call2_v0) id,
    TRef.ternary (TRef.of (T := ⟨S_, .i1⟩) main_v46) (TRef.of (T := ⟨S_, .f32⟩) main_v51) (TRef.of (T := ⟨S_, .f32⟩) main_call2_v0) (TRef.of (T := ⟨S_, .f32⟩) main_v52) select,
    binary main_v25 main_v52 main_v53 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., unary_bufs_sub .., ternary_bufs_sub .., nullary_bufs_sub .., unary_bufs_sub .., binary_bufs_sub .., unary_bufs_sub .., nullary_bufs_sub .., binary_bufs_sub .., binary_bufs_sub .., nullary_bufs_sub .., binary_bufs_sub .., nullary_bufs_sub .., binary_bufs_sub .., nullary_bufs_sub .., binary_bufs_sub .., unary_bufs_sub .., nullary_bufs_sub .., binary_bufs_sub .., binary_bufs_sub .., nullary_bufs_sub .., unary_bufs_sub .., ternary_bufs_sub .., nullary_bufs_sub .., unary_bufs_sub .., unary_bufs_sub .., ternary_bufs_sub .., nullary_bufs_sub .., unary_bufs_sub .., binary_bufs_sub .., unary_bufs_sub .., nullary_bufs_sub .., binary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., unary_bufs_sub .., nullary_bufs_sub .., binary_bufs_sub .., binary_bufs_sub .., nullary_bufs_sub .., unary_bufs_sub .., ternary_bufs_sub .., binary_bufs_sub ..⟩

set_option maxRecDepth 8192 in
/-- The result as the operations' composed term of the argument arrays. -/
def res (m : (ℓ : Loc nD τ sig) → Buf (Elt F) ℓ) (c : Dev nD) : Buf (Elt F) ((c.tc : Thread nD τ).loc main_v53) :=
  addf (select (cmpf .ogt (Host.reduceAdd (uitofp .f32 (cmpf .ogt (Host.scatterAdd scatter_S65536_S8388608x1_S8388608_n_0_0_1 (broadcastInDim S65536 ![] bcast_S_S65536 (constant (F := F) S_ .f32 0x00000000#32)) (broadcastInDim S8388608x1 ![0] bcast_S8388608_S8388608x1_0 (m ((c.tc : Thread nD τ).loc main_arg2))) (uitofp .f32 (cmpi .eq (m ((c.tc : Thread nD τ).loc main_arg1)) (broadcastInDim S8388608 ![] bcast_S_S8388608 (constantI S_ 32 0#32))))) (broadcastInDim S65536 ![] bcast_S_S65536 (constant (F := F) S_ .f32 0x00000000#32)))) (constant (F := F) S_ .f32 0x00000000#32) reducesTo_S65536_S_d0 h_S_) (constant (F := F) S_ .f32 0x00000000#32)) (Host.divf (Host.negf (mulf (constant (F := F) S_ .f32 0x3F800000#32) (Host.reduceAdd (mulf (uitofp .f32 (cmpi .eq (m ((c.tc : Thread nD τ).loc main_arg1)) (broadcastInDim S8388608 ![] bcast_S_S8388608 (constantI S_ 32 0#32)))) (Host.log (addf (subf (broadcastInDim S8388608 ![] bcast_S_S8388608 (constant (F := F) S_ .f32 0x3F800000#32)) (m ((c.tc : Thread nD τ).loc main_arg0))) (broadcastInDim S8388608 ![] bcast_S_S8388608 (constant (F := F) S_ .f32 0x33D6BF95#32))))) (constant (F := F) S_ .f32 0x00000000#32) reducesTo_S8388608_S_d0 h_S_))) (maximumf (Host.reduceAdd (uitofp .f32 (cmpf .ogt (Host.scatterAdd scatter_S65536_S8388608x1_S8388608_n_0_0_1 (broadcastInDim S65536 ![] bcast_S_S65536 (constant (F := F) S_ .f32 0x00000000#32)) (broadcastInDim S8388608x1 ![0] bcast_S8388608_S8388608x1_0 (m ((c.tc : Thread nD τ).loc main_arg2))) (uitofp .f32 (cmpi .eq (m ((c.tc : Thread nD τ).loc main_arg1)) (broadcastInDim S8388608 ![] bcast_S_S8388608 (constantI S_ 32 0#32))))) (broadcastInDim S65536 ![] bcast_S_S65536 (constant (F := F) S_ .f32 0x00000000#32)))) (constant (F := F) S_ .f32 0x00000000#32) reducesTo_S65536_S_d0 h_S_) (constant (F := F) S_ .f32 0x3F800000#32))) (id (constant (F := F) S_ .f32 0x00000000#32))) (select (cmpf .ogt (Host.reduceAdd (uitofp .f32 (cmpf .ogt (Host.scatterAdd scatter_S65536_S8388608x1_S8388608_n_0_0_1 (broadcastInDim S65536 ![] bcast_S_S65536 (constant (F := F) S_ .f32 0x00000000#32)) (broadcastInDim S8388608x1 ![0] bcast_S8388608_S8388608x1_0 (m ((c.tc : Thread nD τ).loc main_arg2))) (uitofp .f32 (cmpi .eq (m ((c.tc : Thread nD τ).loc main_arg1)) (broadcastInDim S8388608 ![] bcast_S_S8388608 (constantI S_ 32 1#32))))) (broadcastInDim S65536 ![] bcast_S_S65536 (constant (F := F) S_ .f32 0x00000000#32)))) (constant (F := F) S_ .f32 0x00000000#32) reducesTo_S65536_S_d0 h_S_) (constant (F := F) S_ .f32 0x00000000#32)) (Host.divf (Host.negf (mulf (constant (F := F) S_ .f32 0x3F800000#32) (Host.reduceAdd (select (cmpf .ogt (Host.scatterAdd scatter_S65536_S8388608x1_S8388608_n_0_0_1 (broadcastInDim S65536 ![] bcast_S_S65536 (constant (F := F) S_ .f32 0x00000000#32)) (broadcastInDim S8388608x1 ![0] bcast_S8388608_S8388608x1_0 (m ((c.tc : Thread nD τ).loc main_arg2))) (uitofp .f32 (cmpi .eq (m ((c.tc : Thread nD τ).loc main_arg1)) (broadcastInDim S8388608 ![] bcast_S_S8388608 (constantI S_ 32 1#32))))) (broadcastInDim S65536 ![] bcast_S_S65536 (constant (F := F) S_ .f32 0x00000000#32))) (Host.log (addf (subf (broadcastInDim S65536 ![] bcast_S_S65536 (constant (F := F) S_ .f32 0x3F800000#32)) (minimumf (Host.exp (Host.scatterAdd scatter_S65536_S8388608x1_S8388608_n_0_0_1 (broadcastInDim S65536 ![] bcast_S_S65536 (constant (F := F) S_ .f32 0x00000000#32)) (broadcastInDim S8388608x1 ![0] bcast_S8388608_S8388608x1_0 (m ((c.tc : Thread nD τ).loc main_arg2))) (mulf (uitofp .f32 (cmpi .eq (m ((c.tc : Thread nD τ).loc main_arg1)) (broadcastInDim S8388608 ![] bcast_S_S8388608 (constantI S_ 32 1#32)))) (Host.log (addf (subf (broadcastInDim S8388608 ![] bcast_S_S8388608 (constant (F := F) S_ .f32 0x3F800000#32)) (m ((c.tc : Thread nD τ).loc main_arg0))) (broadcastInDim S8388608 ![] bcast_S_S8388608 (constant (F := F) S_ .f32 0x33D6BF95#32))))))) (broadcastInDim S65536 ![] bcast_S_S65536 (constant (F := F) S_ .f32 0x3F800000#32)))) (broadcastInDim S65536 ![] bcast_S_S65536 (constant (F := F) S_ .f32 0x33D6BF95#32)))) (broadcastInDim S65536 ![] bcast_S_S65536 (id (constant (F := F) S_ .f32 0x00000000#32)))) (constant (F := F) S_ .f32 0x00000000#32) reducesTo_S65536_S_d0 h_S_))) (maximumf (Host.reduceAdd (uitofp .f32 (cmpf .ogt (Host.scatterAdd scatter_S65536_S8388608x1_S8388608_n_0_0_1 (broadcastInDim S65536 ![] bcast_S_S65536 (constant (F := F) S_ .f32 0x00000000#32)) (broadcastInDim S8388608x1 ![0] bcast_S8388608_S8388608x1_0 (m ((c.tc : Thread nD τ).loc main_arg2))) (uitofp .f32 (cmpi .eq (m ((c.tc : Thread nD τ).loc main_arg1)) (broadcastInDim S8388608 ![] bcast_S_S8388608 (constantI S_ 32 1#32))))) (broadcastInDim S65536 ![] bcast_S_S65536 (constant (F := F) S_ .f32 0x00000000#32)))) (constant (F := F) S_ .f32 0x00000000#32) reducesTo_S65536_S_d0 h_S_) (constant (F := F) S_ .f32 0x3F800000#32))) (id (constant (F := F) S_ .f32 0x00000000#32)))

set_option maxRecDepth 8192 in
set_option maxHeartbeats 33200000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v53).trans (by after_results_simp <;> rfl <;> (unfold res; rfl)),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.ReferenceIdeal.RefRun

end
-- ==== Proof.RefIsSpec.lean ====
/-
  The reference computes the specification: the composed term of its host operations, read at the ideal
  instance, is `spec` of the three argument arrays — the same operations in the same order and nesting,
  the shape relations being the reference's own.
-/
import proofs.«144705_j45681272160447_2_alg».proof.Proof.RefRun
import proofs.«144705_j45681272160447_2_alg».proof.Proof.RefSpec

noncomputable section

namespace Cert.RefSpec

open Cert.ReferenceIdeal Cert.ReferenceIdeal.Gen Idealize.ShloMosaic Idealize.ShloMosaic.TcCoe Idealize.SL.Sem Idealize.ShloMosaic.StableHlo

set_option maxRecDepth 8192 in
/-- The reference's result term at the ideal instance is the specification of its three arguments. -/
theorem ref_is_spec (m : (ℓ : Loc nD τ sig) → Buf (Elt Ideal) ℓ) (c : Dev nD) :
    Cert.ReferenceIdeal.RefRun.res (F := Ideal) m c
      = spec bcast_S_S65536 bcast_S_S8388608 bcast_S8388608_S8388608x1_0 reducesTo_S65536_S_d0
          reducesTo_S8388608_S_d0 h_S_ scatter_S65536_S8388608x1_S8388608_n_0_0_1
          (m ((c.tc : Thread nD τ).loc main_arg0)) (m ((c.tc : Thread nD τ).loc main_arg1))
          (m ((c.tc : Thread nD τ).loc main_arg2)) := by
  unfold Cert.ReferenceIdeal.RefRun.res spec finish logNot negMask posMask
  rfl

end Cert.RefSpec

end
-- ==== Proof.PreLabels.lean ====
/-
  What the precondition says of the labels: every label is 0 or 1.

  The precondition is the conjunction of two "for all entries" tests, each an and-reduction of a
  one-bit array from the constant 1: that |p| is below +infinity at every entry, and that
  (label = 0) or (label = 1) at every entry. When the conjunction is the bit 1 both reductions are 1;
  an and-reduction over all entries that is 1 met a 1 at every entry; and the bit (a = 0) | (a = 1)
  being 1 says that a is 0 or a is 1.
-/
import proofs.«144705_j45681272160447_2_alg».proof.Pre_finite_inputs
import proofs.«144705_j45681272160447_2_alg».proof.Proof.Gen.Pre_finite_inputs
import Idealize.ShloMosaic.Lib.ReduceAll
import Idealize.ShloMosaic.Lib.ValueIdx

noncomputable section

namespace Cert.RefSpec

open Idealize.ShloMosaic Idealize.ShloMosaic.ValueIdx

/-- A scalar has one index. -/
instance subsingleton_scalar_idx : Subsingleton (Cert.Pre_finite_inputs.S_).Idx :=
  ⟨fun a b => funext fun d => d.elim0⟩

/-- Under the precondition every label is 0 or 1. -/
theorem labels_zero_or_one {F : FTy → Type} [FloatOps F]
    (x : FVec F Cert.Pre_finite_inputs.S8388608 .f32) (lbl bag : IVec Cert.Pre_finite_inputs.S8388608 32)
    (hpre : Cert.Pre_finite_inputs.fn (F := F) x lbl bag = (fun _ => 1#1)) :
    ∀ i, lbl i = 0#32 ∨ lbl i = 1#32 := by
  intro i
  have h0 := congrFun hpre ix0
  dsimp only [Cert.Pre_finite_inputs.fn] at h0
  obtain ⟨-, hall⟩ := IntOp.andi_eq_one.1 h0
  have hi := Host.reduce_andi_all _ _ _ _ _ hall i
  rcases IntOp.ori_eq_one.1 hi with h | h
  · exact Or.inl (IntOp.cmpi_eq.1 h)
  · exact Or.inr (IntOp.cmpi_eq.1 h)

end Cert.RefSpec

end
-- ==== Proof.lean ====
/-
  The five claims of this certificate, assembled.

  The kernel splits 8,388,608 instances over a 2 × 8 grid of [4096, 128] blocks. Each block stores
  (label = 1) · log(1 − p + ε) into one big output array and adds the block's sum of (label = 0) · log(1 − p + ε) to an
  accumulator that is reset at the first of a core's eight blocks and written out at the last; the host then
  scatter-adds label, 1 − label and the big output array into 65536 bags by bag id, adds the two per-core sums, and
  forms the two normalised losses. The reference computes the same four quantities with the masks (label = 0) and
  (label = 1) throughout and one flat sum, and ends with the same operations.

  The three frames: each program runs to its end and leaves its arguments as given (the kernel's two, at the word
  level and idealized, by running its body once per kind of block; the reference's from its run). Nothing was rewritten
  by the idealization. And over the extended reals the two results agree wherever every label is 0 or 1 — which the
  precondition states — because then label and 1 − label are the two masks, the big output array is the reference's
  product array in another layout, and the per-core sums add up to the reference's flat sum (a finite sum regrouped by
  core, block, row and lane: addition of extended reals is commutative and associative).
-/
import proofs.«144705_j45681272160447_2_alg».proof.Defs
import proofs.«144705_j45681272160447_2_alg».proof.Proof.Gen.Kernel
import proofs.«144705_j45681272160447_2_alg».proof.Proof.Gen.KernelIdeal
import proofs.«144705_j45681272160447_2_alg».proof.Proof.Gen.ReferenceIdeal
import proofs.«144705_j45681272160447_2_alg».proof.Proof.Gen.Pre_finite_inputs
import proofs.«144705_j45681272160447_2_alg».proof.Proof.KerBitsFrame
import proofs.«144705_j45681272160447_2_alg».proof.Proof.KerIdealFrame
import proofs.«144705_j45681272160447_2_alg».proof.Proof.KerIdealTail
import proofs.«144705_j45681272160447_2_alg».proof.Proof.RefRun
import proofs.«144705_j45681272160447_2_alg».proof.Proof.RefIsSpec
import proofs.«144705_j45681272160447_2_alg».proof.Proof.PreLabels
import Idealize.ShloMosaic.Adequacy
import Idealize.ShloMosaic.Init

noncomputable section

namespace Cert.Proof

open Idealize.ShloMosaic Idealize.SL.Sem

/-- The word-level kernel runs to its end and leaves its arguments as given. -/
theorem frame_kernel : Cert.frame_Kernel := fun m ρ _ => Cert.Kernel.Fr.frame m ρ

/-- So does the idealized kernel. -/
theorem frame_kernelIdeal : Cert.frame_KernelIdeal := fun m ρ _ => Cert.KernelIdeal.Fr.frame m ρ

/-- And the reference: its run, the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Over the extended reals, from memories agreeing on the arguments, both programs end at the specification of the
    arguments: the kernel's because the precondition makes every label 0 or 1, the reference's as it stands. -/
theorem algebraic : Cert.algebraic_KernelIdeal_ReferenceIdeal := by
  intro m ρ m' ρ' hpre hagree
  have hlbl : ∀ (c : Dev Cert.KernelIdeal.nD) (i),
      m ((c.tc : Thread Cert.KernelIdeal.nD Cert.KernelIdeal.τ).loc Cert.KernelIdeal.main_arg1) i = 0#32
        ∨ m ((c.tc : Thread Cert.KernelIdeal.nD Cert.KernelIdeal.τ).loc Cert.KernelIdeal.main_arg1) i = 1#32 :=
    fun c => Cert.RefSpec.labels_zero_or_one _ _ _ (hpre c)
  refine ⟨_, Cert.KernelIdeal.Val.run_value m ρ hlbl, ?_⟩
  refine (θ_run Cert.ReferenceIdeal.defs _ _).mono (fun _ h c => ⟨(h c).1.trans ?_, (h c).2⟩)
    (Cert.ReferenceIdeal.RefRun.run (F := Ideal) m' ρ')
  rw [Cert.RefSpec.ref_is_spec, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
